-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S100000x128 .f32) (main_v33 : IVec S_ 1) : IVec S_ 1 :=
  let main_v34 : FVec F S100000x128 .f32 := Host.absf main_arg7
  let main_cst_12 : FVec F S_ .f32 := constant S_ .f32 0x7F800000#32
  let main_v35 : FVec F S100000x128 .f32 := broadcastInDim S100000x128 ![] bcast_S_S100000x128 main_cst_12
  let main_v36 : IVec S100000x128 1 := cmpf .olt main_v34 main_v35
  let main_c_13 : IVec S_ 1 := constantI S_ 1 1#1
  let main_v37 : IVec S_ 1 := (fun x v => Host.reduce IntOp.andi x v reducesTo_S100000x128_S_d0_1 h_S_) main_v36 main_c_13
  let main_v38 : IVec S_ 1 := andi main_v33 main_v37
  main_v38

def fn_part1 {F : FTy → Type} [FloatOps F] (main_arg4 : FVec F S128 .f32) (main_arg5 : FVec F S128 .f32) (main_arg6 : FVec F S128 .f32) (main_arg7 : FVec F S100000x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_v33

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : FVec F S128 .f32) (main_arg6 : FVec F S128 .f32) (main_arg7 : FVec F S100000x128 .f32) (main_arg8 : IVec S1600000 32) (main_arg9 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_v13 main_v16
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S16x128 : Shape := ⟨2, ![16, 128]⟩
abbrev S2000x128 : Shape := ⟨2, ![2000, 128]⟩
abbrev S2000x1 : Shape := ⟨2, ![2000, 1]⟩
abbrev S8x128 : Shape := ⟨2, ![8, 128]⟩
abbrev S10000x128 : Shape := ⟨2, ![10000, 128]⟩

abbrev nBuf : Space → Nat
  | .hbm => 75
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S100000x128, .f32⟩
  | .hbm, ⟨8, _⟩ => ⟨S1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S100000, .f32⟩
  | .hbm, ⟨46, _⟩ => ⟨S100000x1, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S100000x128, .f32⟩
  | .hbm, ⟨52, _⟩ => ⟨S16x128, .f32⟩
  | .hbm, ⟨53, _⟩ => ⟨S16x128, .f32⟩
  | .hbm, ⟨54, _⟩ => ⟨S1x128, .f32⟩
  | .hbm, ⟨55, _⟩ => ⟨S128, .f32⟩
  | .hbm, ⟨56, _⟩ => ⟨S1x128, .f32⟩
  | .hbm, ⟨57, _⟩ => ⟨S128, .f32⟩
  | .hbm, ⟨58, _⟩ => ⟨S128, .f32⟩
  | .hbm, ⟨59, _⟩ => ⟨S1x128, .f32⟩
  | .hbm, ⟨60, _⟩ => ⟨S128, .f32⟩
  | .hbm, ⟨61, _⟩ => ⟨S1x128, .f32⟩
  | .hbm, ⟨62, _⟩ => ⟨S128, .f32⟩
  | .hbm, ⟨63, _⟩ => ⟨S128, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S1x128, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S8x128, .f32⟩
  | .local _ .vmem, ⟨15, _⟩ => ⟨S8x128, .f32⟩
  | .local _ .vmem, ⟨16, _⟩ => ⟨S8x128, .f32⟩
  | .local _ .vmem, ⟨17, _⟩ => ⟨S8x128, .f32⟩
  | .local _ .vmem, ⟨18, _⟩ => ⟨S1x128, .f32⟩
  | .local _ .vmem, ⟨19, _⟩ => ⟨S1x128, .f32⟩
  | .local _ .vmem, ⟨20, _⟩ => ⟨S10000x128, .f32⟩
  | .local _ .vmem, ⟨21, _⟩ => ⟨S10000x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S10000x128, .f32⟩
  | .local _ .vmem, ⟨27, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_4 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_5 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29_0 : Ref sig .tc := ⟨.hbm, 51, rfl⟩
abbrev main_v29_1 : Ref sig .tc := ⟨.hbm, 52, rfl⟩
abbrev main_v29_2 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_6 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_7 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg5_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc1_sem0_0 : DmaSem sig := 18
abbrev cc1_sem0_1 : DmaSem sig := 19
abbrev cc1_sem1_0 : DmaSem sig := 20
abbrev cc1_sem2_0 : DmaSem sig := 21
abbrev cc1_sem3_0 : DmaSem sig := 22
abbrev cc1_sem4_0 : DmaSem sig := 23
abbrev cc1_sem5_0 : DmaSem sig := 24
abbrev cc1_sem5_1 : DmaSem sig := 25

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v45 : BitVec 1 := Scalar.cmpi .eq arg1 c24_i32
  let v46 : BitVec 32 := Scalar.extui v45
  let c0_i32_29 : BitVec 32 := 0#32
  let v47 : BitVec 1 := Scalar.cmpi .ne v46 c0_i32_29
  v47

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S100000_S100000x1 : S100000.ShapeCasts S100000x1
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  broadcasts_S1x128_S2000x128 : S1x128.Broadcasts S2000x128
  reduces_S2000x128_S128 : S2000x128.Reduces [0] S128
  broadcasts_S1x128_S8x128 : S1x128.Broadcasts S8x128
  inb_S8x128_S8x128_0_0 : ∀ a, (![0, 0] : Fin 2 → Nat) a + S8x128.size a ≤ S8x128.size a
  h_S8x128 : 0 < S8x128.numel
  slices_S16x128_S1x128_0_0 : S16x128.Slices ![0, 0] S1x128
  shapeCasts_S1x128_S128 : S1x128.ShapeCasts S128
  slices_S16x128_S1x128_8_0 : S16x128.Slices ![8, 0] S1x128
  bcast_S_S128 : S_.BroadcastsInDim S128 (![] : Fin 0 → Fin S128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S1x128_S10000x128 : S1x128.Broadcasts S10000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S100000x128.size a
  hwx0_7 : ∀ i : grid0.Coords, EltTy.bits .f32 = 32 ∨ (Rect.block (s := S100000x128) S2000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S100000x128.size a
  hwx0_8 : ∀ i : grid0.Coords, EltTy.bits .f32 = 32 ∨ (Rect.block (s := S100000x128) S2000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x128.size a ≤ S16x128.size a
  hwx0_9 : ∀ i : grid0.Coords, EltTy.bits .f32 = 32 ∨ (Rect.block (s := S16x128) S8x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8x128.size a ≤ S16x128.size a
  hwx0_10 : ∀ i : grid0.Coords, EltTy.bits .f32 = 32 ∨ (Rect.block (s := S16x128) S8x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S100000x128.size a
  hwx1_5 : ∀ i : grid1.Coords, EltTy.bits .f32 = 32 ∨ (Rect.block (s := S100000x128) S10000x128.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S2000x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v29_0) S2000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v29_1) S8x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v29_2) S8x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | 10 => fun i => !(k0_cond2 i == 1#1) | ⟨_ + 11, h⟩ => absurd h (Nat.not_lt.2 (Nat.le_add_left _ _))

abbrev win1_0 : Pipeline.Window sig grid1 :=
  Pipeline.Window.ofSpec (Memref.whole main_v29_0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S100000x128, .f32⟩
  | .hbm, ⟨8, _⟩ => ⟨S1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S100000, .f32⟩
  | .hbm, ⟨46, _⟩ => ⟨S100000x1, .f32⟩
  | .hbm, ⟨47, _⟩ => ⟨S100000x128, .f32⟩
  | .hbm, ⟨48, _⟩ => ⟨S100000x128, .f32⟩
  | .hbm, ⟨49, _⟩ => ⟨S100000x128, .f32⟩
  | .hbm, ⟨50, _⟩ => ⟨S1x128, .f32⟩
  | .hbm, ⟨51, _⟩ => ⟨S100000x128, .f32⟩
  | .hbm, ⟨52, _⟩ => ⟨S100000x128, .f32⟩
  | .hbm, ⟨53, _⟩ => ⟨S100000x128, .f32⟩
  | .hbm, ⟨54, _⟩ => ⟨S1x128, .f32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S128, .f32⟩
  | .hbm, ⟨61, _⟩ => ⟨S_, .f32⟩
  | .hbm, ⟨62, _⟩ => ⟨S128, .f32⟩
  | .hbm, ⟨63, _⟩ => ⟨S128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S128, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S_, .f32⟩
  | .hbm, ⟨80, _⟩ => ⟨S128, .f32⟩
  | .hbm, ⟨81, _⟩ => ⟨S128, .f32⟩
  | .hbm, ⟨82, _⟩ => ⟨S128, .f32⟩
  | .hbm, ⟨83, _⟩ => ⟨S1x128, .f32⟩
  | .hbm, ⟨84, _⟩ => ⟨S100000x128, .f32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_4 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_5 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_cst_9 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.K.RegA0.lean ====
/-
  The first pallas_call (the two matrix products, the mask, and the column sums): a grid of 2 × 25 points run one after
  the other, point `t = 25·c + i` handling the 2000 rows `50000·c + 2000·i …`. Eight input windows (three row blocks
  and the mask's, the column of row scales, the two weight matrices and the two bias rows, these last four read whole at
  every point), three output windows (the block of `x`; two 8 × 128 blocks, one per value of `c`, that receive the
  column sums and the column sums of squares) and two scratch rows of 128 numbers the body keeps from one point to the
  next: it clears them when `i = 0`, adds the block's column sums to them at every point, and copies them into the two
  small output blocks when `i = 24`. This module states what the three cases of the body (`i = 0`; `0 < i < 24`;
  `i = 24`) share: the blocks, the two conditions in closed form over the 50 points, where the small outputs are idle, and
  the memrefs the body is called with. Stated for any region-entry contents `V` of the core's buffers.
-/
import proofs.«149881_j80161269613387_2_alg».proof.Proof.Gen.Kernel.Launch
import proofs.«149881_j80161269613387_2_alg».proof.Proof.Gen.Kernel.Skeleton
import proofs.«149881_j80161269613387_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section RegionA

variable (V : (c : Dev nD) → (b : Ref sig .tc) → Buf (Elt F) ((c : Thread nD τ).loc b))

/-- Window `w`'s block at point `t`: the part of its array the point works on, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's buffer holds its block whenever the body runs, whether the block was fetched at this point or at an
    earlier one with the same block index: the body never writes an input buffer. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions the body branches on -/

/-- `i = 0`: the body clears the two scratch rows. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 25 = 0 :=
  (by decide +kernel : ∀ t : Fin grid0.N, cond0_0 (grid0.coords t) ↔ t.val % 25 = 0)
/-- `i = 24`: the body copies the two scratch rows into the small output blocks. -/
abbrev cond0_1 (i : grid0.Coords) : Prop := k0_cond2 i = 1#1
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows are idle: the two small outputs, wherever `i ≠ 24`, and there they are not written back -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
theorem liveAt0_9 : ∀ t : Fin cfg0.N, cond0_1 (grid0.coords t) → cfg0.idle 9 (grid0.coords t) = false := by decide +kernel
theorem idleAt0_10 : ∀ t : Fin cfg0.N, ¬cond0_1 (grid0.coords t) → cfg0.idle 10 (grid0.coords t) = true := by decide +kernel
theorem noFlush0_10 : ∀ t : Fin cfg0.N, ¬cond0_1 (grid0.coords t) → (cfg0.win 10).flush t = false := by decide +kernel
theorem liveAt0_10 : ∀ t : Fin cfg0.N, cond0_1 (grid0.coords t) → cfg0.idle 10 (grid0.coords t) = false := by decide +kernel

/-! ## The memrefs the body is called with -/

abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2000x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2000x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2000x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x128 .f32 := win0_10.stage (cfg0.slots t 10)
abbrev hs0_10 (t : Fin cfg0.N) : (ms0_10 t).IsWhole := hstage0_10 ((cfg0.slots t 10).cast nbuf0_10)
/-- The two scratch rows: whole buffers of the kernel's own, passed beside the windows. -/
abbrev scM0_0 : Memref sig .tc .vmem S1x128 .f32 := Memref.whole cc0_scratch0
abbrev scM0_1 : Memref sig .tc .vmem S1x128 .f32 := Memref.whole cc0_scratch1
/-- Views through which the contents of the outputs and of the scratch rows are stated. -/
abbrev VO0_8 : View sig .tc .vmem S2000x128 .f32 := (Memref.whole cc0_stg8_0 : Memref sig .tc .vmem S2000x128 .f32).view
abbrev VO0_9 : View sig .tc .vmem S8x128 .f32 := (Memref.whole cc0_stg9_0 : Memref sig .tc .vmem S8x128 .f32).view
abbrev VO0_10 : View sig .tc .vmem S8x128 .f32 := (Memref.whole cc0_stg10_0 : Memref sig .tc .vmem S8x128 .f32).view
abbrev VS0_0 : View sig .tc .vmem S1x128 .f32 := scM0_0.view
abbrev VS0_1 : View sig .tc .vmem S1x128 .f32 := scM0_1.view

/-- The second pallas_call's staging buffers, which the first one never touches: each whole at some contents. -/
def otherBufs0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- What the region hands the body beside the windows, with the two scratch rows as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ otherBufs0 c) ∗ (∃ r, prngReg c r)) := by
  unfold Pipeline.ΦA otherBufs0; rw [scopedRest0_eq]; simp only [scM0_0, scM0_1, owns_whole]; try rfl

end RegionA

end Cert.Kernel.Frm

end
-- ==== Proof.K.RegA_A.lean ====
/-
  The first pallas_call's body at THE FIRST POINT OF A COLUMN OF THE GRID (`i = 0`): the body clears the two scratch rows, whatever they held, then adds the block's column sums to them; the small outputs are idle.
  The statement gives, together with the run itself, the stores the body ends with in each buffer it writes, as lists of
  (rectangle, value) pieces, latest first: the block of `x`, the small output blocks where the case writes them, and the
  two scratch rows. The lists are whatever the symbolic run of the body finds; nothing of the arithmetic is restated here.
-/
import proofs.«149881_j80161269613387_2_alg».proof.Proof.Gen.Kernel.Launch
import proofs.«149881_j80161269613387_2_alg».proof.Proof.Gen.Kernel.Skeleton
import proofs.«149881_j80161269613387_2_alg».proof.Proof.Gen.Kernel.Points
import proofs.«149881_j80161269613387_2_alg».proof.Proof.K.RegA0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : cond0_0 i) (hc1 : ¬cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) :
    Σ' (L8 : List (View.Piece (Elt F) S2000x128 .f32)) (LS0 : List (View.Piece (Elt F) S1x128 .f32)), { LS1 : List (View.Piece (Elt F) S1x128 .f32) //
      ∀ (xi9 xi10 : Vec F S8x128 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ (∃ d, owns (c : Thread nD τ) arg10 fullShare d)
            ∗ owns (c : Thread nD τ) arg11 fullShare xi9
            ∗ owns (c : Thread nD τ) arg12 fullShare xi10
            ∗ (∃ d, owns (c : Thread nD τ) arg13 fullShare d)
            ∗ (∃ d, owns (c : Thread nD τ) arg14 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare x7
                ∗ (∃ f, arg10.view.loc (c : Thread nD τ) ↦[arg10.view.set]{fullShare} arg10.view.writes (Elt F) f L8)
                ∗ owns (c : Thread nD τ) arg11 fullShare xi9
                ∗ owns (c : Thread nD τ) arg12 fullShare xi10
                ∗ (∃ f, arg13.view.loc (c : Thread nD τ) ↦[arg13.view.set]{fullShare} arg13.view.writes (Elt F) f LS0)
                ∗ (∃ f, arg14.view.loc (c : Thread nD τ) ↦[arg14.view.set]{fullShare} arg14.view.writes (Elt F) f LS1)) -∗ K ⟨⟩))
          ⊢ wp frame (wpE (defs₀ (F := F)) Variants.none c none) E (cc0__kernel_a_body i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi9 xi10 E K => ?run⟩
  case run =>
    simp only [cc0__kernel_a_body_eq_skeleton]; unfold cc0__kernel_a_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _; isplitr; · ipureintro; exact harg11.read_unread _
      iexact H9
    isplitl [H10]
    · iexists _; isplitr; · ipureintro; exact harg12.read_unread _
      iexact H10
    isplitl [HS0]; · iexists _; iexact HS0
    iexists _; iexact HS1

end Cert.Kernel.Frm

end
-- ==== Proof.K.RegA_B.lean ====
/-
  The first pallas_call's body at A MIDDLE POINT (`0 < i < 24`): the scratch rows arrive holding what the point before left (`xs0`, `xs1`) and the block's column sums are added to them; the small outputs are idle.
  The statement gives, together with the run itself, the stores the body ends with in each buffer it writes, as lists of
  (rectangle, value) pieces, latest first: the block of `x`, the small output blocks where the case writes them, and the
  two scratch rows. The lists are whatever the symbolic run of the body finds; nothing of the arithmetic is restated here.
-/
import proofs.«149881_j80161269613387_2_alg».proof.Proof.Gen.Kernel.Launch
import proofs.«149881_j80161269613387_2_alg».proof.Proof.Gen.Kernel.Skeleton
import proofs.«149881_j80161269613387_2_alg».proof.Proof.Gen.Kernel.Points
import proofs.«149881_j80161269613387_2_alg».proof.Proof.K.RegA0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : ¬cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (xs0 xs1 : Vec F S1x128 .f32) :
    Σ' (L8 : List (View.Piece (Elt F) S2000x128 .f32)) (LS0 : List (View.Piece (Elt F) S1x128 .f32)), { LS1 : List (View.Piece (Elt F) S1x128 .f32) //
      ∀ (xi9 xi10 : Vec F S8x128 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ (∃ d, owns (c : Thread nD τ) arg10 fullShare d)
            ∗ owns (c : Thread nD τ) arg11 fullShare xi9
            ∗ owns (c : Thread nD τ) arg12 fullShare xi10
            ∗ owns (c : Thread nD τ) arg13 fullShare xs0
            ∗ owns (c : Thread nD τ) arg14 fullShare xs1
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare x7
                ∗ (∃ f, arg10.view.loc (c : Thread nD τ) ↦[arg10.view.set]{fullShare} arg10.view.writes (Elt F) f L8)
                ∗ owns (c : Thread nD τ) arg11 fullShare xi9
                ∗ owns (c : Thread nD τ) arg12 fullShare xi10
                ∗ (∃ f, arg13.view.loc (c : Thread nD τ) ↦[arg13.view.set]{fullShare} arg13.view.writes (Elt F) f LS0)
                ∗ (∃ f, arg14.view.loc (c : Thread nD τ) ↦[arg14.view.set]{fullShare} arg14.view.writes (Elt F) f LS1)) -∗ K ⟨⟩))
          ⊢ wp frame (wpE (defs₀ (F := F)) Variants.none c none) E (cc0__kernel_a_body i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi9 xi10 E K => ?run⟩
  case run =>
    simp only [cc0__kernel_a_body_eq_skeleton]; unfold cc0__kernel_a_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hf10; obtain rfl := harg13.eq_unread hfs0; obtain rfl := harg14.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _; isplitr; · ipureintro; exact harg11.read_unread _
      iexact H9
    isplitl [H10]
    · iexists _; isplitr; · ipureintro; exact harg12.read_unread _
      iexact H10
    isplitl [HS0]; · iexists _; iexact HS0
    iexists _; iexact HS1

end Cert.Kernel.Frm

end
-- ==== Proof.K.RegA_C.lean ====
/-
  The first pallas_call's body at THE LAST POINT OF A COLUMN OF THE GRID (`i = 24`): as a middle point, and then the two scratch rows are copied, repeated over 8 rows, into the two small output blocks.
  The statement gives, together with the run itself, the stores the body ends with in each buffer it writes, as lists of
  (rectangle, value) pieces, latest first: the block of `x`, the small output blocks where the case writes them, and the
  two scratch rows. The lists are whatever the symbolic run of the body finds; nothing of the arithmetic is restated here.
-/
import proofs.«149881_j80161269613387_2_alg».proof.Proof.Gen.Kernel.Launch
import proofs.«149881_j80161269613387_2_alg».proof.Proof.Gen.Kernel.Skeleton
import proofs.«149881_j80161269613387_2_alg».proof.Proof.Gen.Kernel.Points
import proofs.«149881_j80161269613387_2_alg».proof.Proof.K.RegA0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (xs0 xs1 : Vec F S1x128 .f32) :
    Σ' (L8 : List (View.Piece (Elt F) S2000x128 .f32)) (L9 : List (View.Piece (Elt F) S8x128 .f32)) (L10 : List (View.Piece (Elt F) S8x128 .f32)) (LS0 : List (View.Piece (Elt F) S1x128 .f32)), { LS1 : List (View.Piece (Elt F) S1x128 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ (∃ d, owns (c : Thread nD τ) arg10 fullShare d)
            ∗ (∃ d, owns (c : Thread nD τ) arg11 fullShare d)
            ∗ (∃ d, owns (c : Thread nD τ) arg12 fullShare d)
            ∗ owns (c : Thread nD τ) arg13 fullShare xs0
            ∗ owns (c : Thread nD τ) arg14 fullShare xs1
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare x7
                ∗ (∃ f, arg10.view.loc (c : Thread nD τ) ↦[arg10.view.set]{fullShare} arg10.view.writes (Elt F) f L8)
                ∗ (∃ f, arg11.view.loc (c : Thread nD τ) ↦[arg11.view.set]{fullShare} arg11.view.writes (Elt F) f L9)
                ∗ (∃ f, arg12.view.loc (c : Thread nD τ) ↦[arg12.view.set]{fullShare} arg12.view.writes (Elt F) f L10)
                ∗ (∃ f, arg13.view.loc (c : Thread nD τ) ↦[arg13.view.set]{fullShare} arg13.view.writes (Elt F) f LS0)
                ∗ (∃ f, arg14.view.loc (c : Thread nD τ) ↦[arg14.view.set]{fullShare} arg14.view.writes (Elt F) f LS1)) -∗ K ⟨⟩))
          ⊢ wp frame (wpE (defs₀ (F := F)) Variants.none c none) E (cc0__kernel_a_body i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0__kernel_a_body_eq_skeleton]; unfold cc0__kernel_a_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg13.eq_unread hfs0; obtain rfl := harg14.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [HS0]; · iexists _; iexact HS0
    iexists _; iexact HS1

end Cert.Kernel.Frm

end
-- ==== Proof.K.RegA.lean ====
/-
  The first pallas_call assembled from its three cases: what each case leaves in the output buffers and in the two scratch
  rows (the stores its run found, read back), the accumulation over the 50 points, the region's invariant carrying the
  scratch rows from point to point, the proof data and the body obligation. Stated for any region-entry contents `V`.
-/
import proofs.«149881_j80161269613387_2_alg».proof.Proof.Gen.Kernel.Launch
import proofs.«149881_j80161269613387_2_alg».proof.Proof.Gen.Kernel.Skeleton
import proofs.«149881_j80161269613387_2_alg».proof.Proof.Gen.Kernel.Points
import proofs.«149881_j80161269613387_2_alg».proof.Proof.K.RegA_A
import proofs.«149881_j80161269613387_2_alg».proof.Proof.K.RegA_B
import proofs.«149881_j80161269613387_2_alg».proof.Proof.K.RegA_C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section RegionA

/-- Case A: the stores into the block of `x` tile it. -/
theorem cover0_A_8 (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : cond0_0 i) (hc1 : ¬cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (y : S2000x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).1, y ∈ pc.1.set :=
  View.cover_of_tiledL ((kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).1) S2000x128.size (by sl_kernel_rfl) y
/-- Case A: what the body leaves in the buffer of the block of `x`. -/
def out0_A_8 (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : cond0_0 i) (hc1 : ¬cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) : Vec F S2000x128 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).1)
/-- Case A: the stores into the first scratch row (the running column sums) tile it. -/
theorem scover0_A_0 (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : cond0_0 i) (hc1 : ¬cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (y : S1x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.1, y ∈ pc.1.set :=
  View.cover_of_tiledL ((kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.1) S1x128.size (by sl_kernel_rfl) y
/-- Case A: what the body leaves in the first scratch row. -/
def sout0_A_0 (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : cond0_0 i) (hc1 : ¬cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) : Vec F S1x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.1)
/-- Case A: the stores into the second scratch row (the running column sums of squares) tile it. -/
theorem scover0_A_1 (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : cond0_0 i) (hc1 : ¬cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (y : S1x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.1, y ∈ pc.1.set :=
  View.cover_of_tiledL ((kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.1) S1x128.size (by sl_kernel_rfl) y
/-- Case A: what the body leaves in the second scratch row. -/
def sout0_A_1 (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : cond0_0 i) (hc1 : ¬cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) : Vec F S1x128 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.1)

/-- Case B: the stores into the block of `x` tile it. -/
theorem cover0_B_8 (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : ¬cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (xs0 xs1 : Vec F S1x128 .f32) (y : S2000x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).1, y ∈ pc.1.set :=
  View.cover_of_tiledL ((kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).1) S2000x128.size (by sl_kernel_rfl) y
/-- Case B: what the body leaves in the buffer of the block of `x`. -/
def out0_B_8 (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : ¬cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (xs0 xs1 : Vec F S1x128 .f32) : Vec F S2000x128 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).1)
/-- Case B: the stores into the first scratch row (the running column sums) tile it. -/
theorem scover0_B_0 (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : ¬cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (xs0 xs1 : Vec F S1x128 .f32) (y : S1x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.1, y ∈ pc.1.set :=
  View.cover_of_tiledL ((kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.1) S1x128.size (by sl_kernel_rfl) y
/-- Case B: what the body leaves in the first scratch row. -/
def sout0_B_0 (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : ¬cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (xs0 xs1 : Vec F S1x128 .f32) : Vec F S1x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.1)
/-- Case B: the stores into the second scratch row (the running column sums of squares) tile it. -/
theorem scover0_B_1 (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : ¬cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (xs0 xs1 : Vec F S1x128 .f32) (y : S1x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.1, y ∈ pc.1.set :=
  View.cover_of_tiledL ((kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.1) S1x128.size (by sl_kernel_rfl) y
/-- Case B: what the body leaves in the second scratch row. -/
def sout0_B_1 (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : ¬cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (xs0 xs1 : Vec F S1x128 .f32) : Vec F S1x128 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.1)

/-- Case C: the stores into the block of `x` tile it. -/
theorem cover0_C_8 (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (xs0 xs1 : Vec F S1x128 .f32) (y : S2000x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).1, y ∈ pc.1.set :=
  View.cover_of_tiledL ((kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).1) S2000x128.size (by sl_kernel_rfl) y
/-- Case C: what the body leaves in the buffer of the block of `x`. -/
def out0_C_8 (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (xs0 xs1 : Vec F S1x128 .f32) : Vec F S2000x128 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).1)
/-- Case C: the stores into the block of column sums tile it. -/
theorem cover0_C_9 (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (xs0 xs1 : Vec F S1x128 .f32) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.1, y ∈ pc.1.set :=
  View.cover_of_tiledL ((kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.1) S8x128.size (by sl_kernel_rfl) y
/-- Case C: what the body leaves in the block of column sums. -/
def out0_C_9 (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (xs0 xs1 : Vec F S1x128 .f32) : Vec F S8x128 .f32 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.1)
/-- Case C: the stores into the block of column sums of squares tile it. -/
theorem cover0_C_10 (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (xs0 xs1 : Vec F S1x128 .f32) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.1, y ∈ pc.1.set :=
  View.cover_of_tiledL ((kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.1) S8x128.size (by sl_kernel_rfl) y
/-- Case C: what the body leaves in the block of column sums of squares. -/
def out0_C_10 (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (xs0 xs1 : Vec F S1x128 .f32) : Vec F S8x128 .f32 :=
  VO0_10.read (Elt F) (VO0_10.writes (Elt F) VO0_10.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.1)
/-- Case C: the stores into the first scratch row (the running column sums) tile it. -/
theorem scover0_C_0 (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (xs0 xs1 : Vec F S1x128 .f32) (y : S1x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.2.1, y ∈ pc.1.set :=
  View.cover_of_tiledL ((kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.2.1) S1x128.size (by sl_kernel_rfl) y
/-- Case C: what the body leaves in the first scratch row. -/
def sout0_C_0 (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (xs0 xs1 : Vec F S1x128 .f32) : Vec F S1x128 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.2.1)
/-- Case C: the stores into the second scratch row (the running column sums of squares) tile it. -/
theorem scover0_C_1 (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (xs0 xs1 : Vec F S1x128 .f32) (y : S1x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.2.2.1, y ∈ pc.1.set :=
  View.cover_of_tiledL ((kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.2.2.1) S1x128.size (by sl_kernel_rfl) y
/-- Case C: what the body leaves in the second scratch row. -/
def sout0_C_1 (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (xs0 xs1 : Vec F S1x128 .f32) : Vec F S1x128 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.2.2.1)

variable (V : (c : Dev nD) → (b : Ref sig .tc) → Buf (Elt F) ((c : Thread nD τ).loc b))

/-- A small output block at a point where the body does not write it: contents nothing consults. -/
def idle9 : Vec F S8x128 .f32 := VO0_9.read (Elt F) (VO0_9.writes (Elt F) VO0_9.junk [])
def idle10 : Vec F S8x128 .f32 := VO0_10.read (Elt F) (VO0_10.writes (Elt F) VO0_10.junk [])

/-- THE ACCUMULATION. What the three output buffers and the two scratch rows hold after the body at position `n` of the
    50 points (in that order): the case the position is in, run on the point's input blocks, the scratch rows of a point
    with `i > 0` starting from what position `n - 1` left in them. -/
def outsAt0 (c : Dev nD) : (n : ℕ) → n < cfg0.N → Vec F S2000x128 .f32 × Vec F S8x128 .f32 × Vec F S8x128 .f32 × Vec F S1x128 .f32 × Vec F S1x128 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩), idle9, idle10, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩))
  | n + 1, hn =>
    if h0 : (n + 1) % 25 = 0 then
      if h1 : (n + 1) % 25 = 24 then
        False.elim (by omega)
      else
        (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩), idle9, idle10, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩))
    else
      if h1 : (n + 1) % 25 = 24 then
        (out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2.2.1 (outsAt0 c n (Nat.lt_of_succ_lt hn)).2.2.2.2, out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2.2.1 (outsAt0 c n (Nat.lt_of_succ_lt hn)).2.2.2.2, out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2.2.1 (outsAt0 c n (Nat.lt_of_succ_lt hn)).2.2.2.2)
      else
        (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2.2.1 (outsAt0 c n (Nat.lt_of_succ_lt hn)).2.2.2.2, idle9, idle10, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2.2.1 (outsAt0 c n (Nat.lt_of_succ_lt hn)).2.2.2.2)

theorem outsAt0_A (c : Dev nD) (t : Fin cfg0.N) (h0 : t.val % 25 = 0) (h1 : ¬t.val % 25 = 24) :
    outsAt0 V c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t), idle9, idle10, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t)) := by
  obtain ⟨n, hn⟩ := t
  cases n with
  | zero => exact rfl
  | succ n => exact (dif_pos h0).trans ((dif_neg h1).trans rfl)

theorem outsAt0_B (c : Dev nD) (t : Fin cfg0.N) (h0 : ¬t.val % 25 = 0) (h1 : ¬t.val % 25 = 24) :
    outsAt0 V c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, idle9, idle10, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 25 = 0) (h1 : t.val % 25 = 24) :
    outsAt0 V c t.val t.isLt = (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point, what the launch hands the region (every scoped
    buffer it does not stage at anything); afterwards the two scratch rows at what the point before left in them, the
    second pallas_call's buffers at anything, and the core's random-number register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ otherBufs0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2.2.1) ∗ owns (c : Thread nD τ) scM0_1 fullShare ((outsAt0 V c n hn).2.2.2.2) ∗ otherBufs0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ otherBufs0 c) ∗ (∃ r, prngReg c r)) := by
  cases n with
  | zero => exact absurd rfl hz
  | succ n => rfl

/-- The proof data of the first pallas_call on core `c`: its arrays as the region finds them; after the body at point `t`
    each input buffer still at its block and the three output buffers at the accumulation's components; the invariant
    above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => (outsAt0 V c t.val t.isLt).1
    | ⟨9, _⟩ => (outsAt0 V c t.val t.isLt).2.1
    | ⟨10, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = (outsAt0 V c t.val t.isLt).1 := by dsimp only [dat0]
theorem after0_9 (c : Dev nD) (t : Fin cfg0.N) : (dat0 V c).after 9 t = (outsAt0 V c t.val t.isLt).2.1 := by dsimp only [dat0]
theorem after0_10 (c : Dev nD) (t : Fin cfg0.N) : (dat0 V c).after 10 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t)

set_option maxHeartbeats 16000000 in
/-- The body at any point: the input buffers hold their blocks; the closed forms of the two conditions say which of the
    three cases the point is in, and that case's run applies; the invariant hands the body the two scratch rows at what the
    point before left (at anything before the first point) and takes them back at this point's contents; the small outputs
    come back untouched where the body does not write them; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).owesAt () t.succ = (dat0 V c).owesAt () t.castSucc from rfl]
  rw [show (dat0 V c).Φ t.succ = PhiS0 V c (t.val + 1) t.isLt from rfl, PhiS0_succ]
  have hN : t.val < 50 := lt_of_lt_of_eq t.isLt (show cfg0.N = 50 from N_0)
  by_cases h0 : t.val % 25 = 0
  · by_cases h1 : t.val % 25 = 24
    · exfalso; omega
    ·
      have hc0' : cond0_0 (grid0.coords t) := (hcond0_0 t).mpr h0
      have hc1' : ¬cond0_1 (grid0.coords t) := fun h => h1 ((hcond0_1 t).mp h)
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [Dat.leavesExact_idle (dat0 V c) 9 t (idleAt0_9 t hc1') (noFlush0_9 t hc1')]
      rw [Dat.leavesExact_idle (dat0 V c) 10 t (idleAt0_10 t hc1') (noFlush0_10 t hc1')]
      rw [outsAt0_A V c t h0 h1]
      unfold out0_A_8 sout0_A_0 sout0_A_1; (try dsimp only)
      by_cases hz : t.val = 0
      ·
        rw [PhiS0_castSucc V c t, PhiS0_zero V c _ _ hz, PhiA0_eq]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_A c (grid0.coords t) _ _ _ _ _ _ _ _ _ _ _ _ _ _ _ _ _ _ _ _ _ _ _ _ _ _ hc0' hc1' (iblk0 V c 0 t) (iblk0 V c 1 t) (iblk0 V c 2 t) (iblk0 V c 3 t) (iblk0 V c 4 t) (iblk0 V c 5 t) (iblk0 V c 6 t) (iblk0 V c 7 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [H10]; · iexact H10
        isplitl [HS0]; · iexact HS0
        isplitl [HS1]; · iexact HS1
        iintro ⟨H0, H1, H2, H3, H4, H5, H6, H7, ⟨%e8, H8⟩, H9, H10, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _ _ _ _ _)
        isplitl [H9]; · iexists _; iexact H9
        iexists _; iexact H10
      ·
        rw [PhiS0_castSucc V c t, PhiS0_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_A c (grid0.coords t) _ _ _ _ _ _ _ _ _ _ _ _ _ _ _ _ _ _ _ _ _ _ _ _ _ _ hc0' hc1' (iblk0 V c 0 t) (iblk0 V c 1 t) (iblk0 V c 2 t) (iblk0 V c 3 t) (iblk0 V c 4 t) (iblk0 V c 5 t) (iblk0 V c 6 t) (iblk0 V c 7 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [H10]; · iexact H10
        isplitl [HS0]; · iexists _; iexact HS0
        isplitl [HS1]; · iexists _; iexact HS1
        iintro ⟨H0, H1, H2, H3, H4, H5, H6, H7, ⟨%e8, H8⟩, H9, H10, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _ _ _ _ _)
        isplitl [H9]; · iexists _; iexact H9
        iexists _; iexact H10
  · by_cases h1 : t.val % 25 = 24
    ·
      have hc0' : ¬cond0_0 (grid0.coords t) := fun h => h0 ((hcond0_0 t).mp h)
      have hc1' : cond0_1 (grid0.coords t) := (hcond0_1 t).mpr h1
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [show (dat0 V c).leavesExact 9 t = owns (c : Thread nD τ) (ms0_9 t) fullShare ((dat0 V c).after 9 t) from by
        unfold Dat.leavesExact; rw [liveAt0_9 t hc1'], after0_9]
      rw [show (dat0 V c).leavesExact 10 t = owns (c : Thread nD τ) (ms0_10 t) fullShare ((dat0 V c).after 10 t) from by
        unfold Dat.leavesExact; rw [liveAt0_10 t hc1'], after0_10]
      rw [outsAt0_C V c t h0 h1]
      unfold out0_C_8 out0_C_9 out0_C_10 sout0_C_0 sout0_C_1; (try dsimp only)
      by_cases hz : t.val = 0
      · exfalso; omega
      ·
        rw [PhiS0_castSucc V c t, PhiS0_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_C c (grid0.coords t) _ _ _ _ _ _ _ _ _ _ _ _ _ _ _ _ _ _ _ _ _ _ _ _ _ _ hc0' hc1' (iblk0 V c 0 t) (iblk0 V c 1 t) (iblk0 V c 2 t) (iblk0 V c 3 t) (iblk0 V c 4 t) (iblk0 V c 5 t) (iblk0 V c 6 t) (iblk0 V c 7 t) _ _).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [HS0]; · iexact HS0
        isplitl [HS1]; · iexact HS1
        iintro ⟨H0, H1, H2, H3, H4, H5, H6, H7, ⟨%e8, H8⟩, ⟨%e9, H9⟩, ⟨%e10, H10⟩, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_C_8 c _ _ _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_C_9 c _ _ _ _ _ _ _ _ _ _ _ _ _ _ _ _ _ _ _ _ _ _ _ _ _ _ _ _ _ _ _ _ _ _ _ _ _ _ _)
        unfold owns; iexists _; isplitr
        swap; · iexact H10
        ipureintro; exact View.read_writes_of_cover _ _ _ _ _ (cover0_C_10 c _ _ _ _ _ _ _ _ _ _ _ _ _ _ _ _ _ _ _ _ _ _ _ _ _ _ _ _ _ _ _ _ _ _ _ _ _ _ _)
    ·
      have hc0' : ¬cond0_0 (grid0.coords t) := fun h => h0 ((hcond0_0 t).mp h)
      have hc1' : ¬cond0_1 (grid0.coords t) := fun h => h1 ((hcond0_1 t).mp h)
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [Dat.leavesExact_idle (dat0 V c) 9 t (idleAt0_9 t hc1') (noFlush0_9 t hc1')]
      rw [Dat.leavesExact_idle (dat0 V c) 10 t (idleAt0_10 t hc1') (noFlush0_10 t hc1')]
      rw [outsAt0_B V c t h0 h1]
      unfold out0_B_8 sout0_B_0 sout0_B_1; (try dsimp only)
      by_cases hz : t.val = 0
      · exfalso; omega
      ·
        rw [PhiS0_castSucc V c t, PhiS0_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_B c (grid0.coords t) _ _ _ _ _ _ _ _ _ _ _ _ _ _ _ _ _ _ _ _ _ _ _ _ _ _ hc0' hc1' (iblk0 V c 0 t) (iblk0 V c 1 t) (iblk0 V c 2 t) (iblk0 V c 3 t) (iblk0 V c 4 t) (iblk0 V c 5 t) (iblk0 V c 6 t) (iblk0 V c 7 t) _ _).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [H10]; · iexact H10
        isplitl [HS0]; · iexact HS0
        isplitl [HS1]; · iexact HS1
        iintro ⟨H0, H1, H2, H3, H4, H5, H6, H7, ⟨%e8, H8⟩, H9, H10, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_B_8 c _ _ _ _ _ _ _ _ _ _ _ _ _ _ _ _ _ _ _ _ _ _ _ _ _ _ _ _ _ _ _ _ _ _ _ _ _ _ _)
        isplitl [H9]; · iexists _; iexact H9
        iexists _; iexact H10

/-- The body obligation of the first pallas_call, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives back what the launch handed over: what the scratch rows hold is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 50 := N_0; omega)

end RegionA

end Cert.Kernel.Frm

end
-- ==== Proof.K.RegB.lean ====
/-
  The second pallas_call (the normalisation): a grid of ten points, point `t` handling rows `10000·t … 10000·t + 9999`.
  Its five input windows are the array `x` (one block of 10000 rows per point) and four rows of 128 numbers — the column
  means, the column variances, the scale and the shift — that every point reads whole; its one output window is the
  block of the result. The body loads the six buffers, computes one pointwise expression of the five inputs and stores
  it over the whole output block, so after the body the output buffer is that expression of the point's input blocks
  whatever it held before. Stated for any region-entry contents `V` of the core's buffers.
-/
import proofs.«149881_j80161269613387_2_alg».proof.Proof.Gen.Kernel.Launch
import proofs.«149881_j80161269613387_2_alg».proof.Proof.Gen.Kernel.Skeleton
import proofs.«149881_j80161269613387_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section RegionB

variable (V : (c : Dev nD) → (b : Ref sig .tc) → Buf (Elt F) ((c : Thread nD τ).loc b))

/-- Window `w`'s block at point `t`: the rows of its array the point works on, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block whenever the body runs, whether the block was fetched at this point or
    at an earlier one with the same block index (the body never writes an input buffer). One statement per window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole block of 10000 rows, and the whole row of 128 numbers: the only two rectangles the body touches. -/
abbrev rBlk : Rect S10000x128 := Rect.unit (s := S10000x128) ![0, 0] S10000x128.size inb_S10000x128_S10000x128_0_0
abbrev rRow : Rect S1x128 := Rect.unit (s := S1x128) ![0, 0] S1x128.size inb_S1x128_S1x128_0_0

/-- What the body leaves in the output buffer: its one store, the pointwise expression of the five loaded inputs,
    over the whole block. -/
def out1_5 (x0 : Vec F S10000x128 .f32) (x1 x2 x3 x4 : Vec F S1x128 .f32) : Vec F S10000x128 .f32 :=
  View.canon [⟨rBlk, k1_pay1 (View.ld x0 rBlk) (View.ld x1 rRow) (View.ld x2 rRow) (View.ld x3 rRow) (View.ld x4 rRow)⟩]

/-- The one store covers the output block. -/
theorem cover1_5 (p0 : Vec F S10000x128 .f32) (y : S10000x128.Idx) :
    ∃ pc ∈ ([⟨rBlk, p0⟩] : List (View.Piece (Elt F) S10000x128 .f32)), y ∈ pc.1.set :=
  View.cover_of_tiled [⟨rBlk, p0⟩] S10000x128.size (by rfl) y

set_option maxHeartbeats 1000000 in
/-- The body's triple: from the five input buffers at contents `x0 … x4` and the output buffer at anything, the body
    runs to the end leaving the inputs as they were and the output at `out1_5` of them. -/
theorem sound_kernel1 (c : Dev nD) (E : Set ℕ) (i : grid1.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S10000x128 .f32) (harg6 : arg6.IsWhole)
    (x0 : Vec F S10000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__kernel_b_body i arg1 harg1 arg2 harg2 arg3 harg3 arg4 harg4 arg5 harg5 arg6 harg6) K := by
  simp only [cc1__kernel_b_body_eq_skeleton]; unfold cc1__kernel_b_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of the second pallas_call on core `c`: its arrays as the region finds them; after the body at point
    `t` each input buffer still at its block and the output buffer at `out1_5` of the input blocks; no invariant of its
    own beyond the buffers it does not use; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the input buffers hold their blocks, so the body's triple applies; the invariant and what
    the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the second pallas_call, at every point. -/
theorem body_obligation1 (c : Dev nD) : BodyObligation (dat1 (F := F) V c) (defs₀ (F := F)) Variants.none () Set.univ := fun t => by
  rw [bigSep_W1, bigSep_W1]
  exact sound_body1 V c t

end RegionB

end Cert.Kernel.Frm

end
-- ==== Proof.K.Run.lean ====
/-
  The whole program as a sequence of eight segments — five stretches of host operations, the first pallas_call, one more
  stretch, the second pallas_call — and its run. The contents of the core's buffers at each boundary are a fold from the
  launch memory: a stretch applies its operations; a pallas_call leaves its arrays at what its write-backs leave (the
  inputs as entered, each output block by block) and every other buffer as entered. Each pallas_call is entered with every
  unscoped buffer held at the boundary's contents and left with them at the next boundary's. The run ends with every
  unscoped buffer at the last boundary's contents, from which both the arguments (unchanged) and the result are read.
-/
import proofs.«149881_j80161269613387_2_alg».proof.Proof.Gen.Kernel.Launch
import proofs.«149881_j80161269613387_2_alg».proof.Proof.Gen.Kernel.Skeleton
import proofs.«149881_j80161269613387_2_alg».proof.Proof.Gen.Kernel.Points
import proofs.«149881_j80161269613387_2_alg».proof.Proof.Gen.Kernel.Regions
import proofs.«149881_j80161269613387_2_alg».proof.Proof.K.RegA
import proofs.«149881_j80161269613387_2_alg».proof.Proof.K.RegB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Before the first pallas_call: the launch memory after the five stretches of host operations. -/
abbrev W5 : Dev nD → Valuation τ sig (Elt F) := fun c => Gen.V5 m c
abbrev V5 : (c : Dev nD) → (b : Ref sig .tc) → Buf (Elt F) ((c : Thread nD τ).loc b) := fun c b => W5 m c b
/-- After the first pallas_call. -/
def W6 (c : Dev nD) : Valuation τ sig (Elt F) :=
  Pipeline.withArrays spec0 c (W5 m c) fun w => (dat0 (V5 m) c).arrAt w cfg0.N
theorem W6_arr (c : Dev nD) (w : Fin cfg0.W) :
    W6 m c (Proc.devRef .tc (Pipeline.arrRef spec0 w)) = (dat0 (V5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
abbrev V6 : (c : Dev nD) → (b : Ref sig .tc) → Buf (Elt F) ((c : Thread nD τ).loc b) := fun c b => W6 m c b
theorem hF0 (c : Dev nD) (w : Fin cfg0.W) : (dat0 (V5 m) c).arrAt w cfg0.N = V6 m c (Pipeline.arrRef spec0 w) :=
  (W6_arr m c w).symm
theorem hrest0 (c : Dev nD) : ∀ b, b ∉ Finset.univ.image (Pipeline.arrRef spec0) → V6 m c b = V5 m c b :=
  fun b hb => W6_of_ne m c b fun w e => hb (Finset.mem_image.mpr ⟨w, Finset.mem_univ _, e⟩)
/-- After the stretch between the two pallas_calls. -/
abbrev W7 : Dev nD → Valuation τ sig (Elt F) := fun c => StableHlo.after hostOps1 (W6 m c)
abbrev V7 : (c : Dev nD) → (b : Ref sig .tc) → Buf (Elt F) ((c : Thread nD τ).loc b) := fun c b => W7 m c b
/-- After the second pallas_call: the end. -/
def W8 (c : Dev nD) : Valuation τ sig (Elt F) :=
  Pipeline.withArrays spec1 c (W7 m c) fun w => (dat1 (V7 m) c).arrAt w cfg1.N
theorem W8_arr (c : Dev nD) (w : Fin cfg1.W) :
    W8 m c (Proc.devRef .tc (Pipeline.arrRef spec1 w)) = (dat1 (V7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
abbrev V8 : (c : Dev nD) → (b : Ref sig .tc) → Buf (Elt F) ((c : Thread nD τ).loc b) := fun c b => W8 m c b
theorem hF1 (c : Dev nD) (w : Fin cfg1.W) : (dat1 (V7 m) c).arrAt w cfg1.N = V8 m c (Pipeline.arrRef spec1 w) :=
  (W8_arr m c w).symm
theorem hrest1 (c : Dev nD) : ∀ b, b ∉ Finset.univ.image (Pipeline.arrRef spec1) → V8 m c b = V7 m c b :=
  fun b hb => W8_of_ne m c b fun w e => hb (Finset.mem_image.mpr ⟨w, Finset.mem_univ _, e⟩)

/-! ### The arguments end as launched: no host operation writes one, and a pallas_call reads it through an input window
    or not at all -/

theorem W8_main_arg0 (c : Dev nD) : W8 m c (Proc.devRef .tc main_arg0) = m ((c : Thread nD τ).loc main_arg0) :=
  calc W8 m c (Proc.devRef .tc main_arg0)
    _ = W7 m c (Proc.devRef .tc main_arg0) := W8_of_ne m c main_arg0 (by decide)
    _ = W6 m c (Proc.devRef .tc main_arg0) := StableHlo.after_of_writes_sub hostOps1 _ hostOps1_writes (by decide)
    _ = W5 m c (Proc.devRef .tc main_arg0) := (W6_arr m c 2).trans (((dat0 (V5 m) c).arrAt_in 2 rfl _).trans (A_eq0 (V5 m) c 2))
    _ = m ((c : Thread nD τ).loc main_arg0) := (V5_of m c main_arg0 (by decide)).trans <| (V4_of m c main_arg0 (by decide)).trans <| (V3_of m c main_arg0 (by decide)).trans <| (V2_of m c main_arg0 (by decide)).trans <| (V1_of m c main_arg0 (by decide)).trans rfl
theorem W8_main_arg1 (c : Dev nD) : W8 m c (Proc.devRef .tc main_arg1) = m ((c : Thread nD τ).loc main_arg1) :=
  calc W8 m c (Proc.devRef .tc main_arg1)
    _ = W7 m c (Proc.devRef .tc main_arg1) := W8_of_ne m c main_arg1 (by decide)
    _ = W6 m c (Proc.devRef .tc main_arg1) := StableHlo.after_of_writes_sub hostOps1 _ hostOps1_writes (by decide)
    _ = W5 m c (Proc.devRef .tc main_arg1) := (W6_arr m c 3).trans (((dat0 (V5 m) c).arrAt_in 3 rfl _).trans (A_eq0 (V5 m) c 3))
    _ = m ((c : Thread nD τ).loc main_arg1) := (V5_of m c main_arg1 (by decide)).trans <| (V4_of m c main_arg1 (by decide)).trans <| (V3_of m c main_arg1 (by decide)).trans <| (V2_of m c main_arg1 (by decide)).trans <| (V1_of m c main_arg1 (by decide)).trans rfl
theorem W8_main_arg2 (c : Dev nD) : W8 m c (Proc.devRef .tc main_arg2) = m ((c : Thread nD τ).loc main_arg2) :=
  calc W8 m c (Proc.devRef .tc main_arg2)
    _ = W7 m c (Proc.devRef .tc main_arg2) := W8_of_ne m c main_arg2 (by decide)
    _ = W6 m c (Proc.devRef .tc main_arg2) := StableHlo.after_of_writes_sub hostOps1 _ hostOps1_writes (by decide)
    _ = W5 m c (Proc.devRef .tc main_arg2) := W6_of_ne m c main_arg2 (by decide)
    _ = m ((c : Thread nD τ).loc main_arg2) := (V5_of m c main_arg2 (by decide)).trans <| (V4_of m c main_arg2 (by decide)).trans <| (V3_of m c main_arg2 (by decide)).trans <| (V2_of m c main_arg2 (by decide)).trans <| (V1_of m c main_arg2 (by decide)).trans rfl
theorem W8_main_arg3 (c : Dev nD) : W8 m c (Proc.devRef .tc main_arg3) = m ((c : Thread nD τ).loc main_arg3) :=
  calc W8 m c (Proc.devRef .tc main_arg3)
    _ = W7 m c (Proc.devRef .tc main_arg3) := W8_of_ne m c main_arg3 (by decide)
    _ = W6 m c (Proc.devRef .tc main_arg3) := StableHlo.after_of_writes_sub hostOps1 _ hostOps1_writes (by decide)
    _ = W5 m c (Proc.devRef .tc main_arg3) := (W6_arr m c 5).trans (((dat0 (V5 m) c).arrAt_in 5 rfl _).trans (A_eq0 (V5 m) c 5))
    _ = m ((c : Thread nD τ).loc main_arg3) := (V5_of m c main_arg3 (by decide)).trans <| (V4_of m c main_arg3 (by decide)).trans <| (V3_of m c main_arg3 (by decide)).trans <| (V2_of m c main_arg3 (by decide)).trans <| (V1_of m c main_arg3 (by decide)).trans rfl
theorem W8_main_arg4 (c : Dev nD) : W8 m c (Proc.devRef .tc main_arg4) = m ((c : Thread nD τ).loc main_arg4) :=
  calc W8 m c (Proc.devRef .tc main_arg4)
    _ = W7 m c (Proc.devRef .tc main_arg4) := W8_of_ne m c main_arg4 (by decide)
    _ = W6 m c (Proc.devRef .tc main_arg4) := StableHlo.after_of_writes_sub hostOps1 _ hostOps1_writes (by decide)
    _ = W5 m c (Proc.devRef .tc main_arg4) := W6_of_ne m c main_arg4 (by decide)
    _ = m ((c : Thread nD τ).loc main_arg4) := (V5_of m c main_arg4 (by decide)).trans <| (V4_of m c main_arg4 (by decide)).trans <| (V3_of m c main_arg4 (by decide)).trans <| (V2_of m c main_arg4 (by decide)).trans <| (V1_of m c main_arg4 (by decide)).trans rfl
theorem W8_main_arg5 (c : Dev nD) : W8 m c (Proc.devRef .tc main_arg5) = m ((c : Thread nD τ).loc main_arg5) :=
  calc W8 m c (Proc.devRef .tc main_arg5)
    _ = W7 m c (Proc.devRef .tc main_arg5) := W8_of_ne m c main_arg5 (by decide)
    _ = W6 m c (Proc.devRef .tc main_arg5) := StableHlo.after_of_writes_sub hostOps1 _ hostOps1_writes (by decide)
    _ = W5 m c (Proc.devRef .tc main_arg5) := W6_of_ne m c main_arg5 (by decide)
    _ = m ((c : Thread nD τ).loc main_arg5) := (V5_of m c main_arg5 (by decide)).trans <| (V4_of m c main_arg5 (by decide)).trans <| (V3_of m c main_arg5 (by decide)).trans <| (V2_of m c main_arg5 (by decide)).trans <| (V1_of m c main_arg5 (by decide)).trans rfl
theorem W8_main_arg6 (c : Dev nD) : W8 m c (Proc.devRef .tc main_arg6) = m ((c : Thread nD τ).loc main_arg6) :=
  calc W8 m c (Proc.devRef .tc main_arg6)
    _ = W7 m c (Proc.devRef .tc main_arg6) := W8_of_ne m c main_arg6 (by decide)
    _ = W6 m c (Proc.devRef .tc main_arg6) := StableHlo.after_of_writes_sub hostOps1 _ hostOps1_writes (by decide)
    _ = W5 m c (Proc.devRef .tc main_arg6) := W6_of_ne m c main_arg6 (by decide)
    _ = m ((c : Thread nD τ).loc main_arg6) := (V5_of m c main_arg6 (by decide)).trans <| (V4_of m c main_arg6 (by decide)).trans <| (V3_of m c main_arg6 (by decide)).trans <| (V2_of m c main_arg6 (by decide)).trans <| (V1_of m c main_arg6 (by decide)).trans rfl
theorem W8_main_arg7 (c : Dev nD) : W8 m c (Proc.devRef .tc main_arg7) = m ((c : Thread nD τ).loc main_arg7) :=
  calc W8 m c (Proc.devRef .tc main_arg7)
    _ = W7 m c (Proc.devRef .tc main_arg7) := W8_of_ne m c main_arg7 (by decide)
    _ = W6 m c (Proc.devRef .tc main_arg7) := StableHlo.after_of_writes_sub hostOps1 _ hostOps1_writes (by decide)
    _ = W5 m c (Proc.devRef .tc main_arg7) := (W6_arr m c 7).trans (((dat0 (V5 m) c).arrAt_in 7 rfl _).trans (A_eq0 (V5 m) c 7))
    _ = m ((c : Thread nD τ).loc main_arg7) := (V5_of m c main_arg7 (by decide)).trans <| (V4_of m c main_arg7 (by decide)).trans <| (V3_of m c main_arg7 (by decide)).trans <| (V2_of m c main_arg7 (by decide)).trans <| (V1_of m c main_arg7 (by decide)).trans rfl
theorem W8_main_arg8 (c : Dev nD) : W8 m c (Proc.devRef .tc main_arg8) = m ((c : Thread nD τ).loc main_arg8) :=
  calc W8 m c (Proc.devRef .tc main_arg8)
    _ = W7 m c (Proc.devRef .tc main_arg8) := W8_of_ne m c main_arg8 (by decide)
    _ = W6 m c (Proc.devRef .tc main_arg8) := StableHlo.after_of_writes_sub hostOps1 _ hostOps1_writes (by decide)
    _ = W5 m c (Proc.devRef .tc main_arg8) := W6_of_ne m c main_arg8 (by decide)
    _ = m ((c : Thread nD τ).loc main_arg8) := (V5_of m c main_arg8 (by decide)).trans <| (V4_of m c main_arg8 (by decide)).trans <| (V3_of m c main_arg8 (by decide)).trans <| (V2_of m c main_arg8 (by decide)).trans <| (V1_of m c main_arg8 (by decide)).trans rfl
theorem W8_main_arg9 (c : Dev nD) : W8 m c (Proc.devRef .tc main_arg9) = m ((c : Thread nD τ).loc main_arg9) :=
  calc W8 m c (Proc.devRef .tc main_arg9)
    _ = W7 m c (Proc.devRef .tc main_arg9) := W8_of_ne m c main_arg9 (by decide)
    _ = W6 m c (Proc.devRef .tc main_arg9) := StableHlo.after_of_writes_sub hostOps1 _ hostOps1_writes (by decide)
    _ = W5 m c (Proc.devRef .tc main_arg9) := W6_of_ne m c main_arg9 (by decide)
    _ = m ((c : Thread nD τ).loc main_arg9) := (V5_of m c main_arg9 (by decide)).trans <| (V4_of m c main_arg9 (by decide)).trans <| (V3_of m c main_arg9 (by decide)).trans <| (V2_of m c main_arg9 (by decide)).trans <| (V1_of m c main_arg9 (by decide)).trans rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V5 m) c
  | ⟨1, _⟩ => fun c => dat1 (V7 m) c
abbrev 𝒱₀ : Variants := Variants.none
abbrev L : GSem nD τ sig → Finset Unit := fun _ => ∅
abbrev lv : GSem nD τ sig → Unit → ℕ := fun _ _ => 0
/-- What rides beside the buffers through every segment: the core's random-number register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m c) ∗ ∃ r, prngReg c r)

/-! ## The two pallas_calls as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m) c).loose
  hwaits := Pipeline.hwaits_of_owed_zero _ _ _ _ L lv 0 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (V5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 0).pre c (fun _ => fullShare) (adm 0).1 ∗ Pipeline.scopedRest (Pipeline.pin (pcfgs (F := F)) adm 0).spec c)
        ⊢ (Pipeline.ΦA spec0 c : sProp 𝕄) := by
      unfold Pipeline.ΦA
      iintro ⟨Hp, -, Hr⟩
      isplitl [Hr]; · iexact Hr
      iexact Hp
    exact h1.trans (hin0 (V5 m) c)
  hout c := by
    have h1 : (Pipeline.ΦA spec0 c : sProp 𝕄) ⊢ iprop((∃ r, prngReg c r) ∗ Pipeline.ownSems0 (fun k : PEmpty => k.elim) c ∗ Pipeline.scopedRest (Pipeline.pin (pcfgs (F := F)) adm 0).spec c) := by
      rw [Pipeline.ownSems0_none]; unfold Pipeline.ΦA
      iintro ⟨Hr, Hp⟩
      isplitl [Hp]; · iexact Hp
      isplitr; · iempintro
      iexact Hr
    exact (hout0 (V5 m) c).trans h1
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V5 m c) (V6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 1).pre c (fun _ => fullShare) (adm 1).1 ∗ Pipeline.scopedRest (Pipeline.pin (pcfgs (F := F)) adm 1).spec c)
        ⊢ (Pipeline.ΦA spec1 c : sProp 𝕄) := by
      unfold Pipeline.ΦA
      iintro ⟨Hp, -, Hr⟩
      isplitl [Hr]; · iexact Hr
      iexact Hp
    exact h1
  hout c := by
    have h1 : (Pipeline.ΦA spec1 c : sProp 𝕄) ⊢ iprop((∃ r, prngReg c r) ∗ Pipeline.ownSems0 (fun k : PEmpty => k.elim) c ∗ Pipeline.scopedRest (Pipeline.pin (pcfgs (F := F)) adm 1).spec c) := by
      rw [Pipeline.ownSems0_none]; unfold Pipeline.ΦA
      iintro ⟨Hr, Hp⟩
      isplitl [Hp]; · iexact Hp
      isplitr; · iempintro
      iexact Hr
    exact h1
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V7 m c) (V8 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .host (hseg hostOps0_3 hostOps0_3_sub hostOps0_3_fresh (Gen.V3 m)),
    .host (hseg hostOps0_4 hostOps0_4_sub hostOps0_4_fresh (Gen.V4 m)),
    .region (reg0 m),
    .host (hseg hostOps1 hostOps1_sub hostOps1_fresh (W6 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of the program terminates, nothing faulting,
    and in the final memory every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h => h)

/-- THE FRAME: the run ends with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W8_main_arg0 m c),
    (h c _ (mem_uc main_arg1 (by decide))).trans (W8_main_arg1 m c),
    (h c _ (mem_uc main_arg2 (by decide))).trans (W8_main_arg2 m c),
    (h c _ (mem_uc main_arg3 (by decide))).trans (W8_main_arg3 m c),
    (h c _ (mem_uc main_arg4 (by decide))).trans (W8_main_arg4 m c),
    (h c _ (mem_uc main_arg5 (by decide))).trans (W8_main_arg5 m c),
    (h c _ (mem_uc main_arg6 (by decide))).trans (W8_main_arg6 m c),
    (h c _ (mem_uc main_arg7 (by decide))).trans (W8_main_arg7 m c),
    (h c _ (mem_uc main_arg8 (by decide))).trans (W8_main_arg8 m c),
    (h c _ (mem_uc main_arg9 (by decide))).trans (W8_main_arg9 m c)⟩) (run_all m ρ)

/-- THE RESULT: the run ends with the result array at what the second pallas_call's write-backs leave, and every
    argument array as launched. -/
theorem run_value : θ_run defs (onTc (τ := τ) (main (F := F))) ⟨m, fun _ => 0, ρ⟩ (fun r => ∀ c : Dev nD,
      r.2.mem ((c.tc : Thread nD τ).loc main_v48) = (dat1 (V7 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_v48 (by decide))).trans (W8_arr m c 5),
    (h c _ (mem_uc main_arg0 (by decide))).trans (W8_main_arg0 m c),
    (h c _ (mem_uc main_arg1 (by decide))).trans (W8_main_arg1 m c),
    (h c _ (mem_uc main_arg2 (by decide))).trans (W8_main_arg2 m c),
    (h c _ (mem_uc main_arg3 (by decide))).trans (W8_main_arg3 m c),
    (h c _ (mem_uc main_arg4 (by decide))).trans (W8_main_arg4 m c),
    (h c _ (mem_uc main_arg5 (by decide))).trans (W8_main_arg5 m c),
    (h c _ (mem_uc main_arg6 (by decide))).trans (W8_main_arg6 m c),
    (h c _ (mem_uc main_arg7 (by decide))).trans (W8_main_arg7 m c),
    (h c _ (mem_uc main_arg8 (by decide))).trans (W8_main_arg8 m c),
    (h c _ (mem_uc main_arg9 (by decide))).trans (W8_main_arg9 m c)⟩) (run_all m ρ)

end Cert.Kernel.Frm

end
-- ==== Proof.KI.RegA0.lean ====
/-
  The first pallas_call (the two matrix products, the mask, and the column sums): a grid of 2 × 25 points run one after
  the other, point `t = 25·c + i` handling the 2000 rows `50000·c + 2000·i …`. Eight input windows (three row blocks
  and the mask's, the column of row scales, the two weight matrices and the two bias rows, these last four read whole at
  every point), three output windows (the block of `x`; two 8 × 128 blocks, one per value of `c`, that receive the
  column sums and the column sums of squares) and two scratch rows of 128 numbers the body keeps from one point to the
  next: it clears them when `i = 0`, adds the block's column sums to them at every point, and copies them into the two
  small output blocks when `i = 24`. This module states what the three cases of the body (`i = 0`; `0 < i < 24`;
  `i = 24`) share: the blocks, the two conditions in closed form over the 50 points, where the small outputs are idle, and
  the memrefs the body is called with. Stated for any region-entry contents `V` of the core's buffers.
-/
import proofs.«149881_j80161269613387_2_alg».proof.Proof.Gen.KernelIdeal.Launch
import proofs.«149881_j80161269613387_2_alg».proof.Proof.Gen.KernelIdeal.Skeleton
import proofs.«149881_j80161269613387_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section RegionA

variable (V : (c : Dev nD) → (b : Ref sig .tc) → Buf (Elt F) ((c : Thread nD τ).loc b))

/-- Window `w`'s block at point `t`: the part of its array the point works on, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's buffer holds its block whenever the body runs, whether the block was fetched at this point or at an
    earlier one with the same block index: the body never writes an input buffer. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions the body branches on -/

/-- `i = 0`: the body clears the two scratch rows. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 25 = 0 :=
  (by decide +kernel : ∀ t : Fin grid0.N, cond0_0 (grid0.coords t) ↔ t.val % 25 = 0)
/-- `i = 24`: the body copies the two scratch rows into the small output blocks. -/
abbrev cond0_1 (i : grid0.Coords) : Prop := k0_cond2 i = 1#1
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows are idle: the two small outputs, wherever `i ≠ 24`, and there they are not written back -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
theorem liveAt0_9 : ∀ t : Fin cfg0.N, cond0_1 (grid0.coords t) → cfg0.idle 9 (grid0.coords t) = false := by decide +kernel
theorem idleAt0_10 : ∀ t : Fin cfg0.N, ¬cond0_1 (grid0.coords t) → cfg0.idle 10 (grid0.coords t) = true := by decide +kernel
theorem noFlush0_10 : ∀ t : Fin cfg0.N, ¬cond0_1 (grid0.coords t) → (cfg0.win 10).flush t = false := by decide +kernel
theorem liveAt0_10 : ∀ t : Fin cfg0.N, cond0_1 (grid0.coords t) → cfg0.idle 10 (grid0.coords t) = false := by decide +kernel

/-! ## The memrefs the body is called with -/

abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2000x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2000x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2000x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x128 .f32 := win0_10.stage (cfg0.slots t 10)
abbrev hs0_10 (t : Fin cfg0.N) : (ms0_10 t).IsWhole := hstage0_10 ((cfg0.slots t 10).cast nbuf0_10)
/-- The two scratch rows: whole buffers of the kernel's own, passed beside the windows. -/
abbrev scM0_0 : Memref sig .tc .vmem S1x128 .f32 := Memref.whole cc0_scratch0
abbrev scM0_1 : Memref sig .tc .vmem S1x128 .f32 := Memref.whole cc0_scratch1
/-- Views through which the contents of the outputs and of the scratch rows are stated. -/
abbrev VO0_8 : View sig .tc .vmem S2000x128 .f32 := (Memref.whole cc0_stg8_0 : Memref sig .tc .vmem S2000x128 .f32).view
abbrev VO0_9 : View sig .tc .vmem S8x128 .f32 := (Memref.whole cc0_stg9_0 : Memref sig .tc .vmem S8x128 .f32).view
abbrev VO0_10 : View sig .tc .vmem S8x128 .f32 := (Memref.whole cc0_stg10_0 : Memref sig .tc .vmem S8x128 .f32).view
abbrev VS0_0 : View sig .tc .vmem S1x128 .f32 := scM0_0.view
abbrev VS0_1 : View sig .tc .vmem S1x128 .f32 := scM0_1.view

/-- The second pallas_call's staging buffers, which the first one never touches: each whole at some contents. -/
def otherBufs0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- What the region hands the body beside the windows, with the two scratch rows as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ otherBufs0 c) ∗ (∃ r, prngReg c r)) := by
  unfold Pipeline.ΦA otherBufs0; rw [scopedRest0_eq]; simp only [scM0_0, scM0_1, owns_whole]; try rfl

end RegionA

end Cert.KernelIdeal.Frm

end
-- ==== Proof.KI.RegA_A.lean ====
/-
  The first pallas_call's body at THE FIRST POINT OF A COLUMN OF THE GRID (`i = 0`): the body clears the two scratch rows, whatever they held, then adds the block's column sums to them; the small outputs are idle.
  The statement gives, together with the run itself, the stores the body ends with in each buffer it writes, as lists of
  (rectangle, value) pieces, latest first: the block of `x`, the small output blocks where the case writes them, and the
  two scratch rows. The lists are whatever the symbolic run of the body finds; nothing of the arithmetic is restated here.
-/
import proofs.«149881_j80161269613387_2_alg».proof.Proof.Gen.KernelIdeal.Launch
import proofs.«149881_j80161269613387_2_alg».proof.Proof.Gen.KernelIdeal.Skeleton
import proofs.«149881_j80161269613387_2_alg».proof.Proof.Gen.KernelIdeal.Points
import proofs.«149881_j80161269613387_2_alg».proof.Proof.KI.RegA0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : cond0_0 i) (hc1 : ¬cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) :
    Σ' (L8 : List (View.Piece (Elt F) S2000x128 .f32)) (LS0 : List (View.Piece (Elt F) S1x128 .f32)), { LS1 : List (View.Piece (Elt F) S1x128 .f32) //
      ∀ (xi9 xi10 : Vec F S8x128 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ (∃ d, owns (c : Thread nD τ) arg10 fullShare d)
            ∗ owns (c : Thread nD τ) arg11 fullShare xi9
            ∗ owns (c : Thread nD τ) arg12 fullShare xi10
            ∗ (∃ d, owns (c : Thread nD τ) arg13 fullShare d)
            ∗ (∃ d, owns (c : Thread nD τ) arg14 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare x7
                ∗ (∃ f, arg10.view.loc (c : Thread nD τ) ↦[arg10.view.set]{fullShare} arg10.view.writes (Elt F) f L8)
                ∗ owns (c : Thread nD τ) arg11 fullShare xi9
                ∗ owns (c : Thread nD τ) arg12 fullShare xi10
                ∗ (∃ f, arg13.view.loc (c : Thread nD τ) ↦[arg13.view.set]{fullShare} arg13.view.writes (Elt F) f LS0)
                ∗ (∃ f, arg14.view.loc (c : Thread nD τ) ↦[arg14.view.set]{fullShare} arg14.view.writes (Elt F) f LS1)) -∗ K ⟨⟩))
          ⊢ wp frame (wpE (defs₀ (F := F)) Variants.none c none) E (cc0__kernel_a_body i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi9 xi10 E K => ?run⟩
  case run =>
    simp only [cc0__kernel_a_body_eq_skeleton]; unfold cc0__kernel_a_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _; isplitr; · ipureintro; exact harg11.read_unread _
      iexact H9
    isplitl [H10]
    · iexists _; isplitr; · ipureintro; exact harg12.read_unread _
      iexact H10
    isplitl [HS0]; · iexists _; iexact HS0
    iexists _; iexact HS1

end Cert.KernelIdeal.Frm

end
-- ==== Proof.KI.RegA_B.lean ====
/-
  The first pallas_call's body at A MIDDLE POINT (`0 < i < 24`): the scratch rows arrive holding what the point before left (`xs0`, `xs1`) and the block's column sums are added to them; the small outputs are idle.
  The statement gives, together with the run itself, the stores the body ends with in each buffer it writes, as lists of
  (rectangle, value) pieces, latest first: the block of `x`, the small output blocks where the case writes them, and the
  two scratch rows. The lists are whatever the symbolic run of the body finds; nothing of the arithmetic is restated here.
-/
import proofs.«149881_j80161269613387_2_alg».proof.Proof.Gen.KernelIdeal.Launch
import proofs.«149881_j80161269613387_2_alg».proof.Proof.Gen.KernelIdeal.Skeleton
import proofs.«149881_j80161269613387_2_alg».proof.Proof.Gen.KernelIdeal.Points
import proofs.«149881_j80161269613387_2_alg».proof.Proof.KI.RegA0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : ¬cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (xs0 xs1 : Vec F S1x128 .f32) :
    Σ' (L8 : List (View.Piece (Elt F) S2000x128 .f32)) (LS0 : List (View.Piece (Elt F) S1x128 .f32)), { LS1 : List (View.Piece (Elt F) S1x128 .f32) //
      ∀ (xi9 xi10 : Vec F S8x128 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ (∃ d, owns (c : Thread nD τ) arg10 fullShare d)
            ∗ owns (c : Thread nD τ) arg11 fullShare xi9
            ∗ owns (c : Thread nD τ) arg12 fullShare xi10
            ∗ owns (c : Thread nD τ) arg13 fullShare xs0
            ∗ owns (c : Thread nD τ) arg14 fullShare xs1
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare x7
                ∗ (∃ f, arg10.view.loc (c : Thread nD τ) ↦[arg10.view.set]{fullShare} arg10.view.writes (Elt F) f L8)
                ∗ owns (c : Thread nD τ) arg11 fullShare xi9
                ∗ owns (c : Thread nD τ) arg12 fullShare xi10
                ∗ (∃ f, arg13.view.loc (c : Thread nD τ) ↦[arg13.view.set]{fullShare} arg13.view.writes (Elt F) f LS0)
                ∗ (∃ f, arg14.view.loc (c : Thread nD τ) ↦[arg14.view.set]{fullShare} arg14.view.writes (Elt F) f LS1)) -∗ K ⟨⟩))
          ⊢ wp frame (wpE (defs₀ (F := F)) Variants.none c none) E (cc0__kernel_a_body i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi9 xi10 E K => ?run⟩
  case run =>
    simp only [cc0__kernel_a_body_eq_skeleton]; unfold cc0__kernel_a_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hf10; obtain rfl := harg13.eq_unread hfs0; obtain rfl := harg14.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _; isplitr; · ipureintro; exact harg11.read_unread _
      iexact H9
    isplitl [H10]
    · iexists _; isplitr; · ipureintro; exact harg12.read_unread _
      iexact H10
    isplitl [HS0]; · iexists _; iexact HS0
    iexists _; iexact HS1

end Cert.KernelIdeal.Frm

end
-- ==== Proof.KI.RegA_C.lean ====
/-
  The first pallas_call's body at THE LAST POINT OF A COLUMN OF THE GRID (`i = 24`): as a middle point, and then the two scratch rows are copied, repeated over 8 rows, into the two small output blocks.
  The statement gives, together with the run itself, the stores the body ends with in each buffer it writes, as lists of
  (rectangle, value) pieces, latest first: the block of `x`, the small output blocks where the case writes them, and the
  two scratch rows. The lists are whatever the symbolic run of the body finds; nothing of the arithmetic is restated here.
-/
import proofs.«149881_j80161269613387_2_alg».proof.Proof.Gen.KernelIdeal.Launch
import proofs.«149881_j80161269613387_2_alg».proof.Proof.Gen.KernelIdeal.Skeleton
import proofs.«149881_j80161269613387_2_alg».proof.Proof.Gen.KernelIdeal.Points
import proofs.«149881_j80161269613387_2_alg».proof.Proof.KI.RegA0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (xs0 xs1 : Vec F S1x128 .f32) :
    Σ' (L8 : List (View.Piece (Elt F) S2000x128 .f32)) (L9 : List (View.Piece (Elt F) S8x128 .f32)) (L10 : List (View.Piece (Elt F) S8x128 .f32)) (LS0 : List (View.Piece (Elt F) S1x128 .f32)), { LS1 : List (View.Piece (Elt F) S1x128 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ (∃ d, owns (c : Thread nD τ) arg10 fullShare d)
            ∗ (∃ d, owns (c : Thread nD τ) arg11 fullShare d)
            ∗ (∃ d, owns (c : Thread nD τ) arg12 fullShare d)
            ∗ owns (c : Thread nD τ) arg13 fullShare xs0
            ∗ owns (c : Thread nD τ) arg14 fullShare xs1
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare x7
                ∗ (∃ f, arg10.view.loc (c : Thread nD τ) ↦[arg10.view.set]{fullShare} arg10.view.writes (Elt F) f L8)
                ∗ (∃ f, arg11.view.loc (c : Thread nD τ) ↦[arg11.view.set]{fullShare} arg11.view.writes (Elt F) f L9)
                ∗ (∃ f, arg12.view.loc (c : Thread nD τ) ↦[arg12.view.set]{fullShare} arg12.view.writes (Elt F) f L10)
                ∗ (∃ f, arg13.view.loc (c : Thread nD τ) ↦[arg13.view.set]{fullShare} arg13.view.writes (Elt F) f LS0)
                ∗ (∃ f, arg14.view.loc (c : Thread nD τ) ↦[arg14.view.set]{fullShare} arg14.view.writes (Elt F) f LS1)) -∗ K ⟨⟩))
          ⊢ wp frame (wpE (defs₀ (F := F)) Variants.none c none) E (cc0__kernel_a_body i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0__kernel_a_body_eq_skeleton]; unfold cc0__kernel_a_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg13.eq_unread hfs0; obtain rfl := harg14.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [HS0]; · iexists _; iexact HS0
    iexists _; iexact HS1

end Cert.KernelIdeal.Frm

end
-- ==== Proof.KI.RegA.lean ====
/-
  The first pallas_call assembled from its three cases: what each case leaves in the output buffers and in the two scratch
  rows (the stores its run found, read back), the accumulation over the 50 points, the region's invariant carrying the
  scratch rows from point to point, the proof data and the body obligation. Stated for any region-entry contents `V`.
-/
import proofs.«149881_j80161269613387_2_alg».proof.Proof.Gen.KernelIdeal.Launch
import proofs.«149881_j80161269613387_2_alg».proof.Proof.Gen.KernelIdeal.Skeleton
import proofs.«149881_j80161269613387_2_alg».proof.Proof.Gen.KernelIdeal.Points
import proofs.«149881_j80161269613387_2_alg».proof.Proof.KI.RegA_A
import proofs.«149881_j80161269613387_2_alg».proof.Proof.KI.RegA_B
import proofs.«149881_j80161269613387_2_alg».proof.Proof.KI.RegA_C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section RegionA

/-- Case A: the stores into the block of `x` tile it. -/
theorem cover0_A_8 (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : cond0_0 i) (hc1 : ¬cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (y : S2000x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).1, y ∈ pc.1.set :=
  View.cover_of_tiledL ((kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).1) S2000x128.size (by sl_kernel_rfl) y
/-- Case A: what the body leaves in the buffer of the block of `x`. -/
def out0_A_8 (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : cond0_0 i) (hc1 : ¬cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) : Vec F S2000x128 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).1)
/-- Case A: the stores into the first scratch row (the running column sums) tile it. -/
theorem scover0_A_0 (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : cond0_0 i) (hc1 : ¬cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (y : S1x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.1, y ∈ pc.1.set :=
  View.cover_of_tiledL ((kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.1) S1x128.size (by sl_kernel_rfl) y
/-- Case A: what the body leaves in the first scratch row. -/
def sout0_A_0 (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : cond0_0 i) (hc1 : ¬cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) : Vec F S1x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.1)
/-- Case A: the stores into the second scratch row (the running column sums of squares) tile it. -/
theorem scover0_A_1 (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : cond0_0 i) (hc1 : ¬cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (y : S1x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.1, y ∈ pc.1.set :=
  View.cover_of_tiledL ((kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.1) S1x128.size (by sl_kernel_rfl) y
/-- Case A: what the body leaves in the second scratch row. -/
def sout0_A_1 (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : cond0_0 i) (hc1 : ¬cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) : Vec F S1x128 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.1)

/-- Case B: the stores into the block of `x` tile it. -/
theorem cover0_B_8 (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : ¬cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (xs0 xs1 : Vec F S1x128 .f32) (y : S2000x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).1, y ∈ pc.1.set :=
  View.cover_of_tiledL ((kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).1) S2000x128.size (by sl_kernel_rfl) y
/-- Case B: what the body leaves in the buffer of the block of `x`. -/
def out0_B_8 (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : ¬cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (xs0 xs1 : Vec F S1x128 .f32) : Vec F S2000x128 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).1)
/-- Case B: the stores into the first scratch row (the running column sums) tile it. -/
theorem scover0_B_0 (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : ¬cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (xs0 xs1 : Vec F S1x128 .f32) (y : S1x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.1, y ∈ pc.1.set :=
  View.cover_of_tiledL ((kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.1) S1x128.size (by sl_kernel_rfl) y
/-- Case B: what the body leaves in the first scratch row. -/
def sout0_B_0 (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : ¬cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (xs0 xs1 : Vec F S1x128 .f32) : Vec F S1x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.1)
/-- Case B: the stores into the second scratch row (the running column sums of squares) tile it. -/
theorem scover0_B_1 (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : ¬cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (xs0 xs1 : Vec F S1x128 .f32) (y : S1x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.1, y ∈ pc.1.set :=
  View.cover_of_tiledL ((kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.1) S1x128.size (by sl_kernel_rfl) y
/-- Case B: what the body leaves in the second scratch row. -/
def sout0_B_1 (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : ¬cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (xs0 xs1 : Vec F S1x128 .f32) : Vec F S1x128 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.1)

/-- Case C: the stores into the block of `x` tile it. -/
theorem cover0_C_8 (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (xs0 xs1 : Vec F S1x128 .f32) (y : S2000x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).1, y ∈ pc.1.set :=
  View.cover_of_tiledL ((kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).1) S2000x128.size (by sl_kernel_rfl) y
/-- Case C: what the body leaves in the buffer of the block of `x`. -/
def out0_C_8 (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (xs0 xs1 : Vec F S1x128 .f32) : Vec F S2000x128 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).1)
/-- Case C: the stores into the block of column sums tile it. -/
theorem cover0_C_9 (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (xs0 xs1 : Vec F S1x128 .f32) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.1, y ∈ pc.1.set :=
  View.cover_of_tiledL ((kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.1) S8x128.size (by sl_kernel_rfl) y
/-- Case C: what the body leaves in the block of column sums. -/
def out0_C_9 (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (xs0 xs1 : Vec F S1x128 .f32) : Vec F S8x128 .f32 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.1)
/-- Case C: the stores into the block of column sums of squares tile it. -/
theorem cover0_C_10 (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (xs0 xs1 : Vec F S1x128 .f32) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.1, y ∈ pc.1.set :=
  View.cover_of_tiledL ((kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.1) S8x128.size (by sl_kernel_rfl) y
/-- Case C: what the body leaves in the block of column sums of squares. -/
def out0_C_10 (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (xs0 xs1 : Vec F S1x128 .f32) : Vec F S8x128 .f32 :=
  VO0_10.read (Elt F) (VO0_10.writes (Elt F) VO0_10.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.1)
/-- Case C: the stores into the first scratch row (the running column sums) tile it. -/
theorem scover0_C_0 (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (xs0 xs1 : Vec F S1x128 .f32) (y : S1x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.2.1, y ∈ pc.1.set :=
  View.cover_of_tiledL ((kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.2.1) S1x128.size (by sl_kernel_rfl) y
/-- Case C: what the body leaves in the first scratch row. -/
def sout0_C_0 (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (xs0 xs1 : Vec F S1x128 .f32) : Vec F S1x128 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.2.1)
/-- Case C: the stores into the second scratch row (the running column sums of squares) tile it. -/
theorem scover0_C_1 (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (xs0 xs1 : Vec F S1x128 .f32) (y : S1x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.2.2.1, y ∈ pc.1.set :=
  View.cover_of_tiledL ((kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.2.2.1) S1x128.size (by sl_kernel_rfl) y
/-- Case C: what the body leaves in the second scratch row. -/
def sout0_C_1 (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (xs0 xs1 : Vec F S1x128 .f32) : Vec F S1x128 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.2.2.1)

variable (V : (c : Dev nD) → (b : Ref sig .tc) → Buf (Elt F) ((c : Thread nD τ).loc b))

/-- A small output block at a point where the body does not write it: contents nothing consults. -/
def idle9 : Vec F S8x128 .f32 := VO0_9.read (Elt F) (VO0_9.writes (Elt F) VO0_9.junk [])
def idle10 : Vec F S8x128 .f32 := VO0_10.read (Elt F) (VO0_10.writes (Elt F) VO0_10.junk [])

/-- THE ACCUMULATION. What the three output buffers and the two scratch rows hold after the body at position `n` of the
    50 points (in that order): the case the position is in, run on the point's input blocks, the scratch rows of a point
    with `i > 0` starting from what position `n - 1` left in them. -/
def outsAt0 (c : Dev nD) : (n : ℕ) → n < cfg0.N → Vec F S2000x128 .f32 × Vec F S8x128 .f32 × Vec F S8x128 .f32 × Vec F S1x128 .f32 × Vec F S1x128 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩), idle9, idle10, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩))
  | n + 1, hn =>
    if h0 : (n + 1) % 25 = 0 then
      if h1 : (n + 1) % 25 = 24 then
        False.elim (by omega)
      else
        (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩), idle9, idle10, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩))
    else
      if h1 : (n + 1) % 25 = 24 then
        (out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2.2.1 (outsAt0 c n (Nat.lt_of_succ_lt hn)).2.2.2.2, out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2.2.1 (outsAt0 c n (Nat.lt_of_succ_lt hn)).2.2.2.2, out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2.2.1 (outsAt0 c n (Nat.lt_of_succ_lt hn)).2.2.2.2)
      else
        (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2.2.1 (outsAt0 c n (Nat.lt_of_succ_lt hn)).2.2.2.2, idle9, idle10, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2.2.1 (outsAt0 c n (Nat.lt_of_succ_lt hn)).2.2.2.2)

theorem outsAt0_A (c : Dev nD) (t : Fin cfg0.N) (h0 : t.val % 25 = 0) (h1 : ¬t.val % 25 = 24) :
    outsAt0 V c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t), idle9, idle10, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t)) := by
  obtain ⟨n, hn⟩ := t
  cases n with
  | zero => exact rfl
  | succ n => exact (dif_pos h0).trans ((dif_neg h1).trans rfl)

theorem outsAt0_B (c : Dev nD) (t : Fin cfg0.N) (h0 : ¬t.val % 25 = 0) (h1 : ¬t.val % 25 = 24) :
    outsAt0 V c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, idle9, idle10, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 25 = 0) (h1 : t.val % 25 = 24) :
    outsAt0 V c t.val t.isLt = (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point, what the launch hands the region (every scoped
    buffer it does not stage at anything); afterwards the two scratch rows at what the point before left in them, the
    second pallas_call's buffers at anything, and the core's random-number register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ otherBufs0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2.2.1) ∗ owns (c : Thread nD τ) scM0_1 fullShare ((outsAt0 V c n hn).2.2.2.2) ∗ otherBufs0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ otherBufs0 c) ∗ (∃ r, prngReg c r)) := by
  cases n with
  | zero => exact absurd rfl hz
  | succ n => rfl

/-- The proof data of the first pallas_call on core `c`: its arrays as the region finds them; after the body at point `t`
    each input buffer still at its block and the three output buffers at the accumulation's components; the invariant
    above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => (outsAt0 V c t.val t.isLt).1
    | ⟨9, _⟩ => (outsAt0 V c t.val t.isLt).2.1
    | ⟨10, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = (outsAt0 V c t.val t.isLt).1 := by dsimp only [dat0]
theorem after0_9 (c : Dev nD) (t : Fin cfg0.N) : (dat0 V c).after 9 t = (outsAt0 V c t.val t.isLt).2.1 := by dsimp only [dat0]
theorem after0_10 (c : Dev nD) (t : Fin cfg0.N) : (dat0 V c).after 10 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t)

set_option maxHeartbeats 16000000 in
/-- The body at any point: the input buffers hold their blocks; the closed forms of the two conditions say which of the
    three cases the point is in, and that case's run applies; the invariant hands the body the two scratch rows at what the
    point before left (at anything before the first point) and takes them back at this point's contents; the small outputs
    come back untouched where the body does not write them; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).owesAt () t.succ = (dat0 V c).owesAt () t.castSucc from rfl]
  rw [show (dat0 V c).Φ t.succ = PhiS0 V c (t.val + 1) t.isLt from rfl, PhiS0_succ]
  have hN : t.val < 50 := lt_of_lt_of_eq t.isLt (show cfg0.N = 50 from N_0)
  by_cases h0 : t.val % 25 = 0
  · by_cases h1 : t.val % 25 = 24
    · exfalso; omega
    ·
      have hc0' : cond0_0 (grid0.coords t) := (hcond0_0 t).mpr h0
      have hc1' : ¬cond0_1 (grid0.coords t) := fun h => h1 ((hcond0_1 t).mp h)
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [Dat.leavesExact_idle (dat0 V c) 9 t (idleAt0_9 t hc1') (noFlush0_9 t hc1')]
      rw [Dat.leavesExact_idle (dat0 V c) 10 t (idleAt0_10 t hc1') (noFlush0_10 t hc1')]
      rw [outsAt0_A V c t h0 h1]
      unfold out0_A_8 sout0_A_0 sout0_A_1; (try dsimp only)
      by_cases hz : t.val = 0
      ·
        rw [PhiS0_castSucc V c t, PhiS0_zero V c _ _ hz, PhiA0_eq]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_A c (grid0.coords t) _ _ _ _ _ _ _ _ _ _ _ _ _ _ _ _ _ _ _ _ _ _ _ _ _ _ hc0' hc1' (iblk0 V c 0 t) (iblk0 V c 1 t) (iblk0 V c 2 t) (iblk0 V c 3 t) (iblk0 V c 4 t) (iblk0 V c 5 t) (iblk0 V c 6 t) (iblk0 V c 7 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [H10]; · iexact H10
        isplitl [HS0]; · iexact HS0
        isplitl [HS1]; · iexact HS1
        iintro ⟨H0, H1, H2, H3, H4, H5, H6, H7, ⟨%e8, H8⟩, H9, H10, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _ _ _ _ _)
        isplitl [H9]; · iexists _; iexact H9
        iexists _; iexact H10
      ·
        rw [PhiS0_castSucc V c t, PhiS0_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_A c (grid0.coords t) _ _ _ _ _ _ _ _ _ _ _ _ _ _ _ _ _ _ _ _ _ _ _ _ _ _ hc0' hc1' (iblk0 V c 0 t) (iblk0 V c 1 t) (iblk0 V c 2 t) (iblk0 V c 3 t) (iblk0 V c 4 t) (iblk0 V c 5 t) (iblk0 V c 6 t) (iblk0 V c 7 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [H10]; · iexact H10
        isplitl [HS0]; · iexists _; iexact HS0
        isplitl [HS1]; · iexists _; iexact HS1
        iintro ⟨H0, H1, H2, H3, H4, H5, H6, H7, ⟨%e8, H8⟩, H9, H10, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _ _ _ _ _)
        isplitl [H9]; · iexists _; iexact H9
        iexists _; iexact H10
  · by_cases h1 : t.val % 25 = 24
    ·
      have hc0' : ¬cond0_0 (grid0.coords t) := fun h => h0 ((hcond0_0 t).mp h)
      have hc1' : cond0_1 (grid0.coords t) := (hcond0_1 t).mpr h1
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [show (dat0 V c).leavesExact 9 t = owns (c : Thread nD τ) (ms0_9 t) fullShare ((dat0 V c).after 9 t) from by
        unfold Dat.leavesExact; rw [liveAt0_9 t hc1'], after0_9]
      rw [show (dat0 V c).leavesExact 10 t = owns (c : Thread nD τ) (ms0_10 t) fullShare ((dat0 V c).after 10 t) from by
        unfold Dat.leavesExact; rw [liveAt0_10 t hc1'], after0_10]
      rw [outsAt0_C V c t h0 h1]
      unfold out0_C_8 out0_C_9 out0_C_10 sout0_C_0 sout0_C_1; (try dsimp only)
      by_cases hz : t.val = 0
      · exfalso; omega
      ·
        rw [PhiS0_castSucc V c t, PhiS0_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_C c (grid0.coords t) _ _ _ _ _ _ _ _ _ _ _ _ _ _ _ _ _ _ _ _ _ _ _ _ _ _ hc0' hc1' (iblk0 V c 0 t) (iblk0 V c 1 t) (iblk0 V c 2 t) (iblk0 V c 3 t) (iblk0 V c 4 t) (iblk0 V c 5 t) (iblk0 V c 6 t) (iblk0 V c 7 t) _ _).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [HS0]; · iexact HS0
        isplitl [HS1]; · iexact HS1
        iintro ⟨H0, H1, H2, H3, H4, H5, H6, H7, ⟨%e8, H8⟩, ⟨%e9, H9⟩, ⟨%e10, H10⟩, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_C_8 c _ _ _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_C_9 c _ _ _ _ _ _ _ _ _ _ _ _ _ _ _ _ _ _ _ _ _ _ _ _ _ _ _ _ _ _ _ _ _ _ _ _ _ _ _)
        unfold owns; iexists _; isplitr
        swap; · iexact H10
        ipureintro; exact View.read_writes_of_cover _ _ _ _ _ (cover0_C_10 c _ _ _ _ _ _ _ _ _ _ _ _ _ _ _ _ _ _ _ _ _ _ _ _ _ _ _ _ _ _ _ _ _ _ _ _ _ _ _)
    ·
      have hc0' : ¬cond0_0 (grid0.coords t) := fun h => h0 ((hcond0_0 t).mp h)
      have hc1' : ¬cond0_1 (grid0.coords t) := fun h => h1 ((hcond0_1 t).mp h)
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [Dat.leavesExact_idle (dat0 V c) 9 t (idleAt0_9 t hc1') (noFlush0_9 t hc1')]
      rw [Dat.leavesExact_idle (dat0 V c) 10 t (idleAt0_10 t hc1') (noFlush0_10 t hc1')]
      rw [outsAt0_B V c t h0 h1]
      unfold out0_B_8 sout0_B_0 sout0_B_1; (try dsimp only)
      by_cases hz : t.val = 0
      · exfalso; omega
      ·
        rw [PhiS0_castSucc V c t, PhiS0_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_B c (grid0.coords t) _ _ _ _ _ _ _ _ _ _ _ _ _ _ _ _ _ _ _ _ _ _ _ _ _ _ hc0' hc1' (iblk0 V c 0 t) (iblk0 V c 1 t) (iblk0 V c 2 t) (iblk0 V c 3 t) (iblk0 V c 4 t) (iblk0 V c 5 t) (iblk0 V c 6 t) (iblk0 V c 7 t) _ _).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [H10]; · iexact H10
        isplitl [HS0]; · iexact HS0
        isplitl [HS1]; · iexact HS1
        iintro ⟨H0, H1, H2, H3, H4, H5, H6, H7, ⟨%e8, H8⟩, H9, H10, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_B_8 c _ _ _ _ _ _ _ _ _ _ _ _ _ _ _ _ _ _ _ _ _ _ _ _ _ _ _ _ _ _ _ _ _ _ _ _ _ _ _)
        isplitl [H9]; · iexists _; iexact H9
        iexists _; iexact H10

/-- The body obligation of the first pallas_call, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives back what the launch handed over: what the scratch rows hold is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 50 := N_0; omega)

end RegionA

end Cert.KernelIdeal.Frm

end
-- ==== Proof.KI.RegB.lean ====
/-
  The second pallas_call (the normalisation): a grid of ten points, point `t` handling rows `10000·t … 10000·t + 9999`.
  Its five input windows are the array `x` (one block of 10000 rows per point) and four rows of 128 numbers — the column
  means, the column variances, the scale and the shift — that every point reads whole; its one output window is the
  block of the result. The body loads the six buffers, computes one pointwise expression of the five inputs and stores
  it over the whole output block, so after the body the output buffer is that expression of the point's input blocks
  whatever it held before. Stated for any region-entry contents `V` of the core's buffers.
-/
import proofs.«149881_j80161269613387_2_alg».proof.Proof.Gen.KernelIdeal.Launch
import proofs.«149881_j80161269613387_2_alg».proof.Proof.Gen.KernelIdeal.Skeleton
import proofs.«149881_j80161269613387_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section RegionB

variable (V : (c : Dev nD) → (b : Ref sig .tc) → Buf (Elt F) ((c : Thread nD τ).loc b))

/-- Window `w`'s block at point `t`: the rows of its array the point works on, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block whenever the body runs, whether the block was fetched at this point or
    at an earlier one with the same block index (the body never writes an input buffer). One statement per window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole block of 10000 rows, and the whole row of 128 numbers: the only two rectangles the body touches. -/
abbrev rBlk : Rect S10000x128 := Rect.unit (s := S10000x128) ![0, 0] S10000x128.size inb_S10000x128_S10000x128_0_0
abbrev rRow : Rect S1x128 := Rect.unit (s := S1x128) ![0, 0] S1x128.size inb_S1x128_S1x128_0_0

/-- What the body leaves in the output buffer: its one store, the pointwise expression of the five loaded inputs,
    over the whole block. -/
def out1_5 (x0 : Vec F S10000x128 .f32) (x1 x2 x3 x4 : Vec F S1x128 .f32) : Vec F S10000x128 .f32 :=
  View.canon [⟨rBlk, k1_pay1 (View.ld x0 rBlk) (View.ld x1 rRow) (View.ld x2 rRow) (View.ld x3 rRow) (View.ld x4 rRow)⟩]

/-- The one store covers the output block. -/
theorem cover1_5 (p0 : Vec F S10000x128 .f32) (y : S10000x128.Idx) :
    ∃ pc ∈ ([⟨rBlk, p0⟩] : List (View.Piece (Elt F) S10000x128 .f32)), y ∈ pc.1.set :=
  View.cover_of_tiled [⟨rBlk, p0⟩] S10000x128.size (by rfl) y

set_option maxHeartbeats 1000000 in
/-- The body's triple: from the five input buffers at contents `x0 … x4` and the output buffer at anything, the body
    runs to the end leaving the inputs as they were and the output at `out1_5` of them. -/
theorem sound_kernel1 (c : Dev nD) (E : Set ℕ) (i : grid1.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S10000x128 .f32) (harg6 : arg6.IsWhole)
    (x0 : Vec F S10000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__kernel_b_body i arg1 harg1 arg2 harg2 arg3 harg3 arg4 harg4 arg5 harg5 arg6 harg6) K := by
  simp only [cc1__kernel_b_body_eq_skeleton]; unfold cc1__kernel_b_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of the second pallas_call on core `c`: its arrays as the region finds them; after the body at point
    `t` each input buffer still at its block and the output buffer at `out1_5` of the input blocks; no invariant of its
    own beyond the buffers it does not use; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the input buffers hold their blocks, so the body's triple applies; the invariant and what
    the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the second pallas_call, at every point. -/
theorem body_obligation1 (c : Dev nD) : BodyObligation (dat1 (F := F) V c) (defs₀ (F := F)) Variants.none () Set.univ := fun t => by
  rw [bigSep_W1, bigSep_W1]
  exact sound_body1 V c t

end RegionB

end Cert.KernelIdeal.Frm

end
-- ==== Proof.KI.Run.lean ====
/-
  The whole program as a sequence of eight segments — five stretches of host operations, the first pallas_call, one more
  stretch, the second pallas_call — and its run. The contents of the core's buffers at each boundary are a fold from the
  launch memory: a stretch applies its operations; a pallas_call leaves its arrays at what its write-backs leave (the
  inputs as entered, each output block by block) and every other buffer as entered. Each pallas_call is entered with every
  unscoped buffer held at the boundary's contents and left with them at the next boundary's. The run ends with every
  unscoped buffer at the last boundary's contents, from which both the arguments (unchanged) and the result are read.
-/
import proofs.«149881_j80161269613387_2_alg».proof.Proof.Gen.KernelIdeal.Launch
import proofs.«149881_j80161269613387_2_alg».proof.Proof.Gen.KernelIdeal.Skeleton
import proofs.«149881_j80161269613387_2_alg».proof.Proof.Gen.KernelIdeal.Points
import proofs.«149881_j80161269613387_2_alg».proof.Proof.Gen.KernelIdeal.Regions
import proofs.«149881_j80161269613387_2_alg».proof.Proof.KI.RegA
import proofs.«149881_j80161269613387_2_alg».proof.Proof.KI.RegB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Before the first pallas_call: the launch memory after the five stretches of host operations. -/
abbrev W5 : Dev nD → Valuation τ sig (Elt F) := fun c => Gen.V5 m c
abbrev V5 : (c : Dev nD) → (b : Ref sig .tc) → Buf (Elt F) ((c : Thread nD τ).loc b) := fun c b => W5 m c b
/-- After the first pallas_call. -/
def W6 (c : Dev nD) : Valuation τ sig (Elt F) :=
  Pipeline.withArrays spec0 c (W5 m c) fun w => (dat0 (V5 m) c).arrAt w cfg0.N
theorem W6_arr (c : Dev nD) (w : Fin cfg0.W) :
    W6 m c (Proc.devRef .tc (Pipeline.arrRef spec0 w)) = (dat0 (V5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
abbrev V6 : (c : Dev nD) → (b : Ref sig .tc) → Buf (Elt F) ((c : Thread nD τ).loc b) := fun c b => W6 m c b
theorem hF0 (c : Dev nD) (w : Fin cfg0.W) : (dat0 (V5 m) c).arrAt w cfg0.N = V6 m c (Pipeline.arrRef spec0 w) :=
  (W6_arr m c w).symm
theorem hrest0 (c : Dev nD) : ∀ b, b ∉ Finset.univ.image (Pipeline.arrRef spec0) → V6 m c b = V5 m c b :=
  fun b hb => W6_of_ne m c b fun w e => hb (Finset.mem_image.mpr ⟨w, Finset.mem_univ _, e⟩)
/-- After the stretch between the two pallas_calls. -/
abbrev W7 : Dev nD → Valuation τ sig (Elt F) := fun c => StableHlo.after hostOps1 (W6 m c)
abbrev V7 : (c : Dev nD) → (b : Ref sig .tc) → Buf (Elt F) ((c : Thread nD τ).loc b) := fun c b => W7 m c b
/-- After the second pallas_call: the end. -/
def W8 (c : Dev nD) : Valuation τ sig (Elt F) :=
  Pipeline.withArrays spec1 c (W7 m c) fun w => (dat1 (V7 m) c).arrAt w cfg1.N
theorem W8_arr (c : Dev nD) (w : Fin cfg1.W) :
    W8 m c (Proc.devRef .tc (Pipeline.arrRef spec1 w)) = (dat1 (V7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
abbrev V8 : (c : Dev nD) → (b : Ref sig .tc) → Buf (Elt F) ((c : Thread nD τ).loc b) := fun c b => W8 m c b
theorem hF1 (c : Dev nD) (w : Fin cfg1.W) : (dat1 (V7 m) c).arrAt w cfg1.N = V8 m c (Pipeline.arrRef spec1 w) :=
  (W8_arr m c w).symm
theorem hrest1 (c : Dev nD) : ∀ b, b ∉ Finset.univ.image (Pipeline.arrRef spec1) → V8 m c b = V7 m c b :=
  fun b hb => W8_of_ne m c b fun w e => hb (Finset.mem_image.mpr ⟨w, Finset.mem_univ _, e⟩)

/-! ### The arguments end as launched: no host operation writes one, and a pallas_call reads it through an input window
    or not at all -/

theorem W8_main_arg0 (c : Dev nD) : W8 m c (Proc.devRef .tc main_arg0) = m ((c : Thread nD τ).loc main_arg0) :=
  calc W8 m c (Proc.devRef .tc main_arg0)
    _ = W7 m c (Proc.devRef .tc main_arg0) := W8_of_ne m c main_arg0 (by decide)
    _ = W6 m c (Proc.devRef .tc main_arg0) := StableHlo.after_of_writes_sub hostOps1 _ hostOps1_writes (by decide)
    _ = W5 m c (Proc.devRef .tc main_arg0) := (W6_arr m c 2).trans (((dat0 (V5 m) c).arrAt_in 2 rfl _).trans (A_eq0 (V5 m) c 2))
    _ = m ((c : Thread nD τ).loc main_arg0) := (V5_of m c main_arg0 (by decide)).trans <| (V4_of m c main_arg0 (by decide)).trans <| (V3_of m c main_arg0 (by decide)).trans <| (V2_of m c main_arg0 (by decide)).trans <| (V1_of m c main_arg0 (by decide)).trans rfl
theorem W8_main_arg1 (c : Dev nD) : W8 m c (Proc.devRef .tc main_arg1) = m ((c : Thread nD τ).loc main_arg1) :=
  calc W8 m c (Proc.devRef .tc main_arg1)
    _ = W7 m c (Proc.devRef .tc main_arg1) := W8_of_ne m c main_arg1 (by decide)
    _ = W6 m c (Proc.devRef .tc main_arg1) := StableHlo.after_of_writes_sub hostOps1 _ hostOps1_writes (by decide)
    _ = W5 m c (Proc.devRef .tc main_arg1) := (W6_arr m c 3).trans (((dat0 (V5 m) c).arrAt_in 3 rfl _).trans (A_eq0 (V5 m) c 3))
    _ = m ((c : Thread nD τ).loc main_arg1) := (V5_of m c main_arg1 (by decide)).trans <| (V4_of m c main_arg1 (by decide)).trans <| (V3_of m c main_arg1 (by decide)).trans <| (V2_of m c main_arg1 (by decide)).trans <| (V1_of m c main_arg1 (by decide)).trans rfl
theorem W8_main_arg2 (c : Dev nD) : W8 m c (Proc.devRef .tc main_arg2) = m ((c : Thread nD τ).loc main_arg2) :=
  calc W8 m c (Proc.devRef .tc main_arg2)
    _ = W7 m c (Proc.devRef .tc main_arg2) := W8_of_ne m c main_arg2 (by decide)
    _ = W6 m c (Proc.devRef .tc main_arg2) := StableHlo.after_of_writes_sub hostOps1 _ hostOps1_writes (by decide)
    _ = W5 m c (Proc.devRef .tc main_arg2) := W6_of_ne m c main_arg2 (by decide)
    _ = m ((c : Thread nD τ).loc main_arg2) := (V5_of m c main_arg2 (by decide)).trans <| (V4_of m c main_arg2 (by decide)).trans <| (V3_of m c main_arg2 (by decide)).trans <| (V2_of m c main_arg2 (by decide)).trans <| (V1_of m c main_arg2 (by decide)).trans rfl
theorem W8_main_arg3 (c : Dev nD) : W8 m c (Proc.devRef .tc main_arg3) = m ((c : Thread nD τ).loc main_arg3) :=
  calc W8 m c (Proc.devRef .tc main_arg3)
    _ = W7 m c (Proc.devRef .tc main_arg3) := W8_of_ne m c main_arg3 (by decide)
    _ = W6 m c (Proc.devRef .tc main_arg3) := StableHlo.after_of_writes_sub hostOps1 _ hostOps1_writes (by decide)
    _ = W5 m c (Proc.devRef .tc main_arg3) := (W6_arr m c 5).trans (((dat0 (V5 m) c).arrAt_in 5 rfl _).trans (A_eq0 (V5 m) c 5))
    _ = m ((c : Thread nD τ).loc main_arg3) := (V5_of m c main_arg3 (by decide)).trans <| (V4_of m c main_arg3 (by decide)).trans <| (V3_of m c main_arg3 (by decide)).trans <| (V2_of m c main_arg3 (by decide)).trans <| (V1_of m c main_arg3 (by decide)).trans rfl
theorem W8_main_arg4 (c : Dev nD) : W8 m c (Proc.devRef .tc main_arg4) = m ((c : Thread nD τ).loc main_arg4) :=
  calc W8 m c (Proc.devRef .tc main_arg4)
    _ = W7 m c (Proc.devRef .tc main_arg4) := W8_of_ne m c main_arg4 (by decide)
    _ = W6 m c (Proc.devRef .tc main_arg4) := StableHlo.after_of_writes_sub hostOps1 _ hostOps1_writes (by decide)
    _ = W5 m c (Proc.devRef .tc main_arg4) := W6_of_ne m c main_arg4 (by decide)
    _ = m ((c : Thread nD τ).loc main_arg4) := (V5_of m c main_arg4 (by decide)).trans <| (V4_of m c main_arg4 (by decide)).trans <| (V3_of m c main_arg4 (by decide)).trans <| (V2_of m c main_arg4 (by decide)).trans <| (V1_of m c main_arg4 (by decide)).trans rfl
theorem W8_main_arg5 (c : Dev nD) : W8 m c (Proc.devRef .tc main_arg5) = m ((c : Thread nD τ).loc main_arg5) :=
  calc W8 m c (Proc.devRef .tc main_arg5)
    _ = W7 m c (Proc.devRef .tc main_arg5) := W8_of_ne m c main_arg5 (by decide)
    _ = W6 m c (Proc.devRef .tc main_arg5) := StableHlo.after_of_writes_sub hostOps1 _ hostOps1_writes (by decide)
    _ = W5 m c (Proc.devRef .tc main_arg5) := W6_of_ne m c main_arg5 (by decide)
    _ = m ((c : Thread nD τ).loc main_arg5) := (V5_of m c main_arg5 (by decide)).trans <| (V4_of m c main_arg5 (by decide)).trans <| (V3_of m c main_arg5 (by decide)).trans <| (V2_of m c main_arg5 (by decide)).trans <| (V1_of m c main_arg5 (by decide)).trans rfl
theorem W8_main_arg6 (c : Dev nD) : W8 m c (Proc.devRef .tc main_arg6) = m ((c : Thread nD τ).loc main_arg6) :=
  calc W8 m c (Proc.devRef .tc main_arg6)
    _ = W7 m c (Proc.devRef .tc main_arg6) := W8_of_ne m c main_arg6 (by decide)
    _ = W6 m c (Proc.devRef .tc main_arg6) := StableHlo.after_of_writes_sub hostOps1 _ hostOps1_writes (by decide)
    _ = W5 m c (Proc.devRef .tc main_arg6) := W6_of_ne m c main_arg6 (by decide)
    _ = m ((c : Thread nD τ).loc main_arg6) := (V5_of m c main_arg6 (by decide)).trans <| (V4_of m c main_arg6 (by decide)).trans <| (V3_of m c main_arg6 (by decide)).trans <| (V2_of m c main_arg6 (by decide)).trans <| (V1_of m c main_arg6 (by decide)).trans rfl
theorem W8_main_arg7 (c : Dev nD) : W8 m c (Proc.devRef .tc main_arg7) = m ((c : Thread nD τ).loc main_arg7) :=
  calc W8 m c (Proc.devRef .tc main_arg7)
    _ = W7 m c (Proc.devRef .tc main_arg7) := W8_of_ne m c main_arg7 (by decide)
    _ = W6 m c (Proc.devRef .tc main_arg7) := StableHlo.after_of_writes_sub hostOps1 _ hostOps1_writes (by decide)
    _ = W5 m c (Proc.devRef .tc main_arg7) := (W6_arr m c 7).trans (((dat0 (V5 m) c).arrAt_in 7 rfl _).trans (A_eq0 (V5 m) c 7))
    _ = m ((c : Thread nD τ).loc main_arg7) := (V5_of m c main_arg7 (by decide)).trans <| (V4_of m c main_arg7 (by decide)).trans <| (V3_of m c main_arg7 (by decide)).trans <| (V2_of m c main_arg7 (by decide)).trans <| (V1_of m c main_arg7 (by decide)).trans rfl
theorem W8_main_arg8 (c : Dev nD) : W8 m c (Proc.devRef .tc main_arg8) = m ((c : Thread nD τ).loc main_arg8) :=
  calc W8 m c (Proc.devRef .tc main_arg8)
    _ = W7 m c (Proc.devRef .tc main_arg8) := W8_of_ne m c main_arg8 (by decide)
    _ = W6 m c (Proc.devRef .tc main_arg8) := StableHlo.after_of_writes_sub hostOps1 _ hostOps1_writes (by decide)
    _ = W5 m c (Proc.devRef .tc main_arg8) := W6_of_ne m c main_arg8 (by decide)
    _ = m ((c : Thread nD τ).loc main_arg8) := (V5_of m c main_arg8 (by decide)).trans <| (V4_of m c main_arg8 (by decide)).trans <| (V3_of m c main_arg8 (by decide)).trans <| (V2_of m c main_arg8 (by decide)).trans <| (V1_of m c main_arg8 (by decide)).trans rfl
theorem W8_main_arg9 (c : Dev nD) : W8 m c (Proc.devRef .tc main_arg9) = m ((c : Thread nD τ).loc main_arg9) :=
  calc W8 m c (Proc.devRef .tc main_arg9)
    _ = W7 m c (Proc.devRef .tc main_arg9) := W8_of_ne m c main_arg9 (by decide)
    _ = W6 m c (Proc.devRef .tc main_arg9) := StableHlo.after_of_writes_sub hostOps1 _ hostOps1_writes (by decide)
    _ = W5 m c (Proc.devRef .tc main_arg9) := W6_of_ne m c main_arg9 (by decide)
    _ = m ((c : Thread nD τ).loc main_arg9) := (V5_of m c main_arg9 (by decide)).trans <| (V4_of m c main_arg9 (by decide)).trans <| (V3_of m c main_arg9 (by decide)).trans <| (V2_of m c main_arg9 (by decide)).trans <| (V1_of m c main_arg9 (by decide)).trans rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V5 m) c
  | ⟨1, _⟩ => fun c => dat1 (V7 m) c
abbrev 𝒱₀ : Variants := Variants.none
abbrev L : GSem nD τ sig → Finset Unit := fun _ => ∅
abbrev lv : GSem nD τ sig → Unit → ℕ := fun _ _ => 0
/-- What rides beside the buffers through every segment: the core's random-number register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m c) ∗ ∃ r, prngReg c r)

/-! ## The two pallas_calls as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m) c).loose
  hwaits := Pipeline.hwaits_of_owed_zero _ _ _ _ L lv 0 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (V5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 0).pre c (fun _ => fullShare) (adm 0).1 ∗ Pipeline.scopedRest (Pipeline.pin (pcfgs (F := F)) adm 0).spec c)
        ⊢ (Pipeline.ΦA spec0 c : sProp 𝕄) := by
      unfold Pipeline.ΦA
      iintro ⟨Hp, -, Hr⟩
      isplitl [Hr]; · iexact Hr
      iexact Hp
    exact h1.trans (hin0 (V5 m) c)
  hout c := by
    have h1 : (Pipeline.ΦA spec0 c : sProp 𝕄) ⊢ iprop((∃ r, prngReg c r) ∗ Pipeline.ownSems0 (fun k : PEmpty => k.elim) c ∗ Pipeline.scopedRest (Pipeline.pin (pcfgs (F := F)) adm 0).spec c) := by
      rw [Pipeline.ownSems0_none]; unfold Pipeline.ΦA
      iintro ⟨Hr, Hp⟩
      isplitl [Hp]; · iexact Hp
      isplitr; · iempintro
      iexact Hr
    exact (hout0 (V5 m) c).trans h1
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V5 m c) (V6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 1).pre c (fun _ => fullShare) (adm 1).1 ∗ Pipeline.scopedRest (Pipeline.pin (pcfgs (F := F)) adm 1).spec c)
        ⊢ (Pipeline.ΦA spec1 c : sProp 𝕄) := by
      unfold Pipeline.ΦA
      iintro ⟨Hp, -, Hr⟩
      isplitl [Hr]; · iexact Hr
      iexact Hp
    exact h1
  hout c := by
    have h1 : (Pipeline.ΦA spec1 c : sProp 𝕄) ⊢ iprop((∃ r, prngReg c r) ∗ Pipeline.ownSems0 (fun k : PEmpty => k.elim) c ∗ Pipeline.scopedRest (Pipeline.pin (pcfgs (F := F)) adm 1).spec c) := by
      rw [Pipeline.ownSems0_none]; unfold Pipeline.ΦA
      iintro ⟨Hr, Hp⟩
      isplitl [Hp]; · iexact Hp
      isplitr; · iempintro
      iexact Hr
    exact h1
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V7 m c) (V8 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .host (hseg hostOps0_3 hostOps0_3_sub hostOps0_3_fresh (Gen.V3 m)),
    .host (hseg hostOps0_4 hostOps0_4_sub hostOps0_4_fresh (Gen.V4 m)),
    .region (reg0 m),
    .host (hseg hostOps1 hostOps1_sub hostOps1_fresh (W6 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of the program terminates, nothing faulting,
    and in the final memory every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h => h)

/-- THE FRAME: the run ends with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W8_main_arg0 m c),
    (h c _ (mem_uc main_arg1 (by decide))).trans (W8_main_arg1 m c),
    (h c _ (mem_uc main_arg2 (by decide))).trans (W8_main_arg2 m c),
    (h c _ (mem_uc main_arg3 (by decide))).trans (W8_main_arg3 m c),
    (h c _ (mem_uc main_arg4 (by decide))).trans (W8_main_arg4 m c),
    (h c _ (mem_uc main_arg5 (by decide))).trans (W8_main_arg5 m c),
    (h c _ (mem_uc main_arg6 (by decide))).trans (W8_main_arg6 m c),
    (h c _ (mem_uc main_arg7 (by decide))).trans (W8_main_arg7 m c),
    (h c _ (mem_uc main_arg8 (by decide))).trans (W8_main_arg8 m c),
    (h c _ (mem_uc main_arg9 (by decide))).trans (W8_main_arg9 m c)⟩) (run_all m ρ)

/-- THE RESULT: the run ends with the result array at what the second pallas_call's write-backs leave, and every
    argument array as launched. -/
theorem run_value : θ_run defs (onTc (τ := τ) (main (F := F))) ⟨m, fun _ => 0, ρ⟩ (fun r => ∀ c : Dev nD,
      r.2.mem ((c.tc : Thread nD τ).loc main_v48) = (dat1 (V7 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_v48 (by decide))).trans (W8_arr m c 5),
    (h c _ (mem_uc main_arg0 (by decide))).trans (W8_main_arg0 m c),
    (h c _ (mem_uc main_arg1 (by decide))).trans (W8_main_arg1 m c),
    (h c _ (mem_uc main_arg2 (by decide))).trans (W8_main_arg2 m c),
    (h c _ (mem_uc main_arg3 (by decide))).trans (W8_main_arg3 m c),
    (h c _ (mem_uc main_arg4 (by decide))).trans (W8_main_arg4 m c),
    (h c _ (mem_uc main_arg5 (by decide))).trans (W8_main_arg5 m c),
    (h c _ (mem_uc main_arg6 (by decide))).trans (W8_main_arg6 m c),
    (h c _ (mem_uc main_arg7 (by decide))).trans (W8_main_arg7 m c),
    (h c _ (mem_uc main_arg8 (by decide))).trans (W8_main_arg8 m c),
    (h c _ (mem_uc main_arg9 (by decide))).trans (W8_main_arg9 m c)⟩) (run_all m ρ)

end Cert.KernelIdeal.Frm

end
-- ==== Proof.Spec.lean ====
import Idealize.ShloMosaic.PureOps.Ideal
import Idealize.ShloMosaic.Lib.ValueIdx

/-!
# The value specification of the normalised layer

All values are extended reals.  `xval` is the masked sum of the two affine maps, the
"kernel" statistics are accumulated over 2 × 25 blocks of 2000 rows in block order and use
the one-pass variance `E[x²] − (E[x])²`; the "reference" statistics use the two-pass variance
`E[(x − E[x])²]`.
-/

open Idealize.ShloMosaic

noncomputable section

namespace Cert.Spec

/-- The real 100000 as the `f32` word `0x47C35000`. -/
abbrev c100000 : EReal := Ideal.ofBits .f32 0x47C35000#32

/-- The stabiliser added to the variance (an `f32` word, never evaluated). -/
abbrev epsBN : EReal := Ideal.ofBits .f32 0x3727C5AC#32

theorem c100000_eq : c100000 = ((100000 : ℝ) : EReal) := by
  simp [c100000, Ideal.ofBits, Ideal.ieee, -EReal.coe_mul]; norm_num

/-- The pre-normalisation activations. -/
def xval (agg : Fin 100000 → Fin 128 → EReal) (rin : Fin 100000 → EReal)
    (feats : Fin 100000 → Fin 128 → EReal) (W : Fin 128 → Fin 128 → EReal) (b : Fin 128 → EReal)
    (Wres : Fin 128 → Fin 128 → EReal) (bres : Fin 128 → EReal)
    (mask : Fin 100000 → Fin 128 → EReal) (p : Fin 100000) (q : Fin 128) : EReal :=
  (((∑ k : Fin 128, (agg p k * rin p) * W k q) + b q)
    + ((∑ k : Fin 128, feats p k * Wres k q) + bres q)) * mask p q

/-- Row `r` of block `i` of half `c`. -/
def row (c : Fin 2) (i : Fin 25) (r : Fin 2000) : Fin 100000 :=
  ⟨50000 * c.val + 2000 * i.val + r.val, by omega⟩

/-- The column sum over one block of 2000 rows. -/
def blockSum (x : Fin 100000 → Fin 128 → EReal) (c : Fin 2) (i : Fin 25) (q : Fin 128) : EReal :=
  ∑ r : Fin 2000, x (row c i r) q

/-- The column sum of squares over one block of 2000 rows. -/
def blockSq (x : Fin 100000 → Fin 128 → EReal) (c : Fin 2) (i : Fin 25) (q : Fin 128) : EReal :=
  ∑ r : Fin 2000, x (row c i r) q * x (row c i r) q

/-- The running column sum of half `c` after its first `n` blocks: `((0 + b₀) + b₁) + …`. -/
def accS (x : Fin 100000 → Fin 128 → EReal) (c : Fin 2) : ℕ → Fin 128 → EReal
  | 0 => fun _ => 0
  | n+1 => fun q => accS x c n q + (if h : n < 25 then blockSum x c ⟨n, h⟩ q else 0)

/-- The running column sum of squares of half `c` after its first `n` blocks. -/
def accQ (x : Fin 100000 → Fin 128 → EReal) (c : Fin 2) : ℕ → Fin 128 → EReal
  | 0 => fun _ => 0
  | n+1 => fun q => accQ x c n q + (if h : n < 25 then blockSq x c ⟨n, h⟩ q else 0)

/-- One-pass mean. -/
def meanK (x : Fin 100000 → Fin 128 → EReal) (q : Fin 128) : EReal :=
  Ideal.div (accS x 0 25 q + accS x 1 25 q) c100000

/-- One-pass variance `E[x²] − (E[x])²`. -/
def varK (x : Fin 100000 → Fin 128 → EReal) (q : Fin 128) : EReal :=
  Ideal.div (accQ x 0 25 q + accQ x 1 25 q) c100000 - meanK x q * meanK x q

/-- The normalised output from the one-pass statistics. -/
def outK (x : Fin 100000 → Fin 128 → EReal) (gamma beta : Fin 128 → EReal)
    (p : Fin 100000) (q : Fin 128) : EReal :=
  gamma q * (x p q - meanK x q) * Ideal.rsqrt (varK x q + epsBN) + beta q

/-- Two-pass mean. -/
def meanR (x : Fin 100000 → Fin 128 → EReal) (q : Fin 128) : EReal :=
  Ideal.div (0 + ∑ p : Fin 100000, x p q) c100000

/-- Two-pass variance `E[(x − E[x])²]`. -/
def varR (x : Fin 100000 → Fin 128 → EReal) (q : Fin 128) : EReal :=
  Ideal.div (0 + ∑ p : Fin 100000, (x p q - meanR x q) * (x p q - meanR x q)) c100000

/-- The normalised output from the two-pass statistics. -/
def outR (x : Fin 100000 → Fin 128 → EReal) (gamma beta : Fin 128 → EReal)
    (p : Fin 100000) (q : Fin 128) : EReal :=
  gamma q * (x p q - meanR x q) * Ideal.rsqrt (varR x q + epsBN) + beta q

end Cert.Spec

end
-- ==== Proof.KI.XDef.lean ====
/-
  The kernel's `x` as a function of the contents `V` of the core's buffers when the first pallas_call is entered: the
  specification's `xval` of the arrays the call's eight input windows read — the aggregated messages, the column of
  row scales, the features, the two weight matrices, the two bias rows and the mask. Also the index arithmetic of the
  call's grid: at point `t` of the 50 the row windows are at block `t` (rows `2000·t …`), the whole-array windows at
  block 0, and the two small outputs at block `t / 25`.
-/
import proofs.«149881_j80161269613387_2_alg».proof.Proof.Gen.KernelIdeal.Launch
import proofs.«149881_j80161269613387_2_alg».proof.Proof.Gen.KernelIdeal.Skeleton
import proofs.«149881_j80161269613387_2_alg».proof.Proof.Gen.KernelIdeal.Points
import proofs.«149881_j80161269613387_2_alg».proof.Proof.KI.RegA
import proofs.«149881_j80161269613387_2_alg».proof.Proof.Spec
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

section

variable (V : (c : Dev nD) → (b : Ref sig .tc) → Buf (Elt Ideal) ((c : Thread nD τ).loc b)) (c : Dev nD)

/-- The arrays the first pallas_call reads, by name. -/
abbrev aAgg : FVec Ideal S100000x128 .f32 := V c main_v22
abbrev aRin : FVec Ideal S100000x1 .f32 := V c main_v24
abbrev aFeats : FVec Ideal S100000x128 .f32 := V c main_arg0
abbrev aW : FVec Ideal S128x128 .f32 := V c main_arg1
abbrev aB : FVec Ideal S1x128 .f32 := V c main_v25
abbrev aWres : FVec Ideal S128x128 .f32 := V c main_arg3
abbrev aBres : FVec Ideal S1x128 .f32 := V c main_v26
abbrev aMask : FVec Ideal S100000x128 .f32 := V c main_arg7

/-- The kernel's `x`, row `p`, column `q`. -/
def XK (p : Fin 100000) (q : Fin 128) : EReal :=
  Cert.Spec.xval (fun p k => aAgg V c (ix2 p k)) (fun p => aRin V c (ix2 p 0)) (fun p k => aFeats V c (ix2 p k))
    (fun k q => aW V c (ix2 k q)) (fun q => aB V c (ix2 0 q)) (fun k q => aWres V c (ix2 k q)) (fun q => aBres V c (ix2 0 q))
    (fun p q => aMask V c (ix2 p q)) p q

end

/-- Row `r` of the block of point `t`. -/
def rowAt (t : Fin cfg0.N) (r : Fin 2000) : Fin 100000 :=
  ⟨2000 * t.val + r.val, by have : t.val < 50 := lt_of_lt_of_eq t.isLt (show cfg0.N = 50 from N_0); have := r.isLt; omega⟩

/-- The printed index maps, decided over the grid. -/
theorem idxA : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val / 25 ∧ win0_9.index t (1 : Fin 2) = 0
    ∧ win0_10.index t (0 : Fin 2) = t.val / 25 ∧ win0_10.index t (1 : Fin 2) = 0 :=
  (by decide +kernel : ∀ t : Fin grid0.N, _)

end Cert.KernelIdeal.Frm

end
-- ==== Proof.PayA.lean ====
/- The values kernel A's stored and carried vectors take at one index, at the ideal instance
   (a float is an extended real, every operation exact). -/
import proofs.«149881_j80161269613387_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.PayA

open Cert.KernelIdeal Cert.KernelIdeal.Gen Idealize.ShloMosaic Idealize.SL.Sem Idealize.ShloMosaic.ValueIdx
open scoped BigOperators

/-- The left operand's row coordinate at output index i is i's row. -/
theorem lhs0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's column coordinate is the contraction coordinate. -/
theorem lhs1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's row coordinate is the contraction coordinate. -/
theorem rhs0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The right operand's column coordinate at output index i is i's column. -/
theorem rhs1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The contraction [2000,128] x [128,128] -> [2000,128] into a zero accumulator, at row r, column q:
    the sum over k of lhs[r,k] * rhs[k,q]. -/
theorem matmul_zero_apply {φ₁ φ₂ : FTy} (a : FVec Ideal S2000x128 φ₁) (b : FVec Ideal S128x128 φ₂) (r : Fin 2000) (q : Fin 128) :
    matmul (F := Ideal) dot_S2000x128_S128x128_S2000x128_1_0_0_1_n_n none a b (constant (F := Ideal) S2000x128 .f32 0x00000000#32) (ix2 r q)
      = ∑ k : Fin 128, a (ix2 r k) * b (ix2 k q) := by
  show FloatOps.matmul dot_S2000x128_S128x128_S2000x128_1_0_0_1_n_n none a b (constant S2000x128 .f32 0x00000000#32) (ix2 r q) = _
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r q) ((contrEquiv1 dot_S2000x128_S128x128_S2000x128_1_0_0_1_n_n 128 rfl rfl).symm k) = ix2 r k :=
    funext fun a => Fin.ext (by
      match a with
      | ⟨0, _⟩ => exact lhs0 _ _
      | ⟨1, _⟩ => exact (lhs1 _ _).trans hk)
  have er : dot_S2000x128_S128x128_S2000x128_1_0_0_1_n_n.rhsIdx (ix2 r q) ((contrEquiv1 dot_S2000x128_S128x128_S2000x128_1_0_0_1_n_n 128 rfl rfl).symm k) = ix2 k q :=
    funext fun a => Fin.ext (by
      match a with
      | ⟨0, _⟩ => exact (rhs0 _ _).trans hk
      | ⟨1, _⟩ => exact rhs1 _ _)
  rw [el, er]

/-- A [2000,1] column broadcast along the lanes reads its row's entry. -/
theorem bcast_col {α : Type} (v : S2000x1.Idx → α) (r : Fin 2000) (k : Fin 128) :
    broadcastTo S2000x128 v broadcasts_S2000x1_S2000x128 (ix2 r k) = v (ix2 r 0) :=
  broadcastTo_apply v broadcasts_S2000x1_S2000x128 (ix2 r k) (ix2 r 0) (fun a => match a with
    | ⟨0, _⟩ => by show r.val = if (2000 : Nat) = 1 then 0 else r.val; rw [if_neg (by decide)]
    | ⟨1, _⟩ => by show 0 = if (1 : Nat) = 1 then 0 else k.val; rw [if_pos rfl])

/-- A [1,128] row broadcast along the 2000 rows reads its column's entry. -/
theorem bcast_row {α : Type} (v : S1x128.Idx → α) (r : Fin 2000) (q : Fin 128) :
    broadcastTo S2000x128 v broadcasts_S1x128_S2000x128 (ix2 r q) = v (ix2 0 q) :=
  broadcastTo_apply v broadcasts_S1x128_S2000x128 (ix2 r q) (ix2 0 q) (fun a => match a with
    | ⟨0, _⟩ => by show 0 = if (1 : Nat) = 1 then 0 else r.val; rw [if_pos rfl]
    | ⟨1, _⟩ => by show q.val = if (128 : Nat) = 1 then 0 else q.val; rw [if_neg (by decide)])

/-- A [1,128] row broadcast along 8 rows reads its column's entry. -/
theorem bcast_row8 {α : Type} (v : S1x128.Idx → α) (a : Fin 8) (q : Fin 128) :
    broadcastTo S8x128 v broadcasts_S1x128_S8x128 (ix2 a q) = v (ix2 0 q) :=
  broadcastTo_apply v broadcasts_S1x128_S8x128 (ix2 a q) (ix2 0 q) (fun b => match b with
    | ⟨0, _⟩ => by show 0 = if (1 : Nat) = 1 then 0 else a.val; rw [if_pos rfl]
    | ⟨1, _⟩ => by show q.val = if (128 : Nat) = 1 then 0 else q.val; rw [if_neg (by decide)])

/-- The masked sum of the two affine maps at row r, column q. -/
theorem pay7_apply (v3 : Vec Ideal S2000x128 .f32) (v5 : Vec Ideal S2000x1 .f32) (v10 : Vec Ideal S2000x128 .f32)
    (v12 v14 : Vec Ideal S128x128 .f32) (v17 v22 : Vec Ideal S1x128 .f32) (v27 : Vec Ideal S2000x128 .f32)
    (r : Fin 2000) (q : Fin 128) :
    Gen.k0_pay7 (F := Ideal) v3 v5 v10 v12 v14 v17 v22 v27 (ix2 r q)
      = (((∑ k : Fin 128, (v3 (ix2 r k) * v5 (ix2 r 0)) * v12 (ix2 k q)) + v17 (ix2 0 q))
          + ((∑ k : Fin 128, v10 (ix2 r k) * v14 (ix2 k q)) + v22 (ix2 0 q))) * v27 (ix2 r q) := by
  unfold Gen.k0_pay7
  simp only [shapeCast_self, mulf_apply, addf_apply, matmul_zero_apply, truncf_apply, bcast_col, bcast_row]

/-- The sum over the 2000 rows of a [2000,128] block, at lane q. -/
theorem lane_sum (src : FVec Ideal S2000x128 .f32) (hφ : FKind.Formats .f32)
    (hacc : (0x00000000#32 : BitVec (FTy.bits .f32)) = FKind.add.neutral .f32 hφ) (q : Fin 128) :
    multiReduction .add [0] S128 src 0x00000000#32 reduces_S2000x128_S128 hφ hacc (ix1 q) = ∑ r : Fin 2000, src (ix2 r q) := by
  refine (Ideal.multiReduction_add_single src 0x00000000#32 reduces_S2000x128_S128 hφ hacc (ix1 q)).trans ?_
  refine Finset.sum_congr rfl fun r _ => congrArg src ?_
  funext c
  match c with
  | ⟨0, _⟩ => rfl
  | ⟨1, _⟩ => rfl

/-- A [128] vector reshaped to [1,128] reads the same lane. -/
theorem cast_row {α : Type} (v : S128.Idx → α) (q : Fin 128) :
    shapeCast S1x128 v shapeCasts_S128_S1x128 (ix2 0 q) = v (ix1 q) :=
  shapeCast_apply v shapeCasts_S128_S1x128 (ix2 0 q) (ix1 q) (by
    rw [Shape.rowMajor_val_one, Shape.rowMajor_val_two]
    show q.val = 0 * 128 + q.val
    omega)

/-- The running sum: the carried row plus the block's column sums. -/
theorem pay8_apply (v3 : Vec Ideal S2000x128 .f32) (v5 : Vec Ideal S2000x1 .f32) (v10 : Vec Ideal S2000x128 .f32)
    (v12 v14 : Vec Ideal S128x128 .f32) (v17 v22 : Vec Ideal S1x128 .f32) (v27 : Vec Ideal S2000x128 .f32)
    (v29 : Vec Ideal S1x128 .f32) (q : Fin 128) :
    Gen.k0_pay8 (F := Ideal) v3 v5 v10 v12 v14 v17 v22 v27 v29 (ix2 0 q)
      = v29 (ix2 0 q) + ∑ r : Fin 2000, Gen.k0_pay7 (F := Ideal) v3 v5 v10 v12 v14 v17 v22 v27 (ix2 r q) := by
  unfold Gen.k0_pay8
  simp only [addf_apply]
  refine congrArg (v29 (ix2 0 q) + ·) ?_
  refine (cast_row _ q).trans ?_
  exact lane_sum _ _ _ q

/-- The running sum of squares: the carried row plus the block's column sums of squares. -/
theorem pay2_apply (v28 : Vec Ideal S2000x128 .f32) (v36 : Vec Ideal S1x128 .f32) (q : Fin 128) :
    Gen.k0_pay2 (F := Ideal) v28 v36 (ix2 0 q) = v36 (ix2 0 q) + ∑ r : Fin 2000, v28 (ix2 r q) * v28 (ix2 r q) := by
  unfold Gen.k0_pay2
  simp only [shapeCast_self, addf_apply]
  refine congrArg (v36 (ix2 0 q) + ·) ?_
  refine (cast_row _ q).trans ?_
  exact lane_sum (mulf v28 v28) _ _ q

/-- The stored running sum is the carried one. -/
theorem pay1_apply (v32 : FVec Ideal S1x128 .f32) (j : S1x128.Idx) : Gen.k0_pay1 (F := Ideal) v32 j = v32 j := by
  unfold Gen.k0_pay1
  rw [shapeCast_self]

/-- The sums broadcast to eight rows. -/
theorem pay3_apply (v48 : Vec Ideal S1x128 .f32) (a : Fin 8) (q : Fin 128) :
    Gen.k0_pay3 (F := Ideal) v48 (ix2 a q) = v48 (ix2 0 q) := by
  unfold Gen.k0_pay3
  simp only [shapeCast_self, bcast_row8]

/-- The sums of squares broadcast to eight rows. -/
theorem pay4_apply (v52 : Vec Ideal S1x128 .f32) (a : Fin 8) (q : Fin 128) :
    Gen.k0_pay4 (F := Ideal) v52 (ix2 a q) = v52 (ix2 0 q) := by
  unfold Gen.k0_pay4
  simp only [shapeCast_self, bcast_row8]

/-- The accumulator of sums starts at zero. -/
theorem pay5_apply (q : Fin 128) : Gen.k0_pay5 (F := Ideal) (ix2 0 q) = 0 := by
  unfold Gen.k0_pay5
  simp only [shapeCast_self, broadcast_apply]
  exact Ideal.ofBits_zero_f32

/-- The accumulator of sums of squares starts at zero. -/
theorem pay6_apply (q : Fin 128) : Gen.k0_pay6 (F := Ideal) (ix2 0 q) = 0 := by
  unfold Gen.k0_pay6
  simp only [shapeCast_self, broadcast_apply]
  exact Ideal.ofBits_zero_f32

end Cert.KernelIdeal.PayA

end
-- ==== Proof.KI.BlkA.lean ====
/-
  The blocks of the first pallas_call's input windows, read at block coordinates: a row window's block at point `t` is
  rows `2000·t …` of its array (a block's coordinate is always its block index times the block size plus the coordinate
  inside the block); a window read whole is its array. Consequently the body's `x` block at point `t`, at (r, q), is the
  kernel's `x` at row `2000·t + r`, column `q`.
-/
import proofs.«149881_j80161269613387_2_alg».proof.Proof.Gen.KernelIdeal.Launch
import proofs.«149881_j80161269613387_2_alg».proof.Proof.Gen.KernelIdeal.Skeleton
import proofs.«149881_j80161269613387_2_alg».proof.Proof.Gen.KernelIdeal.Points
import proofs.«149881_j80161269613387_2_alg».proof.Proof.KI.XDef
import proofs.«149881_j80161269613387_2_alg».proof.Proof.PayA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

section

variable (V : (c : Dev nD) → (b : Ref sig .tc) → Buf (Elt Ideal) ((c : Thread nD τ).loc b)) (c : Dev nD)

theorem blk0_0 (t : Fin cfg0.N) (r : Fin 2000) (k : Fin 128) : iblk0 V c 0 t (ix2 r k) = aAgg V c (ix2 (rowAt t r) k) := by
  obtain ⟨e0_0, e0_1, e1_0, e1_1, e2_0, e2_1, e3_0, e3_1, e4_0, e4_1, e5_0, e5_1, e6_0, e6_1, e7_0, e7_1, _⟩ := idxA t
  show V c main_v22 (((cfg0.win 0).blk t).view.emb (ix2 r k)) = V c main_v22 (ix2 (rowAt t r) k)
  refine congrArg _ ?_
  funext a; apply Fin.ext
  match a with
  | ⟨0, _⟩ => show win0_0.index t (0 : Fin 2) * 2000 + 1 * r.val = 2000 * t.val + r.val; omega
  | ⟨1, _⟩ => show win0_0.index t (1 : Fin 2) * 128 + 1 * k.val = k.val; omega

theorem blk0_1 (t : Fin cfg0.N) (r : Fin 2000) (k : Fin 1) : iblk0 V c 1 t (ix2 r k) = aRin V c (ix2 (rowAt t r) k) := by
  obtain ⟨e0_0, e0_1, e1_0, e1_1, e2_0, e2_1, e3_0, e3_1, e4_0, e4_1, e5_0, e5_1, e6_0, e6_1, e7_0, e7_1, _⟩ := idxA t
  show V c main_v24 (((cfg0.win 1).blk t).view.emb (ix2 r k)) = V c main_v24 (ix2 (rowAt t r) k)
  refine congrArg _ ?_
  funext a; apply Fin.ext
  match a with
  | ⟨0, _⟩ => show win0_1.index t (0 : Fin 2) * 2000 + 1 * r.val = 2000 * t.val + r.val; omega
  | ⟨1, _⟩ => show win0_1.index t (1 : Fin 2) * 1 + 1 * k.val = k.val; omega

theorem blk0_2 (t : Fin cfg0.N) (r : Fin 2000) (k : Fin 128) : iblk0 V c 2 t (ix2 r k) = aFeats V c (ix2 (rowAt t r) k) := by
  obtain ⟨e0_0, e0_1, e1_0, e1_1, e2_0, e2_1, e3_0, e3_1, e4_0, e4_1, e5_0, e5_1, e6_0, e6_1, e7_0, e7_1, _⟩ := idxA t
  show V c main_arg0 (((cfg0.win 2).blk t).view.emb (ix2 r k)) = V c main_arg0 (ix2 (rowAt t r) k)
  refine congrArg _ ?_
  funext a; apply Fin.ext
  match a with
  | ⟨0, _⟩ => show win0_2.index t (0 : Fin 2) * 2000 + 1 * r.val = 2000 * t.val + r.val; omega
  | ⟨1, _⟩ => show win0_2.index t (1 : Fin 2) * 128 + 1 * k.val = k.val; omega

theorem blk0_3 (t : Fin cfg0.N) (r : Fin 128) (k : Fin 128) : iblk0 V c 3 t (ix2 r k) = aW V c (ix2 r k) := by
  obtain ⟨e0_0, e0_1, e1_0, e1_1, e2_0, e2_1, e3_0, e3_1, e4_0, e4_1, e5_0, e5_1, e6_0, e6_1, e7_0, e7_1, _⟩ := idxA t
  show V c main_arg1 (((cfg0.win 3).blk t).view.emb (ix2 r k)) = V c main_arg1 (ix2 r k)
  refine congrArg _ ?_
  funext a; apply Fin.ext
  match a with
  | ⟨0, _⟩ => show win0_3.index t (0 : Fin 2) * 128 + 1 * r.val = r.val; omega
  | ⟨1, _⟩ => show win0_3.index t (1 : Fin 2) * 128 + 1 * k.val = k.val; omega

theorem blk0_4 (t : Fin cfg0.N) (r : Fin 1) (k : Fin 128) : iblk0 V c 4 t (ix2 r k) = aB V c (ix2 r k) := by
  obtain ⟨e0_0, e0_1, e1_0, e1_1, e2_0, e2_1, e3_0, e3_1, e4_0, e4_1, e5_0, e5_1, e6_0, e6_1, e7_0, e7_1, _⟩ := idxA t
  show V c main_v25 (((cfg0.win 4).blk t).view.emb (ix2 r k)) = V c main_v25 (ix2 r k)
  refine congrArg _ ?_
  funext a; apply Fin.ext
  match a with
  | ⟨0, _⟩ => show win0_4.index t (0 : Fin 2) * 1 + 1 * r.val = r.val; omega
  | ⟨1, _⟩ => show win0_4.index t (1 : Fin 2) * 128 + 1 * k.val = k.val; omega

theorem blk0_5 (t : Fin cfg0.N) (r : Fin 128) (k : Fin 128) : iblk0 V c 5 t (ix2 r k) = aWres V c (ix2 r k) := by
  obtain ⟨e0_0, e0_1, e1_0, e1_1, e2_0, e2_1, e3_0, e3_1, e4_0, e4_1, e5_0, e5_1, e6_0, e6_1, e7_0, e7_1, _⟩ := idxA t
  show V c main_arg3 (((cfg0.win 5).blk t).view.emb (ix2 r k)) = V c main_arg3 (ix2 r k)
  refine congrArg _ ?_
  funext a; apply Fin.ext
  match a with
  | ⟨0, _⟩ => show win0_5.index t (0 : Fin 2) * 128 + 1 * r.val = r.val; omega
  | ⟨1, _⟩ => show win0_5.index t (1 : Fin 2) * 128 + 1 * k.val = k.val; omega

theorem blk0_6 (t : Fin cfg0.N) (r : Fin 1) (k : Fin 128) : iblk0 V c 6 t (ix2 r k) = aBres V c (ix2 r k) := by
  obtain ⟨e0_0, e0_1, e1_0, e1_1, e2_0, e2_1, e3_0, e3_1, e4_0, e4_1, e5_0, e5_1, e6_0, e6_1, e7_0, e7_1, _⟩ := idxA t
  show V c main_v26 (((cfg0.win 6).blk t).view.emb (ix2 r k)) = V c main_v26 (ix2 r k)
  refine congrArg _ ?_
  funext a; apply Fin.ext
  match a with
  | ⟨0, _⟩ => show win0_6.index t (0 : Fin 2) * 1 + 1 * r.val = r.val; omega
  | ⟨1, _⟩ => show win0_6.index t (1 : Fin 2) * 128 + 1 * k.val = k.val; omega

theorem blk0_7 (t : Fin cfg0.N) (r : Fin 2000) (k : Fin 128) : iblk0 V c 7 t (ix2 r k) = aMask V c (ix2 (rowAt t r) k) := by
  obtain ⟨e0_0, e0_1, e1_0, e1_1, e2_0, e2_1, e3_0, e3_1, e4_0, e4_1, e5_0, e5_1, e6_0, e6_1, e7_0, e7_1, _⟩ := idxA t
  show V c main_arg7 (((cfg0.win 7).blk t).view.emb (ix2 r k)) = V c main_arg7 (ix2 (rowAt t r) k)
  refine congrArg _ ?_
  funext a; apply Fin.ext
  match a with
  | ⟨0, _⟩ => show win0_7.index t (0 : Fin 2) * 2000 + 1 * r.val = 2000 * t.val + r.val; omega
  | ⟨1, _⟩ => show win0_7.index t (1 : Fin 2) * 128 + 1 * k.val = k.val; omega

/-- The `x` payload of any eight blocks that are the arrays' rows `row` (and the whole small arrays), at (r, q). -/
theorem pay7_rows (b0 : Vec Ideal S2000x128 .f32) (b1 : Vec Ideal S2000x1 .f32) (b2 : Vec Ideal S2000x128 .f32) (b3 : Vec Ideal S128x128 .f32)
    (b4 : Vec Ideal S1x128 .f32) (b5 : Vec Ideal S128x128 .f32) (b6 : Vec Ideal S1x128 .f32) (b7 : Vec Ideal S2000x128 .f32)
    (r : Fin 2000) (q : Fin 128) (row : Fin 100000)
    (h0 : ∀ k : Fin 128, b0 (ix2 r k) = aAgg V c (ix2 row k)) (h1 : b1 (ix2 r 0) = aRin V c (ix2 row 0))
    (h2 : ∀ k : Fin 128, b2 (ix2 r k) = aFeats V c (ix2 row k)) (h3 : ∀ k : Fin 128, b3 (ix2 k q) = aW V c (ix2 k q))
    (h4 : b4 (ix2 0 q) = aB V c (ix2 0 q)) (h5 : ∀ k : Fin 128, b5 (ix2 k q) = aWres V c (ix2 k q))
    (h6 : b6 (ix2 0 q) = aBres V c (ix2 0 q)) (h7 : b7 (ix2 r q) = aMask V c (ix2 row q)) :
    k0_pay7 (F := Ideal) b0 b1 b2 b3 b5 b4 b6 b7 (ix2 r q) = XK V c row q := by
  refine (Cert.KernelIdeal.PayA.pay7_apply b0 b1 b2 b3 b5 b4 b6 b7 r q).trans ?_
  unfold XK Cert.Spec.xval
  simp only [h0, h1, h2, h3, h4, h5, h6, h7]

/-- The body's `x` block at point `t`, at (r, q), is the kernel's `x` at row `2000·t + r`. -/
theorem pay7_blk (t : Fin cfg0.N) (r : Fin 2000) (q : Fin 128) :
    k0_pay7 (F := Ideal) (iblk0 V c 0 t) (iblk0 V c 1 t) (iblk0 V c 2 t) (iblk0 V c 3 t) (iblk0 V c 5 t) (iblk0 V c 4 t) (iblk0 V c 6 t) (iblk0 V c 7 t) (ix2 r q)
      = XK V c (rowAt t r) q :=
  pay7_rows V c (iblk0 V c 0 t) (iblk0 V c 1 t) (iblk0 V c 2 t) (iblk0 V c 3 t) (iblk0 V c 4 t) (iblk0 V c 5 t) (iblk0 V c 6 t) (iblk0 V c 7 t) r q (rowAt t r)
    (fun k => blk0_0 V c t r k) (blk0_1 V c t r 0) (fun k => blk0_2 V c t r k) (fun k => blk0_3 V c t k q)
    (blk0_4 V c t 0 q) (fun k => blk0_5 V c t k q) (blk0_6 V c t 0 q) (blk0_7 V c t r q)

end

end Cert.KernelIdeal.Frm

end
-- ==== Proof.KI.ValA.lean ====
/-
  What the three cases of the first pallas_call's body leave behind, as the body's own arithmetic: the stores each run
  found are single stores over whole buffers, so each buffer ends at the value of its last store, and every load the
  value mentions reads a whole input block (or, for a scratch row, what the point before left or what the same point
  just stored). In every case the block of `x` is one pointwise-and-matrix expression `pay7` of the eight input blocks;
  the first scratch row becomes its previous contents (zero, when the case has just cleared it) plus the block's column
  sums, the second likewise with the squares; and the last case copies the two rows, repeated over 8 rows, into the
  small output blocks.
-/
import proofs.«149881_j80161269613387_2_alg».proof.Proof.Gen.KernelIdeal.Launch
import proofs.«149881_j80161269613387_2_alg».proof.Proof.Gen.KernelIdeal.Skeleton
import proofs.«149881_j80161269613387_2_alg».proof.Proof.Gen.KernelIdeal.Points
import proofs.«149881_j80161269613387_2_alg».proof.Proof.KI.RegA
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz00 : (![0, 0] : Fin 2 → Nat) = fun _ => 0 := funext fun a => by fin_cases a <;> rfl

theorem out0_A_8_eq (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : cond0_0 i) (hc1 : ¬cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) :
    out0_A_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = k0_pay7 x0 x1 x2 x3 x5 x4 x6 x7 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7)]
  unfold kernelRun0_A
  dsimp only
  sl_unfold_words
  first
    | rw [View.canon_unit_zero hz00]
    | rw [View.canon_cons_unit_zero hz00]
  simp only [View.readCov_unit_zero (S := S1x128) arg13.view hz00, View.readCov_unit_zero (S := S1x128) arg14.view hz00, View.readAt_eq_ld, harg2.read_unread, harg3.read_unread, harg4.read_unread, harg5.read_unread, harg6.read_unread, harg7.read_unread, harg8.read_unread, harg9.read_unread, harg13.read_unread, harg14.read_unread,
    View.ld_unit_zero (S := S2000x128) hz00, View.ld_unit_zero (S := S2000x1) hz00, View.ld_unit_zero (S := S128x128) hz00, View.ld_unit_zero (S := S1x128) hz00, View.ld_unit_zero (S := S8x128) hz00]

theorem out0_B_8_eq (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : ¬cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (xs0 xs1 : Vec F S1x128 .f32) :
    out0_B_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 = k0_pay7 x0 x1 x2 x3 x5 x4 x6 x7 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1)]
  unfold kernelRun0_B
  dsimp only
  sl_unfold_words
  first
    | rw [View.canon_unit_zero hz00]
    | rw [View.canon_cons_unit_zero hz00]
  simp only [View.readCov_unit_zero (S := S1x128) arg13.view hz00, View.readCov_unit_zero (S := S1x128) arg14.view hz00, View.readAt_eq_ld, harg2.read_unread, harg3.read_unread, harg4.read_unread, harg5.read_unread, harg6.read_unread, harg7.read_unread, harg8.read_unread, harg9.read_unread, harg13.read_unread, harg14.read_unread,
    View.ld_unit_zero (S := S2000x128) hz00, View.ld_unit_zero (S := S2000x1) hz00, View.ld_unit_zero (S := S128x128) hz00, View.ld_unit_zero (S := S1x128) hz00, View.ld_unit_zero (S := S8x128) hz00]

theorem out0_C_8_eq (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (xs0 xs1 : Vec F S1x128 .f32) :
    out0_C_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 = k0_pay7 x0 x1 x2 x3 x5 x4 x6 x7 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1)]
  unfold kernelRun0_C
  dsimp only
  sl_unfold_words
  first
    | rw [View.canon_unit_zero hz00]
    | rw [View.canon_cons_unit_zero hz00]
  simp only [View.readCov_unit_zero (S := S1x128) arg13.view hz00, View.readCov_unit_zero (S := S1x128) arg14.view hz00, View.readAt_eq_ld, harg2.read_unread, harg3.read_unread, harg4.read_unread, harg5.read_unread, harg6.read_unread, harg7.read_unread, harg8.read_unread, harg9.read_unread, harg13.read_unread, harg14.read_unread,
    View.ld_unit_zero (S := S2000x128) hz00, View.ld_unit_zero (S := S2000x1) hz00, View.ld_unit_zero (S := S128x128) hz00, View.ld_unit_zero (S := S1x128) hz00, View.ld_unit_zero (S := S8x128) hz00]

theorem sout0_A_0_eq (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : cond0_0 i) (hc1 : ¬cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = k0_pay1 (k0_pay8 x0 x1 x2 x3 x5 x4 x6 x7 (k0_pay5 (F := F))) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7)]
  unfold kernelRun0_A
  dsimp only
  sl_unfold_words
  first
    | rw [View.canon_unit_zero hz00]
    | rw [View.canon_cons_unit_zero hz00]
  simp only [View.readCov_unit_zero (S := S1x128) arg13.view hz00, View.readCov_unit_zero (S := S1x128) arg14.view hz00, View.readAt_eq_ld, harg2.read_unread, harg3.read_unread, harg4.read_unread, harg5.read_unread, harg6.read_unread, harg7.read_unread, harg8.read_unread, harg9.read_unread, harg13.read_unread, harg14.read_unread,
    View.ld_unit_zero (S := S2000x128) hz00, View.ld_unit_zero (S := S2000x1) hz00, View.ld_unit_zero (S := S128x128) hz00, View.ld_unit_zero (S := S1x128) hz00, View.ld_unit_zero (S := S8x128) hz00]

theorem sout0_A_1_eq (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : cond0_0 i) (hc1 : ¬cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) :
    sout0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = k0_pay2 (k0_pay7 x0 x1 x2 x3 x5 x4 x6 x7) (k0_pay6 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7)]
  unfold kernelRun0_A
  dsimp only
  sl_unfold_words
  first
    | rw [View.canon_unit_zero hz00]
    | rw [View.canon_cons_unit_zero hz00]
  simp only [View.readCov_unit_zero (S := S1x128) arg13.view hz00, View.readCov_unit_zero (S := S1x128) arg14.view hz00, View.readAt_eq_ld, harg2.read_unread, harg3.read_unread, harg4.read_unread, harg5.read_unread, harg6.read_unread, harg7.read_unread, harg8.read_unread, harg9.read_unread, harg13.read_unread, harg14.read_unread,
    View.ld_unit_zero (S := S2000x128) hz00, View.ld_unit_zero (S := S2000x1) hz00, View.ld_unit_zero (S := S128x128) hz00, View.ld_unit_zero (S := S1x128) hz00, View.ld_unit_zero (S := S8x128) hz00]

theorem sout0_B_0_eq (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : ¬cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (xs0 xs1 : Vec F S1x128 .f32) :
    sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 = k0_pay1 (k0_pay8 x0 x1 x2 x3 x5 x4 x6 x7 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1)]
  unfold kernelRun0_B
  dsimp only
  sl_unfold_words
  first
    | rw [View.canon_unit_zero hz00]
    | rw [View.canon_cons_unit_zero hz00]
  simp only [View.readCov_unit_zero (S := S1x128) arg13.view hz00, View.readCov_unit_zero (S := S1x128) arg14.view hz00, View.readAt_eq_ld, harg2.read_unread, harg3.read_unread, harg4.read_unread, harg5.read_unread, harg6.read_unread, harg7.read_unread, harg8.read_unread, harg9.read_unread, harg13.read_unread, harg14.read_unread,
    View.ld_unit_zero (S := S2000x128) hz00, View.ld_unit_zero (S := S2000x1) hz00, View.ld_unit_zero (S := S128x128) hz00, View.ld_unit_zero (S := S1x128) hz00, View.ld_unit_zero (S := S8x128) hz00]

theorem sout0_B_1_eq (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : ¬cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (xs0 xs1 : Vec F S1x128 .f32) :
    sout0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 = k0_pay2 (k0_pay7 x0 x1 x2 x3 x5 x4 x6 x7) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1)]
  unfold kernelRun0_B
  dsimp only
  sl_unfold_words
  first
    | rw [View.canon_unit_zero hz00]
    | rw [View.canon_cons_unit_zero hz00]
  simp only [View.readCov_unit_zero (S := S1x128) arg13.view hz00, View.readCov_unit_zero (S := S1x128) arg14.view hz00, View.readAt_eq_ld, harg2.read_unread, harg3.read_unread, harg4.read_unread, harg5.read_unread, harg6.read_unread, harg7.read_unread, harg8.read_unread, harg9.read_unread, harg13.read_unread, harg14.read_unread,
    View.ld_unit_zero (S := S2000x128) hz00, View.ld_unit_zero (S := S2000x1) hz00, View.ld_unit_zero (S := S128x128) hz00, View.ld_unit_zero (S := S1x128) hz00, View.ld_unit_zero (S := S8x128) hz00]

theorem sout0_C_0_eq (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (xs0 xs1 : Vec F S1x128 .f32) :
    sout0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 = k0_pay1 (k0_pay8 x0 x1 x2 x3 x5 x4 x6 x7 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1)]
  unfold kernelRun0_C
  dsimp only
  sl_unfold_words
  first
    | rw [View.canon_unit_zero hz00]
    | rw [View.canon_cons_unit_zero hz00]
  simp only [View.readCov_unit_zero (S := S1x128) arg13.view hz00, View.readCov_unit_zero (S := S1x128) arg14.view hz00, View.readAt_eq_ld, harg2.read_unread, harg3.read_unread, harg4.read_unread, harg5.read_unread, harg6.read_unread, harg7.read_unread, harg8.read_unread, harg9.read_unread, harg13.read_unread, harg14.read_unread,
    View.ld_unit_zero (S := S2000x128) hz00, View.ld_unit_zero (S := S2000x1) hz00, View.ld_unit_zero (S := S128x128) hz00, View.ld_unit_zero (S := S1x128) hz00, View.ld_unit_zero (S := S8x128) hz00]

theorem sout0_C_1_eq (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (xs0 xs1 : Vec F S1x128 .f32) :
    sout0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 = k0_pay2 (k0_pay7 x0 x1 x2 x3 x5 x4 x6 x7) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1)]
  unfold kernelRun0_C
  dsimp only
  sl_unfold_words
  first
    | rw [View.canon_unit_zero hz00]
    | rw [View.canon_cons_unit_zero hz00]
  simp only [View.readCov_unit_zero (S := S1x128) arg13.view hz00, View.readCov_unit_zero (S := S1x128) arg14.view hz00, View.readAt_eq_ld, harg2.read_unread, harg3.read_unread, harg4.read_unread, harg5.read_unread, harg6.read_unread, harg7.read_unread, harg8.read_unread, harg9.read_unread, harg13.read_unread, harg14.read_unread,
    View.ld_unit_zero (S := S2000x128) hz00, View.ld_unit_zero (S := S2000x1) hz00, View.ld_unit_zero (S := S128x128) hz00, View.ld_unit_zero (S := S1x128) hz00, View.ld_unit_zero (S := S8x128) hz00]

theorem out0_C_9_eq (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (xs0 xs1 : Vec F S1x128 .f32) :
    out0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 = k0_pay3 (k0_pay1 (k0_pay8 x0 x1 x2 x3 x5 x4 x6 x7 xs0)) := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1)]
  unfold kernelRun0_C
  dsimp only
  sl_unfold_words
  first
    | rw [View.canon_unit_zero hz00]
    | rw [View.canon_cons_unit_zero hz00]
  simp only [View.readCov_unit_zero (S := S1x128) arg13.view hz00, View.readCov_unit_zero (S := S1x128) arg14.view hz00, View.readAt_eq_ld, harg2.read_unread, harg3.read_unread, harg4.read_unread, harg5.read_unread, harg6.read_unread, harg7.read_unread, harg8.read_unread, harg9.read_unread, harg13.read_unread, harg14.read_unread,
    View.ld_unit_zero (S := S2000x128) hz00, View.ld_unit_zero (S := S2000x1) hz00, View.ld_unit_zero (S := S128x128) hz00, View.ld_unit_zero (S := S1x128) hz00, View.ld_unit_zero (S := S8x128) hz00]

theorem out0_C_10_eq (c : Dev nD) (i : grid0.Coords) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 : Vec F S2000x128 .f32) (x1 : Vec F S2000x1 .f32) (x2 : Vec F S2000x128 .f32) (x3 : Vec F S128x128 .f32) (x4 : Vec F S1x128 .f32) (x5 : Vec F S128x128 .f32) (x6 : Vec F S1x128 .f32) (x7 : Vec F S2000x128 .f32) (xs0 xs1 : Vec F S1x128 .f32) :
    out0_C_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 = k0_pay4 (k0_pay2 (k0_pay7 x0 x1 x2 x3 x5 x4 x6 x7) xs1) := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1)]
  unfold kernelRun0_C
  dsimp only
  sl_unfold_words
  first
    | rw [View.canon_unit_zero hz00]
    | rw [View.canon_cons_unit_zero hz00]
  simp only [View.readCov_unit_zero (S := S1x128) arg13.view hz00, View.readCov_unit_zero (S := S1x128) arg14.view hz00, View.readAt_eq_ld, harg2.read_unread, harg3.read_unread, harg4.read_unread, harg5.read_unread, harg6.read_unread, harg7.read_unread, harg8.read_unread, harg9.read_unread, harg13.read_unread, harg14.read_unread,
    View.ld_unit_zero (S := S2000x128) hz00, View.ld_unit_zero (S := S2000x1) hz00, View.ld_unit_zero (S := S128x128) hz00, View.ld_unit_zero (S := S1x128) hz00, View.ld_unit_zero (S := S8x128) hz00]

end Cert.KernelIdeal.Frm

end
-- ==== Proof.KI.AccA.lean ====
/-
  The two scratch rows, point by point. Within a column of the grid (`c` fixed, `i = 0 … 24`, point `25·c + i`) the
  first row holds, after point `i`, the sum over the first `i + 1` blocks of the block's column sums of `x`, added in
  the kernel's own order starting from zero; the second row the same for `x²`. By induction on `i`: the first point
  clears the rows and adds its block; every later point adds its block to what the point before left. At `i = 24` the
  rows are copied, repeated over 8 rows, into the small output blocks.
-/
import proofs.«149881_j80161269613387_2_alg».proof.Proof.Gen.KernelIdeal.Launch
import proofs.«149881_j80161269613387_2_alg».proof.Proof.Gen.KernelIdeal.Skeleton
import proofs.«149881_j80161269613387_2_alg».proof.Proof.Gen.KernelIdeal.Points
import proofs.«149881_j80161269613387_2_alg».proof.Proof.KI.BlkA
import proofs.«149881_j80161269613387_2_alg».proof.Proof.KI.ValA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

section

variable (V : (c : Dev nD) → (b : Ref sig .tc) → Buf (Elt Ideal) ((c : Thread nD τ).loc b)) (c : Dev nD)

theorem rowAt_eq (cc : Fin 2) (i : Fin 25) (hn : 25 * cc.val + i.val < cfg0.N) (r : Fin 2000) :
    rowAt ⟨25 * cc.val + i.val, hn⟩ r = Cert.Spec.row cc i r :=
  Fin.ext (by show 2000 * (25 * cc.val + i.val) + r.val = 50000 * cc.val + 2000 * i.val + r.val; omega)

/-- The column sums of the block of point `25·c + i`. -/
theorem blockSum_at (cc : Fin 2) (i : Fin 25) (hn : 25 * cc.val + i.val < cfg0.N) (q : Fin 128) :
    ∑ r : Fin 2000, k0_pay7 (F := Ideal) (iblk0 V c 0 ⟨25 * cc.val + i.val, hn⟩) (iblk0 V c 1 ⟨25 * cc.val + i.val, hn⟩) (iblk0 V c 2 ⟨25 * cc.val + i.val, hn⟩) (iblk0 V c 3 ⟨25 * cc.val + i.val, hn⟩) (iblk0 V c 5 ⟨25 * cc.val + i.val, hn⟩) (iblk0 V c 4 ⟨25 * cc.val + i.val, hn⟩) (iblk0 V c 6 ⟨25 * cc.val + i.val, hn⟩) (iblk0 V c 7 ⟨25 * cc.val + i.val, hn⟩) (ix2 r q) = Cert.Spec.blockSum (XK V c) cc i q := by
  unfold Cert.Spec.blockSum
  exact Finset.sum_congr rfl fun r _ => (pay7_blk V c ⟨25 * cc.val + i.val, hn⟩ r q).trans (by rw [rowAt_eq cc i hn r])

theorem blockSq_at (cc : Fin 2) (i : Fin 25) (hn : 25 * cc.val + i.val < cfg0.N) (q : Fin 128) :
    ∑ r : Fin 2000, k0_pay7 (F := Ideal) (iblk0 V c 0 ⟨25 * cc.val + i.val, hn⟩) (iblk0 V c 1 ⟨25 * cc.val + i.val, hn⟩) (iblk0 V c 2 ⟨25 * cc.val + i.val, hn⟩) (iblk0 V c 3 ⟨25 * cc.val + i.val, hn⟩) (iblk0 V c 5 ⟨25 * cc.val + i.val, hn⟩) (iblk0 V c 4 ⟨25 * cc.val + i.val, hn⟩) (iblk0 V c 6 ⟨25 * cc.val + i.val, hn⟩) (iblk0 V c 7 ⟨25 * cc.val + i.val, hn⟩) (ix2 r q) * k0_pay7 (F := Ideal) (iblk0 V c 0 ⟨25 * cc.val + i.val, hn⟩) (iblk0 V c 1 ⟨25 * cc.val + i.val, hn⟩) (iblk0 V c 2 ⟨25 * cc.val + i.val, hn⟩) (iblk0 V c 3 ⟨25 * cc.val + i.val, hn⟩) (iblk0 V c 5 ⟨25 * cc.val + i.val, hn⟩) (iblk0 V c 4 ⟨25 * cc.val + i.val, hn⟩) (iblk0 V c 6 ⟨25 * cc.val + i.val, hn⟩) (iblk0 V c 7 ⟨25 * cc.val + i.val, hn⟩) (ix2 r q) = Cert.Spec.blockSq (XK V c) cc i q := by
  unfold Cert.Spec.blockSq
  exact Finset.sum_congr rfl fun r _ => by rw [pay7_blk V c ⟨25 * cc.val + i.val, hn⟩ r q, rowAt_eq cc i hn r]

/-- One step of the first row: previous contents `s` (at column `q`) plus the block's column sums. -/
theorem stepS (cc : Fin 2) (i : Fin 25) (hn : 25 * cc.val + i.val < cfg0.N) (xs : Vec Ideal S1x128 .f32) (q : Fin 128) :
    k0_pay1 (F := Ideal) (k0_pay8 (F := Ideal) (iblk0 V c 0 ⟨25 * cc.val + i.val, hn⟩) (iblk0 V c 1 ⟨25 * cc.val + i.val, hn⟩) (iblk0 V c 2 ⟨25 * cc.val + i.val, hn⟩) (iblk0 V c 3 ⟨25 * cc.val + i.val, hn⟩) (iblk0 V c 5 ⟨25 * cc.val + i.val, hn⟩) (iblk0 V c 4 ⟨25 * cc.val + i.val, hn⟩) (iblk0 V c 6 ⟨25 * cc.val + i.val, hn⟩) (iblk0 V c 7 ⟨25 * cc.val + i.val, hn⟩) xs) (ix2 0 q)
      = xs (ix2 0 q) + Cert.Spec.blockSum (XK V c) cc i q := by
  refine (Cert.KernelIdeal.PayA.pay1_apply _ _).trans ?_
  refine (Cert.KernelIdeal.PayA.pay8_apply _ _ _ _ _ _ _ _ _ q).trans ?_
  rw [blockSum_at V c cc i hn q]

theorem stepQ (cc : Fin 2) (i : Fin 25) (hn : 25 * cc.val + i.val < cfg0.N) (xs : Vec Ideal S1x128 .f32) (q : Fin 128) :
    k0_pay2 (F := Ideal) (k0_pay7 (F := Ideal) (iblk0 V c 0 ⟨25 * cc.val + i.val, hn⟩) (iblk0 V c 1 ⟨25 * cc.val + i.val, hn⟩) (iblk0 V c 2 ⟨25 * cc.val + i.val, hn⟩) (iblk0 V c 3 ⟨25 * cc.val + i.val, hn⟩) (iblk0 V c 5 ⟨25 * cc.val + i.val, hn⟩) (iblk0 V c 4 ⟨25 * cc.val + i.val, hn⟩) (iblk0 V c 6 ⟨25 * cc.val + i.val, hn⟩) (iblk0 V c 7 ⟨25 * cc.val + i.val, hn⟩)) xs (ix2 0 q)
      = xs (ix2 0 q) + Cert.Spec.blockSq (XK V c) cc i q := by
  refine (Cert.KernelIdeal.PayA.pay2_apply _ _ q).trans ?_
  rw [blockSq_at V c cc i hn q]

/-- THE INVARIANT: after point `25·c + i` the two scratch rows hold the running sums over the first `i + 1` blocks. -/
theorem acc_inv (cc : Fin 2) : ∀ (i : ℕ) (hi : i < 25) (hn : 25 * cc.val + i < cfg0.N) (q : Fin 128),
    (outsAt0 V c (25 * cc.val + i) hn).2.2.2.1 (ix2 0 q) = Cert.Spec.accS (XK V c) cc (i + 1) q
    ∧ (outsAt0 V c (25 * cc.val + i) hn).2.2.2.2 (ix2 0 q) = Cert.Spec.accQ (XK V c) cc (i + 1) q := by
  intro i
  induction i with
  | zero =>
    intro hi hn q
    have h0 : (⟨25 * cc.val + 0, hn⟩ : Fin cfg0.N).val % 25 = 0 := by show (25 * cc.val + 0) % 25 = 0; omega
    have h1 : ¬(⟨25 * cc.val + 0, hn⟩ : Fin cfg0.N).val % 25 = 24 := by show ¬(25 * cc.val + 0) % 25 = 24; omega
    have e := outsAt0_A V c ⟨25 * cc.val + 0, hn⟩ h0 h1
    rw [show outsAt0 V c (25 * cc.val + 0) hn = outsAt0 V c (⟨25 * cc.val + 0, hn⟩ : Fin cfg0.N).val (⟨25 * cc.val + 0, hn⟩ : Fin cfg0.N).isLt from rfl, e]
    dsimp only
    rw [sout0_A_0_eq, sout0_A_1_eq]
    constructor
    · rw [stepS V c cc ⟨0, by omega⟩ hn _ q, Cert.KernelIdeal.PayA.pay5_apply]
      show (0 : EReal) + _ = Cert.Spec.accS (XK V c) cc 0 q + (if h : 0 < 25 then Cert.Spec.blockSum (XK V c) cc ⟨0, h⟩ q else 0)
      rw [dif_pos (by omega)]; rfl
    · rw [stepQ V c cc ⟨0, by omega⟩ hn _ q, Cert.KernelIdeal.PayA.pay6_apply]
      show (0 : EReal) + _ = Cert.Spec.accQ (XK V c) cc 0 q + (if h : 0 < 25 then Cert.Spec.blockSq (XK V c) cc ⟨0, h⟩ q else 0)
      rw [dif_pos (by omega)]; rfl
  | succ j ih =>
    intro hi hn q
    have hN : cfg0.N = 50 := N_0
    have hn' : 25 * cc.val + j < cfg0.N := by omega
    obtain ⟨ihS, ihQ⟩ := ih (by omega) hn' q
    have h0 : ¬(⟨25 * cc.val + (j + 1), hn⟩ : Fin cfg0.N).val % 25 = 0 := by show ¬(25 * cc.val + (j + 1)) % 25 = 0; omega
    have hprev : ∀ hp, outsAt0 V c ((⟨25 * cc.val + (j + 1), hn⟩ : Fin cfg0.N).val - 1) hp = outsAt0 V c (25 * cc.val + j) hn' := fun hp => rfl
    by_cases h1 : (⟨25 * cc.val + (j + 1), hn⟩ : Fin cfg0.N).val % 25 = 24
    · have e := outsAt0_C V c ⟨25 * cc.val + (j + 1), hn⟩ h0 h1
      rw [show outsAt0 V c (25 * cc.val + (j + 1)) hn = outsAt0 V c (⟨25 * cc.val + (j + 1), hn⟩ : Fin cfg0.N).val (⟨25 * cc.val + (j + 1), hn⟩ : Fin cfg0.N).isLt from rfl, e]
      dsimp only
      rw [sout0_C_0_eq, sout0_C_1_eq, hprev]
      constructor
      · rw [stepS V c cc ⟨j + 1, hi⟩ hn _ q, ihS]
        show _ = Cert.Spec.accS (XK V c) cc (j + 1) q + (if h : j + 1 < 25 then Cert.Spec.blockSum (XK V c) cc ⟨j + 1, h⟩ q else 0)
        rw [dif_pos hi]
      · rw [stepQ V c cc ⟨j + 1, hi⟩ hn _ q, ihQ]
        show _ = Cert.Spec.accQ (XK V c) cc (j + 1) q + (if h : j + 1 < 25 then Cert.Spec.blockSq (XK V c) cc ⟨j + 1, h⟩ q else 0)
        rw [dif_pos hi]
    · have e := outsAt0_B V c ⟨25 * cc.val + (j + 1), hn⟩ h0 h1
      rw [show outsAt0 V c (25 * cc.val + (j + 1)) hn = outsAt0 V c (⟨25 * cc.val + (j + 1), hn⟩ : Fin cfg0.N).val (⟨25 * cc.val + (j + 1), hn⟩ : Fin cfg0.N).isLt from rfl, e]
      dsimp only
      rw [sout0_B_0_eq, sout0_B_1_eq, hprev]
      constructor
      · rw [stepS V c cc ⟨j + 1, hi⟩ hn _ q, ihS]
        show _ = Cert.Spec.accS (XK V c) cc (j + 1) q + (if h : j + 1 < 25 then Cert.Spec.blockSum (XK V c) cc ⟨j + 1, h⟩ q else 0)
        rw [dif_pos hi]
      · rw [stepQ V c cc ⟨j + 1, hi⟩ hn _ q, ihQ]
        show _ = Cert.Spec.accQ (XK V c) cc (j + 1) q + (if h : j + 1 < 25 then Cert.Spec.blockSq (XK V c) cc ⟨j + 1, h⟩ q else 0)
        rw [dif_pos hi]

end

end Cert.KernelIdeal.Frm

end
-- ==== Proof.KI.FlushA.lean ====
/-
  The three arrays the first pallas_call writes, each as one function. Every point writes its block of `x` back, and the
  50 blocks of 2000 rows tile the array, so the `x` array ends at the kernel's `x`, row by row. The two small arrays are
  written back only at the last point of each column of the grid (`i = 24`), block `c`; those two blocks of 8 rows tile
  them, and each holds the column's complete running sum repeated over its 8 rows.
-/
import proofs.«149881_j80161269613387_2_alg».proof.Proof.Gen.KernelIdeal.Launch
import proofs.«149881_j80161269613387_2_alg».proof.Proof.Gen.KernelIdeal.Skeleton
import proofs.«149881_j80161269613387_2_alg».proof.Proof.Gen.KernelIdeal.Points
import proofs.«149881_j80161269613387_2_alg».proof.Proof.KI.AccA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

section

variable (V : (c : Dev nD) → (b : Ref sig .tc) → Buf (Elt Ideal) ((c : Thread nD τ).loc b)) (c : Dev nD)

theorem XK_congr {p p' : Fin 100000} {q q' : Fin 128} (hp : p.val = p'.val) (hq : q.val = q'.val) : XK V c p q = XK V c p' q' := by
  rw [Fin.ext hp, Fin.ext hq]

theorem acc_congr {cc cc' : Fin 2} {q q' : Fin 128} (hc : cc.val = cc'.val) (hq : q.val = q'.val) :
    Cert.Spec.accS (XK V c) cc 25 q = Cert.Spec.accS (XK V c) cc' 25 q' ∧ Cert.Spec.accQ (XK V c) cc 25 q = Cert.Spec.accQ (XK V c) cc' 25 q' := by
  rw [Fin.ext hc, Fin.ext hq]; exact ⟨rfl, rfl⟩

theorem outsAt0_congr {n n' : ℕ} (h : n = n') (hn : n < cfg0.N) (hn' : n' < cfg0.N) : outsAt0 V c n hn = outsAt0 V c n' hn' := by
  subst h; rfl

/-- The `x` array as one function. -/
def GX : FVec Ideal S100000x128 .f32 := fun i => XK V c ⟨(i 0).val, (i 0).isLt⟩ ⟨(i 1).val, (i 1).isLt⟩

/-- At every point the block of `x` is the `x` payload of the point's input blocks. -/
theorem out8_all (t : Fin cfg0.N) : (outsAt0 V c t.val t.isLt).1 = k0_pay7 (F := Ideal) (iblk0 V c 0 t) (iblk0 V c 1 t) (iblk0 V c 2 t) (iblk0 V c 3 t) (iblk0 V c 5 t) (iblk0 V c 4 t) (iblk0 V c 6 t) (iblk0 V c 7 t) := by
  have hN : t.val < 50 := lt_of_lt_of_eq t.isLt (show cfg0.N = 50 from N_0)
  by_cases h0 : t.val % 25 = 0
  · have h1 : ¬t.val % 25 = 24 := by omega
    rw [outsAt0_A V c t h0 h1]; dsimp only; rw [out0_A_8_eq]
  · by_cases h1 : t.val % 25 = 24
    · rw [outsAt0_C V c t h0 h1]; dsimp only; rw [out0_C_8_eq]
    · rw [outsAt0_B V c t h0 h1]; dsimp only; rw [out0_B_8_eq]

theorem flushed8_eq (t : Fin cfg0.N) :
    (dat0 V c).flushed 8 t = ((cfg0.win 8).blk t).view.read (Elt Ideal) (GX V c) := by
  show (cfg0.win 8).cut (grid0.coords t) ((dat0 V c).after 8 t) = _
  rw [after0_8, out8_all]
  funext j
  obtain ⟨r, q, rfl⟩ : ∃ (r : Fin 2000) (q : Fin 128), j = ix2 r q := ⟨j 0, j 1, eq_ix2 j⟩
  show k0_pay7 (F := Ideal) (iblk0 V c 0 t) (iblk0 V c 1 t) (iblk0 V c 2 t) (iblk0 V c 3 t) (iblk0 V c 5 t) (iblk0 V c 4 t) (iblk0 V c 6 t) (iblk0 V c 7 t) (ix2 r q) = GX V c (((cfg0.win 8).blk t).view.emb (ix2 r q))
  rw [pay7_blk V c t r q]
  obtain ⟨e0_0, e0_1, e1_0, e1_1, e2_0, e2_1, e3_0, e3_1, e4_0, e4_1, e5_0, e5_1, e6_0, e6_1, e7_0, e7_1, e8_0, e8_1, e9_0, e9_1, e10_0, e10_1⟩ := idxA t
  unfold GX
  refine XK_congr V c ?_ ?_
  · show 2000 * t.val + r.val = win0_8.index t (0 : Fin 2) * 2000 + 1 * r.val
    omega
  · show q.val = win0_8.index t (1 : Fin 2) * 128 + 1 * q.val
    omega

theorem mem_blk8 (t : Fin cfg0.N) (i : S100000x128.Idx) :
    i ∈ ((cfg0.win 8).blk t).view.set ↔ ∀ a : Fin 2, win0_8.index t a * S2000x128.size a ≤ (i a).val ∧ (i a).val < win0_8.index t a * S2000x128.size a + S2000x128.size a := by
  show i ∈ ((View.whole main_v29_0).slice (win0_8.rect t)).set ↔ _
  rw [View.set_slice_whole, Rect.mem_set_unit]
  exact Iff.rfl

theorem cover8 (i : S100000x128.Idx) : ∃ t : Fin cfg0.N, (cfg0.win 8).flush t = true ∧ i ∈ ((cfg0.win 8).blk t).view.set := by
  have hi0 : (i 0).val < 100000 := (i 0).isLt
  have hi1 : (i 1).val < 128 := (i 1).isLt
  have ht : (i 0).val / 2000 < cfg0.N := by rw [show cfg0.N = 50 from N_0]; omega
  refine ⟨⟨(i 0).val / 2000, ht⟩, flush0_8 _, ?_⟩
  rw [mem_blk8]
  obtain ⟨e0_0, e0_1, e1_0, e1_1, e2_0, e2_1, e3_0, e3_1, e4_0, e4_1, e5_0, e5_1, e6_0, e6_1, e7_0, e7_1, e8_0, e8_1, e9_0, e9_1, e10_0, e10_1⟩ := idxA ⟨(i 0).val / 2000, ht⟩
  have hv : (⟨(i 0).val / 2000, ht⟩ : Fin cfg0.N).val = (i 0).val / 2000 := rfl
  intro a
  match a with
  | ⟨0, _⟩ => show win0_8.index ⟨(i 0).val / 2000, ht⟩ (0 : Fin 2) * 2000 ≤ (i 0).val ∧ (i 0).val < win0_8.index ⟨(i 0).val / 2000, ht⟩ (0 : Fin 2) * 2000 + 2000; omega
  | ⟨1, _⟩ => show win0_8.index ⟨(i 0).val / 2000, ht⟩ (1 : Fin 2) * 128 ≤ (i 1).val ∧ (i 1).val < win0_8.index ⟨(i 0).val / 2000, ht⟩ (1 : Fin 2) * 128 + 128; omega

/-- The `x` array after the first pallas_call. -/
theorem arr8 : (dat0 V c).arrAt 8 cfg0.N = GX V c :=
  (dat0 V c).arrAt_eq_of_cover 8 (GX V c) (fun t _ => flushed8_eq V c t) (cover8)

/-- Rows `8·c … 8·c + 7` of the sums array: the complete running sum of column `c` of the grid. -/
def GS : FVec Ideal S16x128 .f32 := fun i =>
  Cert.Spec.accS (XK V c) ⟨(i 0).val / 8, by have h : (i 0).val < 16 := (i 0).isLt; omega⟩ 25 ⟨(i 1).val, (i 1).isLt⟩

/-- At a last point of a column of the grid, the small output block is the scratch row repeated over 8 rows. -/
theorem out9_last (t : Fin cfg0.N) (h0 : ¬t.val % 25 = 0) (h1 : t.val % 25 = 24) :
    (outsAt0 V c t.val t.isLt).2.1 = k0_pay3 (F := Ideal) (outsAt0 V c t.val t.isLt).2.2.2.1 := by
  rw [outsAt0_C V c t h0 h1]; dsimp only; rw [out0_C_9_eq, sout0_C_0_eq]

theorem flushed9_eq (t : Fin cfg0.N) (hf : (cfg0.win 9).flush t = true) :
    (dat0 V c).flushed 9 t = ((cfg0.win 9).blk t).view.read (Elt Ideal) (GS V c) := by
  have hN : t.val < 50 := lt_of_lt_of_eq t.isLt (show cfg0.N = 50 from N_0)
  have h1 : t.val % 25 = 24 := (flush0_9 t).mp hf
  have h0 : ¬t.val % 25 = 0 := by omega
  show (cfg0.win 9).cut (grid0.coords t) ((dat0 V c).after 9 t) = _
  rw [after0_9, out9_last V c t h0 h1]
  funext j
  obtain ⟨a, q, rfl⟩ : ∃ (a : Fin 8) (q : Fin 128), j = ix2 a q := ⟨j 0, j 1, eq_ix2 j⟩
  show k0_pay3 (F := Ideal) (outsAt0 V c t.val t.isLt).2.2.2.1 (ix2 a q) = GS V c (((cfg0.win 9).blk t).view.emb (ix2 a q))
  rw [Cert.KernelIdeal.PayA.pay3_apply]
  have hcc : t.val / 25 < 2 := by omega
  have hn : 25 * (⟨t.val / 25, hcc⟩ : Fin 2).val + 24 < cfg0.N := lt_of_lt_of_eq (by omega : 25 * (t.val / 25) + 24 < 50) (show cfg0.N = 50 from N_0).symm
  have hacc := (acc_inv V c ⟨t.val / 25, hcc⟩ 24 (by omega) hn q).1
  rw [outsAt0_congr V c (show t.val = 25 * (⟨t.val / 25, hcc⟩ : Fin 2).val + 24 by show t.val = 25 * (t.val / 25) + 24; omega) t.isLt hn, hacc]
  obtain ⟨e0_0, e0_1, e1_0, e1_1, e2_0, e2_1, e3_0, e3_1, e4_0, e4_1, e5_0, e5_1, e6_0, e6_1, e7_0, e7_1, e8_0, e8_1, e9_0, e9_1, e10_0, e10_1⟩ := idxA t
  unfold GS
  refine (acc_congr V c ?_ ?_).1
  · show t.val / 25 = (win0_9.index t (0 : Fin 2) * 8 + 1 * a.val) / 8
    have ha : a.val < 8 := a.isLt
    omega
  · show q.val = win0_9.index t (1 : Fin 2) * 128 + 1 * q.val
    omega

theorem mem_blk9 (t : Fin cfg0.N) (i : S16x128.Idx) :
    i ∈ ((cfg0.win 9).blk t).view.set ↔ ∀ a : Fin 2, win0_9.index t a * S8x128.size a ≤ (i a).val ∧ (i a).val < win0_9.index t a * S8x128.size a + S8x128.size a := by
  show i ∈ ((View.whole main_v29_1).slice (win0_9.rect t)).set ↔ _
  rw [View.set_slice_whole, Rect.mem_set_unit]
  exact Iff.rfl

theorem cover9 (i : S16x128.Idx) : ∃ t : Fin cfg0.N, (cfg0.win 9).flush t = true ∧ i ∈ ((cfg0.win 9).blk t).view.set := by
  have hi0 : (i 0).val < 16 := (i 0).isLt
  have hi1 : (i 1).val < 128 := (i 1).isLt
  have ht : 25 * ((i 0).val / 8) + 24 < cfg0.N := by rw [show cfg0.N = 50 from N_0]; omega
  refine ⟨⟨25 * ((i 0).val / 8) + 24, ht⟩, (flush0_9 _).mpr (by show (25 * ((i 0).val / 8) + 24) % 25 = 24; omega), ?_⟩
  rw [mem_blk9]
  obtain ⟨e0_0, e0_1, e1_0, e1_1, e2_0, e2_1, e3_0, e3_1, e4_0, e4_1, e5_0, e5_1, e6_0, e6_1, e7_0, e7_1, e8_0, e8_1, e9_0, e9_1, e10_0, e10_1⟩ := idxA ⟨25 * ((i 0).val / 8) + 24, ht⟩
  have hv : (⟨25 * ((i 0).val / 8) + 24, ht⟩ : Fin cfg0.N).val = 25 * ((i 0).val / 8) + 24 := rfl
  intro a
  match a with
  | ⟨0, _⟩ => show win0_9.index ⟨25 * ((i 0).val / 8) + 24, ht⟩ (0 : Fin 2) * 8 ≤ (i 0).val ∧ (i 0).val < win0_9.index ⟨25 * ((i 0).val / 8) + 24, ht⟩ (0 : Fin 2) * 8 + 8; omega
  | ⟨1, _⟩ => show win0_9.index ⟨25 * ((i 0).val / 8) + 24, ht⟩ (1 : Fin 2) * 128 ≤ (i 1).val ∧ (i 1).val < win0_9.index ⟨25 * ((i 0).val / 8) + 24, ht⟩ (1 : Fin 2) * 128 + 128; omega

/-- The array after the first pallas_call. -/
theorem arr9 : (dat0 V c).arrAt 9 cfg0.N = GS V c :=
  (dat0 V c).arrAt_eq_of_cover 9 (GS V c) (fun t hf => flushed9_eq V c t hf) (cover9)

/-- Rows `8·c … 8·c + 7` of the sums of squares array: the complete running sum of squares of column `c` of the grid. -/
def GQ : FVec Ideal S16x128 .f32 := fun i =>
  Cert.Spec.accQ (XK V c) ⟨(i 0).val / 8, by have h : (i 0).val < 16 := (i 0).isLt; omega⟩ 25 ⟨(i 1).val, (i 1).isLt⟩

/-- At a last point of a column of the grid, the small output block is the scratch row repeated over 8 rows. -/
theorem out10_last (t : Fin cfg0.N) (h0 : ¬t.val % 25 = 0) (h1 : t.val % 25 = 24) :
    (outsAt0 V c t.val t.isLt).2.2.1 = k0_pay4 (F := Ideal) (outsAt0 V c t.val t.isLt).2.2.2.2 := by
  rw [outsAt0_C V c t h0 h1]; dsimp only; rw [out0_C_10_eq, sout0_C_1_eq]

theorem flushed10_eq (t : Fin cfg0.N) (hf : (cfg0.win 10).flush t = true) :
    (dat0 V c).flushed 10 t = ((cfg0.win 10).blk t).view.read (Elt Ideal) (GQ V c) := by
  have hN : t.val < 50 := lt_of_lt_of_eq t.isLt (show cfg0.N = 50 from N_0)
  have h1 : t.val % 25 = 24 := (flush0_10 t).mp hf
  have h0 : ¬t.val % 25 = 0 := by omega
  show (cfg0.win 10).cut (grid0.coords t) ((dat0 V c).after 10 t) = _
  rw [after0_10, out10_last V c t h0 h1]
  funext j
  obtain ⟨a, q, rfl⟩ : ∃ (a : Fin 8) (q : Fin 128), j = ix2 a q := ⟨j 0, j 1, eq_ix2 j⟩
  show k0_pay4 (F := Ideal) (outsAt0 V c t.val t.isLt).2.2.2.2 (ix2 a q) = GQ V c (((cfg0.win 10).blk t).view.emb (ix2 a q))
  rw [Cert.KernelIdeal.PayA.pay4_apply]
  have hcc : t.val / 25 < 2 := by omega
  have hn : 25 * (⟨t.val / 25, hcc⟩ : Fin 2).val + 24 < cfg0.N := lt_of_lt_of_eq (by omega : 25 * (t.val / 25) + 24 < 50) (show cfg0.N = 50 from N_0).symm
  have hacc := (acc_inv V c ⟨t.val / 25, hcc⟩ 24 (by omega) hn q).2
  rw [outsAt0_congr V c (show t.val = 25 * (⟨t.val / 25, hcc⟩ : Fin 2).val + 24 by show t.val = 25 * (t.val / 25) + 24; omega) t.isLt hn, hacc]
  obtain ⟨e0_0, e0_1, e1_0, e1_1, e2_0, e2_1, e3_0, e3_1, e4_0, e4_1, e5_0, e5_1, e6_0, e6_1, e7_0, e7_1, e8_0, e8_1, e9_0, e9_1, e10_0, e10_1⟩ := idxA t
  unfold GQ
  refine (acc_congr V c ?_ ?_).2
  · show t.val / 25 = (win0_10.index t (0 : Fin 2) * 8 + 1 * a.val) / 8
    have ha : a.val < 8 := a.isLt
    omega
  · show q.val = win0_10.index t (1 : Fin 2) * 128 + 1 * q.val
    omega

theorem mem_blk10 (t : Fin cfg0.N) (i : S16x128.Idx) :
    i ∈ ((cfg0.win 10).blk t).view.set ↔ ∀ a : Fin 2, win0_10.index t a * S8x128.size a ≤ (i a).val ∧ (i a).val < win0_10.index t a * S8x128.size a + S8x128.size a := by
  show i ∈ ((View.whole main_v29_2).slice (win0_10.rect t)).set ↔ _
  rw [View.set_slice_whole, Rect.mem_set_unit]
  exact Iff.rfl

theorem cover10 (i : S16x128.Idx) : ∃ t : Fin cfg0.N, (cfg0.win 10).flush t = true ∧ i ∈ ((cfg0.win 10).blk t).view.set := by
  have hi0 : (i 0).val < 16 := (i 0).isLt
  have hi1 : (i 1).val < 128 := (i 1).isLt
  have ht : 25 * ((i 0).val / 8) + 24 < cfg0.N := by rw [show cfg0.N = 50 from N_0]; omega
  refine ⟨⟨25 * ((i 0).val / 8) + 24, ht⟩, (flush0_10 _).mpr (by show (25 * ((i 0).val / 8) + 24) % 25 = 24; omega), ?_⟩
  rw [mem_blk10]
  obtain ⟨e0_0, e0_1, e1_0, e1_1, e2_0, e2_1, e3_0, e3_1, e4_0, e4_1, e5_0, e5_1, e6_0, e6_1, e7_0, e7_1, e8_0, e8_1, e9_0, e9_1, e10_0, e10_1⟩ := idxA ⟨25 * ((i 0).val / 8) + 24, ht⟩
  have hv : (⟨25 * ((i 0).val / 8) + 24, ht⟩ : Fin cfg0.N).val = 25 * ((i 0).val / 8) + 24 := rfl
  intro a
  match a with
  | ⟨0, _⟩ => show win0_10.index ⟨25 * ((i 0).val / 8) + 24, ht⟩ (0 : Fin 2) * 8 ≤ (i 0).val ∧ (i 0).val < win0_10.index ⟨25 * ((i 0).val / 8) + 24, ht⟩ (0 : Fin 2) * 8 + 8; omega
  | ⟨1, _⟩ => show win0_10.index ⟨25 * ((i 0).val / 8) + 24, ht⟩ (1 : Fin 2) * 128 ≤ (i 1).val ∧ (i 1).val < win0_10.index ⟨25 * ((i 0).val / 8) + 24, ht⟩ (1 : Fin 2) * 128 + 128; omega

/-- The array after the first pallas_call. -/
theorem arr10 : (dat0 V c).arrAt 10 cfg0.N = GQ V c :=
  (dat0 V c).arrAt_eq_of_cover 10 (GQ V c) (fun t hf => flushed10_eq V c t hf) (cover10)

end

end Cert.KernelIdeal.Frm

end
-- ==== Proof.HostMid.lean ====
/- The host operations between the two kernels, read at an index at the ideal instance:
   the column means and variances from the two [16,128] arrays of partial sums. -/
import proofs.«149881_j80161269613387_2_alg».proof.Proof.Gen.KernelIdeal.Regions
import Idealize.ShloMosaic.Lib.Pipeline.Value
import Idealize.ShloMosaic.Lib.ValueIdx
import Idealize.ShloMosaic.PureOps.Ideal.Laws
import Idealize.ShloMosaic.Lib.StableHlo.Run

noncomputable section

namespace Cert.KernelIdeal.HostMid

open Cert.KernelIdeal Cert.KernelIdeal.Gen Idealize.ShloMosaic Idealize.SL.Sem Idealize.ShloMosaic.ValueIdx
open Idealize.ShloMosaic.StableHlo Idealize.ShloMosaic.TcCoe

/-- Row 0 of a [16,128] array, as a [1,128] slice. -/
theorem slice0 {α : Type} (X : S16x128.Idx → α) (q : Fin 128) :
    extractStridedSlice S1x128 ![0, 0] X slices_S16x128_S1x128_0_0 (ix2 0 q) = X (ix2 0 q) :=
  extractStridedSlice_apply ![0, 0] X slices_S16x128_S1x128_0_0 (ix2 0 q) (ix2 0 q) (fun a => match a with
    | ⟨0, _⟩ => by show (0 : Nat) = 0 + 0; rfl
    | ⟨1, _⟩ => by show q.val = 0 + q.val; omega)

/-- Row 8 of a [16,128] array, as a [1,128] slice. -/
theorem slice8 {α : Type} (X : S16x128.Idx → α) (q : Fin 128) :
    extractStridedSlice S1x128 ![8, 0] X slices_S16x128_S1x128_8_0 (ix2 0 q) = X (ix2 8 q) :=
  extractStridedSlice_apply ![8, 0] X slices_S16x128_S1x128_8_0 (ix2 0 q) (ix2 8 q) (fun a => match a with
    | ⟨0, _⟩ => by show (8 : Nat) = 8 + 0; rfl
    | ⟨1, _⟩ => by show q.val = 0 + q.val; omega)

/-- A [1,128] row reshaped to [128] reads the same lane. -/
theorem cast_lane {α : Type} (v : S1x128.Idx → α) (q : Fin 128) :
    shapeCast S128 v shapeCasts_S1x128_S128 (ix1 q) = v (ix2 0 q) :=
  shapeCast_apply v shapeCasts_S1x128_S128 (ix1 q) (ix2 0 q) (by
    rw [Shape.rowMajor_val_one, Shape.rowMajor_val_two]
    show 0 * 128 + q.val = q.val
    omega)

/-- A [128] vector reshaped to [1,128] reads the same lane. -/
theorem cast_row {α : Type} (v : S128.Idx → α) (q : Fin 128) :
    shapeCast S1x128 v shapeCasts_S128_S1x128 (ix2 0 q) = v (ix1 q) :=
  shapeCast_apply v shapeCasts_S128_S1x128 (ix2 0 q) (ix1 q) (by
    rw [Shape.rowMajor_val_one, Shape.rowMajor_val_two]
    show q.val = 0 * 128 + q.val
    omega)

variable (V : Valuation τ sig (Elt Ideal))

/-- The [1,128] row the host computes from a [16,128] array of two partial sums: (row 0 + row 8) / 100000. -/
def avgRow (X : FVec Ideal S16x128 .f32) : FVec Ideal S1x128 .f32 :=
  shapeCast S1x128
    (Host.divf (F := Ideal)
      (addf (F := Ideal) (shapeCast S128 (extractStridedSlice S1x128 ![0, 0] X slices_S16x128_S1x128_0_0) shapeCasts_S1x128_S128)
        (shapeCast S128 (extractStridedSlice S1x128 ![8, 0] X slices_S16x128_S1x128_8_0) shapeCasts_S1x128_S128))
      (broadcastInDim S128 ![] bcast_S_S128 (constant (F := Ideal) S_ .f32 0x47C35000#32)))
    shapeCasts_S128_S1x128

/-- Read at lane q. -/
theorem avgRow_apply (X : FVec Ideal S16x128 .f32) (q : Fin 128) :
    avgRow X (ix2 0 q) = Ideal.div (X (ix2 0 q) + X (ix2 8 q)) (Ideal.ofBits .f32 0x47C35000#32) := by
  unfold avgRow
  rw [cast_row]
  show Ideal.div (shapeCast S128 (extractStridedSlice S1x128 ![0, 0] X slices_S16x128_S1x128_0_0) shapeCasts_S1x128_S128 (ix1 q)
        + shapeCast S128 (extractStridedSlice S1x128 ![8, 0] X slices_S16x128_S1x128_8_0) shapeCasts_S1x128_S128 (ix1 q)) _ = _
  rw [cast_lane, cast_lane, slice0, slice8]
  rfl

/-- The mean row the host leaves in main_v42. -/
theorem v42_eq : (StableHlo.after (hostOps1 (F := Ideal)) V (Proc.devRef .tc main_v42) : FVec Ideal S1x128 .f32)
    = avgRow (V (Proc.devRef .tc main_v29_1)) := by
  dsimp only [hostOps1]
  after_results
  rfl

/-- The row of mean squares the host leaves in main_v45. -/
theorem v45_eq : (StableHlo.after (hostOps1 (F := Ideal)) V (Proc.devRef .tc main_v45) : FVec Ideal S1x128 .f32)
    = avgRow (V (Proc.devRef .tc main_v29_2)) := by
  dsimp only [hostOps1]
  after_results
  rfl

/-- The variance row the host leaves in main_v47: mean of squares minus squared mean. -/
theorem v47_eq : (StableHlo.after (hostOps1 (F := Ideal)) V (Proc.devRef .tc main_v47) : FVec Ideal S1x128 .f32)
    = subf (F := Ideal) (avgRow (V (Proc.devRef .tc main_v29_2))) (mulf (F := Ideal) (avgRow (V (Proc.devRef .tc main_v29_1))) (avgRow (V (Proc.devRef .tc main_v29_1)))) := by
  dsimp only [hostOps1]
  after_results_simp
  rfl

/-- The array of partial sums the first kernel leaves, as a [16,128] array. -/
abbrev sums : FVec Ideal S16x128 .f32 := V (Proc.devRef .tc main_v29_1)
/-- The array of partial sums of squares the first kernel leaves, as a [16,128] array. -/
abbrev sqsums : FVec Ideal S16x128 .f32 := V (Proc.devRef .tc main_v29_2)
/-- The row of means after the stretch, as a [1,128] array. -/
abbrev meanRow : FVec Ideal S1x128 .f32 := StableHlo.after (hostOps1 (F := Ideal)) V (Proc.devRef .tc main_v42)
/-- The row of variances after the stretch, as a [1,128] array. -/
abbrev varRow : FVec Ideal S1x128 .f32 := StableHlo.after (hostOps1 (F := Ideal)) V (Proc.devRef .tc main_v47)

/-- THE MEAN at lane q: (S[0,q] + S[8,q]) / 100000, S the array of partial sums the first kernel leaves. -/
theorem mid_mean (q : Fin 128) :
    meanRow V (ix2 0 q) = Ideal.div (sums V (ix2 0 q) + sums V (ix2 8 q)) (Ideal.ofBits .f32 0x47C35000#32) :=
  (congrFun (v42_eq V) (ix2 0 q)).trans (avgRow_apply _ q)

/-- THE VARIANCE at lane q: (Q[0,q] + Q[8,q]) / 100000 minus the squared mean, Q the array of partial sums of squares. -/
theorem mid_var (q : Fin 128) :
    varRow V (ix2 0 q)
      = Ideal.div (sqsums V (ix2 0 q) + sqsums V (ix2 8 q)) (Ideal.ofBits .f32 0x47C35000#32)
        - Ideal.div (sums V (ix2 0 q) + sums V (ix2 8 q)) (Ideal.ofBits .f32 0x47C35000#32)
          * Ideal.div (sums V (ix2 0 q) + sums V (ix2 8 q)) (Ideal.ofBits .f32 0x47C35000#32) := by
  refine (congrFun (v47_eq V) (ix2 0 q)).trans ?_
  show avgRow (V (Proc.devRef .tc main_v29_2)) (ix2 0 q)
      - avgRow (V (Proc.devRef .tc main_v29_1)) (ix2 0 q) * avgRow (V (Proc.devRef .tc main_v29_1)) (ix2 0 q) = _
  rw [avgRow_apply, avgRow_apply]

/-- The variance is the mean of squares minus the squared mean row the host leaves. -/
theorem mid_var' (q : Fin 128) :
    varRow V (ix2 0 q)
      = Ideal.div (sqsums V (ix2 0 q) + sqsums V (ix2 8 q)) (Ideal.ofBits .f32 0x47C35000#32)
        - meanRow V (ix2 0 q) * meanRow V (ix2 0 q) := by
  rw [mid_var, mid_mean]

/-- A reference the stretch does not write keeps its contents. -/
theorem mid_keep (r : Ref sig .tc) (h : r ∉ hostOps1_W) :
    StableHlo.after (hostOps1 (F := Ideal)) V (Proc.devRef .tc r) = V (Proc.devRef .tc r) :=
  StableHlo.after_of_writes_sub hostOps1 V hostOps1_writes h

/-- The first kernel's output array is kept. -/
theorem mid_keep_v29_0 : StableHlo.after (hostOps1 (F := Ideal)) V (Proc.devRef .tc main_v29_0) = V (Proc.devRef .tc main_v29_0) :=
  mid_keep V main_v29_0 (by decide)
/-- The scale row is kept. -/
theorem mid_keep_v27 : StableHlo.after (hostOps1 (F := Ideal)) V (Proc.devRef .tc main_v27) = V (Proc.devRef .tc main_v27) :=
  mid_keep V main_v27 (by decide)
/-- The shift row is kept. -/
theorem mid_keep_v28 : StableHlo.after (hostOps1 (F := Ideal)) V (Proc.devRef .tc main_v28) = V (Proc.devRef .tc main_v28) :=
  mid_keep V main_v28 (by decide)

end Cert.KernelIdeal.HostMid

end
-- ==== Proof.KI.Mid.lean ====
/-
  The contents of the five arrays the second pallas_call reads, when it is entered. The `x` array is what the first
  pallas_call left (the stretch between the two calls does not write it). The stretch adds row 0 and row 8 of each small
  array — the two columns' complete sums — divides by 100000 and subtracts the squared mean: the mean row is the
  specification's one-pass mean of `x`, the variance row its one-pass variance. The scale and shift rows are as the
  first stretches of host operations left them.
-/
import proofs.«149881_j80161269613387_2_alg».proof.Proof.Gen.KernelIdeal.Launch
import proofs.«149881_j80161269613387_2_alg».proof.Proof.Gen.KernelIdeal.Skeleton
import proofs.«149881_j80161269613387_2_alg».proof.Proof.Gen.KernelIdeal.Points
import proofs.«149881_j80161269613387_2_alg».proof.Proof.KI.FlushA
import proofs.«149881_j80161269613387_2_alg».proof.Proof.KI.Run
import proofs.«149881_j80161269613387_2_alg».proof.Proof.HostMid
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.KernelIdeal.HostMid

section

variable (m : (ℓ : Loc nD τ sig) → Buf (Elt Ideal) ℓ) (c : Dev nD)

theorem GS_row0 (V : (c : Dev nD) → (b : Ref sig .tc) → Buf (Elt Ideal) ((c : Thread nD τ).loc b)) (q : Fin 128) :
    GS V c (ix2 0 q) = Cert.Spec.accS (XK V c) 0 25 q := by
  unfold GS; refine (acc_congr V c ?_ ?_).1 <;> first | rfl | decide | simp [ix2]
theorem GS_row8 (V : (c : Dev nD) → (b : Ref sig .tc) → Buf (Elt Ideal) ((c : Thread nD τ).loc b)) (q : Fin 128) :
    GS V c (ix2 8 q) = Cert.Spec.accS (XK V c) 1 25 q := by
  unfold GS; refine (acc_congr V c ?_ ?_).1 <;> first | rfl | decide | simp [ix2]
theorem GQ_row0 (V : (c : Dev nD) → (b : Ref sig .tc) → Buf (Elt Ideal) ((c : Thread nD τ).loc b)) (q : Fin 128) :
    GQ V c (ix2 0 q) = Cert.Spec.accQ (XK V c) 0 25 q := by
  unfold GQ; refine (acc_congr V c ?_ ?_).2 <;> first | rfl | decide | simp [ix2]
theorem GQ_row8 (V : (c : Dev nD) → (b : Ref sig .tc) → Buf (Elt Ideal) ((c : Thread nD τ).loc b)) (q : Fin 128) :
    GQ V c (ix2 8 q) = Cert.Spec.accQ (XK V c) 1 25 q := by
  unfold GQ; refine (acc_congr V c ?_ ?_).2 <;> first | rfl | decide | simp [ix2]

/-- The two small arrays after the first pallas_call. -/
theorem sums_eq : sums (W6 m c) = GS (V5 m) c := (W6_arr m c 9).trans (arr9 (V5 m) c)
theorem sqsums_eq : sqsums (W6 m c) = GQ (V5 m) c := (W6_arr m c 10).trans (arr10 (V5 m) c)

/-- The `x` array entering the second pallas_call. -/
theorem x_at (p : Fin 100000) (q : Fin 128) :
    (V7 m c main_v29_0 : FVec Ideal S100000x128 .f32) (ix2 p q) = XK (V5 m) c p q := by
  have h : (V7 m c main_v29_0 : FVec Ideal S100000x128 .f32) = GX (V5 m) c :=
    (mid_keep_v29_0 (W6 m c)).trans ((W6_arr m c 8).trans (arr8 (V5 m) c))
  rw [h]; exact XK_congr (V5 m) c rfl rfl

/-- The mean row. -/
theorem mean_at (q : Fin 128) :
    (V7 m c main_v42 : FVec Ideal S1x128 .f32) (ix2 0 q) = Cert.Spec.meanK (XK (V5 m) c) q := by
  show meanRow (W6 m c) (ix2 0 q) = _
  rw [mid_mean, sums_eq, GS_row0, GS_row8]; rfl

/-- The variance row. -/
theorem var_at (q : Fin 128) :
    (V7 m c main_v47 : FVec Ideal S1x128 .f32) (ix2 0 q) = Cert.Spec.varK (XK (V5 m) c) q := by
  show varRow (W6 m c) (ix2 0 q) = _
  rw [mid_var, sums_eq, sqsums_eq, GS_row0, GS_row8, GQ_row0, GQ_row8]; rfl

/-- The scale and shift rows pass through the first pallas_call and the stretch after it. -/
theorem gamma_at : (V7 m c main_v27 : FVec Ideal S1x128 .f32) = V5 m c main_v27 :=
  (mid_keep_v27 (W6 m c)).trans (W6_of_ne m c main_v27 (by decide))
theorem beta_at : (V7 m c main_v28 : FVec Ideal S1x128 .f32) = V5 m c main_v28 :=
  (mid_keep_v28 (W6 m c)).trans (W6_of_ne m c main_v28 (by decide))

end

end Cert.KernelIdeal.Frm

end
-- ==== Proof.PayB.lean ====
/- The value kernel B stores at one index, at the ideal instance. -/
import proofs.«149881_j80161269613387_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.PayB

open Cert.KernelIdeal Cert.KernelIdeal.Gen Idealize.ShloMosaic Idealize.SL.Sem Idealize.ShloMosaic.ValueIdx
open scoped BigOperators

/-- A [1,128] row broadcast along 10000 rows reads its column's entry. -/
theorem bcast_row {α : Type} (v : S1x128.Idx → α) (r : Fin 10000) (q : Fin 128) :
    broadcastTo S10000x128 v broadcasts_S1x128_S10000x128 (ix2 r q) = v (ix2 0 q) :=
  broadcastTo_apply v broadcasts_S1x128_S10000x128 (ix2 r q) (ix2 0 q) (fun a => match a with
    | ⟨0, _⟩ => by show 0 = if (1 : Nat) = 1 then 0 else r.val; rw [if_pos rfl]
    | ⟨1, _⟩ => by show q.val = if (128 : Nat) = 1 then 0 else q.val; rw [if_neg (by decide)])

/-- A reciprocal square root at an index is the elements'. -/
theorem rsqrt_apply {s : Shape} {φ : FTy} (a : FVec Ideal s φ) (i : s.Idx) : rsqrt a i = Ideal.rsqrt (a i) := rfl

/-- The normalised, scaled and shifted entry at row r, column q. -/
theorem k1_apply (v0 : Vec Ideal S10000x128 .f32) (v2 v4 v6 v8 : Vec Ideal S1x128 .f32) (r : Fin 10000) (q : Fin 128) :
    Gen.k1_pay1 (F := Ideal) v0 v2 v4 v6 v8 (ix2 r q)
      = v6 (ix2 0 q) * (v0 (ix2 r q) - v2 (ix2 0 q)) * Ideal.rsqrt (v4 (ix2 0 q) + Ideal.ofBits .f32 0x3727C5AC#32) + v8 (ix2 0 q) := by
  unfold Gen.k1_pay1
  simp only [shapeCast_self, mulf_apply, addf_apply, subf_apply, bcast_row, rsqrt_apply, broadcast_apply]
  rfl

end Cert.KernelIdeal.PayB

end
-- ==== Proof.KI.ValB.lean ====
/-
  The normalisation's result as one array. Its ten grid points write back ten blocks of 10000 rows that tile the
  100000 rows; each block is the same pointwise expression of the block of activations and of the four rows (means,
  variances, scale, shift) read whole at every point. So the result array is that expression of the five arrays the
  region finds, at every row and column.
-/
import proofs.«149881_j80161269613387_2_alg».proof.Proof.KI.RegB
import proofs.«149881_j80161269613387_2_alg».proof.Proof.PayB
import Idealize.ShloMosaic.Lib.Pipeline.Value
import Idealize.ShloMosaic.Lib.ValueIdx

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

section ResultB

variable (V : (c : Dev nD) → (b : Ref sig .tc) → Buf (Elt Ideal) ((c : Thread nD τ).loc b))

theorem hzB : (![0, 0] : Fin 2 → Nat) = fun _ => 0 := funext fun a => by fin_cases a <;> rfl

/-- The activations, the column means, the column variances, the scale and the shift, as the region finds them. -/
abbrev xB (c : Dev nD) : FVec Ideal S100000x128 .f32 := V c main_v29_0
abbrev meanB (c : Dev nD) : FVec Ideal S1x128 .f32 := V c main_v42
abbrev varB (c : Dev nD) : FVec Ideal S1x128 .f32 := V c main_v47
abbrev gammaB (c : Dev nD) : FVec Ideal S1x128 .f32 := V c main_v27
abbrev betaB (c : Dev nD) : FVec Ideal S1x128 .f32 := V c main_v28

/-- The normalised, scaled and shifted array as one function of the five arrays. -/
def GB (c : Dev nD) : S100000x128.Idx → EReal := fun i =>
  gammaB V c (ix2 0 (i 1)) * (xB V c i - meanB V c (ix2 0 (i 1)))
    * Ideal.rsqrt (varB V c (ix2 0 (i 1)) + Ideal.ofBits .f32 0x3727C5AC#32) + betaB V c (ix2 0 (i 1))

/-- The block indices over the ten points: the two big windows are at block (t, 0), the four rows at block (0, 0). -/
theorem idx_factsB : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The block of activations at point t, read where the output's block sits. -/
theorem blkread0 (c : Dev nD) (t : Fin cfg1.N) (r : Fin 10000) (q : Fin 128) :
    (iblk1 V c 0 t : Vec Ideal S10000x128 .f32) (ix2 r q) = xB V c (((cfg1.win 5).blk t).view.emb (ix2 r q)) := by
  obtain ⟨e0, e1, e2, e3, -⟩ := idx_factsB t
  unfold iblk1
  rw [View.read_apply]
  show V c main_v29_0 _ = V c main_v29_0 _
  refine congrArg _ (funext fun a => Fin.ext ?_)
  match a with
  | ⟨0, _⟩ => show win1_0.index t (0 : Fin 2) * 10000 + 1 * r.val = win1_5.index t (0 : Fin 2) * 10000 + 1 * r.val; rw [e0, e2]
  | ⟨1, _⟩ => show win1_0.index t (1 : Fin 2) * 128 + 1 * q.val = win1_5.index t (1 : Fin 2) * 128 + 1 * q.val; rw [e1, e3]

/-- The row of means, whole at every point. -/
theorem blkread1 (c : Dev nD) (t : Fin cfg1.N) (q : Fin 128) :
    (iblk1 V c 1 t : Vec Ideal S1x128 .f32) (ix2 0 q) = meanB V c (ix2 0 q) := by
  obtain ⟨-, -, -, -, e4, e5, -⟩ := idx_factsB t
  unfold iblk1
  rw [View.read_apply]
  show V c main_v42 _ = V c main_v42 _
  refine congrArg _ (funext fun a => Fin.ext ?_)
  match a with
  | ⟨0, _⟩ => show win1_1.index t (0 : Fin 2) * 1 + 1 * 0 = 0; rw [e4]
  | ⟨1, _⟩ => show win1_1.index t (1 : Fin 2) * 128 + 1 * q.val = q.val; rw [e5]; omega

/-- The row of variances, whole at every point. -/
theorem blkread2 (c : Dev nD) (t : Fin cfg1.N) (q : Fin 128) :
    (iblk1 V c 2 t : Vec Ideal S1x128 .f32) (ix2 0 q) = varB V c (ix2 0 q) := by
  obtain ⟨-, -, -, -, -, -, e6, e7, -⟩ := idx_factsB t
  unfold iblk1
  rw [View.read_apply]
  show V c main_v47 _ = V c main_v47 _
  refine congrArg _ (funext fun a => Fin.ext ?_)
  match a with
  | ⟨0, _⟩ => show win1_2.index t (0 : Fin 2) * 1 + 1 * 0 = 0; rw [e6]
  | ⟨1, _⟩ => show win1_2.index t (1 : Fin 2) * 128 + 1 * q.val = q.val; rw [e7]; omega

/-- The row of scales, whole at every point. -/
theorem blkread3 (c : Dev nD) (t : Fin cfg1.N) (q : Fin 128) :
    (iblk1 V c 3 t : Vec Ideal S1x128 .f32) (ix2 0 q) = gammaB V c (ix2 0 q) := by
  obtain ⟨-, -, -, -, -, -, -, -, e8, e9, -⟩ := idx_factsB t
  unfold iblk1
  rw [View.read_apply]
  show V c main_v27 _ = V c main_v27 _
  refine congrArg _ (funext fun a => Fin.ext ?_)
  match a with
  | ⟨0, _⟩ => show win1_3.index t (0 : Fin 2) * 1 + 1 * 0 = 0; rw [e8]
  | ⟨1, _⟩ => show win1_3.index t (1 : Fin 2) * 128 + 1 * q.val = q.val; rw [e9]; omega

/-- The row of shifts, whole at every point. -/
theorem blkread4 (c : Dev nD) (t : Fin cfg1.N) (q : Fin 128) :
    (iblk1 V c 4 t : Vec Ideal S1x128 .f32) (ix2 0 q) = betaB V c (ix2 0 q) := by
  obtain ⟨-, -, -, -, -, -, -, -, -, -, e10, e11⟩ := idx_factsB t
  unfold iblk1
  rw [View.read_apply]
  show V c main_v28 _ = V c main_v28 _
  refine congrArg _ (funext fun a => Fin.ext ?_)
  match a with
  | ⟨0, _⟩ => show win1_4.index t (0 : Fin 2) * 1 + 1 * 0 = 0; rw [e10]
  | ⟨1, _⟩ => show win1_4.index t (1 : Fin 2) * 128 + 1 * q.val = q.val; rw [e11]; omega

/-- What point t writes back is block t of the one function. -/
theorem flushedB_eq (c : Dev nD) (t : Fin cfg1.N) :
    (dat1 (F := Ideal) V c).flushed 5 t = ((cfg1.win 5).blk t).view.read (Elt Ideal) (GB V c) := by
  show (cfg1.win 5).cut (grid1.coords t) ((dat1 V c).after 5 t) = _
  rw [after1_5]
  unfold out1_5
  rw [View.canon_unit_zero hzB]
  simp only [View.ld_unit_zero (S := S10000x128) hzB, View.ld_unit_zero (S := S1x128) hzB]
  funext j
  obtain ⟨r, q, rfl⟩ : ∃ (r : Fin 10000) (q : Fin 128), j = ix2 r q := ⟨j 0, j 1, eq_ix2 j⟩
  show Gen.k1_pay1 (F := Ideal) (iblk1 V c 0 t) (iblk1 V c 1 t) (iblk1 V c 2 t) (iblk1 V c 3 t) (iblk1 V c 4 t) (ix2 r q)
    = GB V c (((cfg1.win 5).blk t).view.emb (ix2 r q))
  refine (PayB.k1_apply _ _ _ _ _ r q).trans ?_
  rw [blkread0 V c t r q, blkread1 V c t q, blkread2 V c t q, blkread3 V c t q, blkread4 V c t q]
  have hq : (((cfg1.win 5).blk t).view.emb (ix2 r q)) 1 = q := by
    obtain ⟨-, -, -, e3, -⟩ := idx_factsB t
    exact Fin.ext (by show win1_5.index t (1 : Fin 2) * 128 + 1 * q.val = q.val; rw [e3]; omega)
  unfold GB
  rw [hq]

/-- An index of the result is in point t's block iff each coordinate is in the block's range. -/
theorem mem_blkB (t : Fin cfg1.N) (i : S100000x128.Idx) :
    i ∈ ((cfg1.win 5).blk t).view.set ↔ ∀ a : Fin 2, win1_5.index t a * S10000x128.size a ≤ (i a).val
      ∧ (i a).val < win1_5.index t a * S10000x128.size a + S10000x128.size a := by
  show i ∈ ((View.whole main_v48).slice (win1_5.rect t)).set ↔ _
  rw [View.set_slice_whole, Rect.mem_set_unit]
  exact Iff.rfl

/-- Row p lies in the block of point p / 10000. -/
theorem coverB (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ : ∃ t : Fin cfg1.N, t.val = (i 0).val / 10000 :=
    ⟨⟨(i 0).val / 10000, by show _ < grid1.N; rw [N_1]; omega⟩, rfl⟩
  refine ⟨t, flush1_5 t, ?_⟩
  rw [mem_blkB]
  obtain ⟨-, -, e2, e3, -⟩ := idx_factsB t
  intro a
  match a with
  | ⟨0, _⟩ =>
    show win1_5.index t (0 : Fin 2) * 10000 ≤ (i 0).val ∧ (i 0).val < win1_5.index t (0 : Fin 2) * 10000 + 10000
    rw [e2, ht]; omega
  | ⟨1, _⟩ =>
    show win1_5.index t (1 : Fin 2) * 128 ≤ (i 1).val ∧ (i 1).val < win1_5.index t (1 : Fin 2) * 128 + 128
    rw [e3]; omega

/-- The whole result array after the ten points. -/
theorem finalB (c : Dev nD) : (dat1 (F := Ideal) V c).arrAt 5 cfg1.N = GB V c :=
  (dat1 (F := Ideal) V c).arrAt_eq_of_cover 5 (GB V c) (fun t _ => flushedB_eq V c t) coverB

/-- The result at row p, column q. -/
theorem resultB (c : Dev nD) (p : Fin 100000) (q : Fin 128) :
    (dat1 (F := Ideal) V c).arrAt 5 cfg1.N (ix2 p q)
      = gammaB V c (ix2 0 q) * (xB V c (ix2 p q) - meanB V c (ix2 0 q))
        * Ideal.rsqrt (varB V c (ix2 0 q) + Ideal.ofBits .f32 0x3727C5AC#32) + betaB V c (ix2 0 q) :=
  congrFun (finalB V c) (ix2 p q)

end ResultB

end Cert.KernelIdeal.Frm

end
-- ==== Proof.Glue.lean ====
/- The host operations before the first kernel are the reference's own: the buffers they leave
   equal the reference's values of the same lines, as functions of the argument arrays. -/
import proofs.«149881_j80161269613387_2_alg».proof.Proof.Gen.KernelIdeal.Regions
import proofs.«149881_j80161269613387_2_alg».proof.Proof.Gen.ReferenceIdeal.Read
import Idealize.ShloMosaic.Lib.Pipeline.Value
import Idealize.ShloMosaic.Lib.ValueIdx
import Idealize.ShloMosaic.PureOps.Ideal.Laws
import Idealize.ShloMosaic.Lib.StableHlo.Run

noncomputable section

namespace Cert.KernelIdeal.Glue

open Cert.KernelIdeal Cert.KernelIdeal.Gen Idealize.ShloMosaic Idealize.SL.Sem Idealize.ShloMosaic.ValueIdx
open Idealize.ShloMosaic.StableHlo Idealize.ShloMosaic.TcCoe

variable (m : (ℓ : Loc nD τ sig) → Buf (Elt Ideal) ℓ) (c : Dev nD)

/-- The argument arrays at launch, on core c. -/
abbrev arg0 : (⟨S100000x128, .f32⟩ : BufTy).Contents (Elt Ideal) := m ((c : Thread nD τ).loc main_arg0)
abbrev arg2 : (⟨S128, .f32⟩ : BufTy).Contents (Elt Ideal) := m ((c : Thread nD τ).loc main_arg2)
abbrev arg4 : (⟨S128, .f32⟩ : BufTy).Contents (Elt Ideal) := m ((c : Thread nD τ).loc main_arg4)
abbrev arg5 : (⟨S128, .f32⟩ : BufTy).Contents (Elt Ideal) := m ((c : Thread nD τ).loc main_arg5)
abbrev arg6 : (⟨S128, .f32⟩ : BufTy).Contents (Elt Ideal) := m ((c : Thread nD τ).loc main_arg6)
abbrev arg8 : (⟨S1600000, .i32⟩ : BufTy).Contents (Elt Ideal) := m ((c : Thread nD τ).loc main_arg8)
abbrev arg9 : (⟨S1600000, .i32⟩ : BufTy).Contents (Elt Ideal) := m ((c : Thread nD τ).loc main_arg9)

/-! ## Stage 1 -/

theorem V1_v0 : V1 m c (Proc.devRef .tc main_v0) = Cert.ReferenceIdeal.Read.val_main_v0 (F := Ideal) := by
  dsimp only [V1, hostOps0]
  after_results
  rfl

theorem V1_v3 : V1 m c (Proc.devRef .tc main_v3) = Cert.ReferenceIdeal.Read.val_main_v3 (F := Ideal) (arg8 m c) := by
  dsimp only [V1, hostOps0]
  after_results
  rfl

theorem V1_cst_1 : V1 m c (Proc.devRef .tc main_cst_1) = Cert.ReferenceIdeal.Read.val_main_cst_1 (F := Ideal) := by
  dsimp only [V1, hostOps0]
  after_results
  rfl

/-- An argument array is as launched after the first stretch. -/
theorem V1_arg (r : Ref sig .tc) (h : r ∉ hostOps0_W) : V1 m c (Proc.devRef .tc r) = m ((c : Thread nD τ).loc r) :=
  (V1_of m c r h).trans rfl

/-! ## Stage 2 -/

theorem V2_v4 : V2 m c (Proc.devRef .tc main_v4) = Cert.ReferenceIdeal.Read.val_main_v4 (F := Ideal) (arg8 m c) := by
  have h1 := V1_cst_1 m c
  have h3 := V1_v3 m c
  dsimp only [V2, hostOps0_1]
  generalize V1 m c = W at h1 h3 ⊢
  after_results_simp
  show maximumf (F := Ideal) (broadcastInDim S100000 ![] bcast_S_S100000 (id (W (Proc.devRef .tc main_cst_1)))) (W (Proc.devRef .tc main_v3)) = _
  rw [h1, h3]
  rfl

theorem V2_v0 : V2 m c (Proc.devRef .tc main_v0) = Cert.ReferenceIdeal.Read.val_main_v0 (F := Ideal) :=
  (V2_of m c main_v0 (by decide)).trans (V1_v0 m c)

theorem V2_arg (r : Ref sig .tc) (h1 : r ∉ hostOps0_W) (h2 : r ∉ hostOps0_1_W) :
    V2 m c (Proc.devRef .tc r) = m ((c : Thread nD τ).loc r) :=
  (V2_of m c r h2).trans (V1_arg m c r h1)

/-! ## Stage 3 -/

theorem V3_v7 : V3 m c (Proc.devRef .tc main_v7) = Cert.ReferenceIdeal.Read.val_main_v7 (F := Ideal) (arg9 m c) := by
  have h0 := V2_v0 m c
  have h9 : V2 m c (Proc.devRef .tc main_arg9) = arg9 m c := V2_arg m c main_arg9 (by decide) (by decide)
  dsimp only [V3, hostOps0_2]
  generalize V2 m c = W at h0 h9 ⊢
  after_results_simp
  rw [h0, h9]
  rfl

theorem V3_cst_3 : V3 m c (Proc.devRef .tc main_cst_3) = Cert.ReferenceIdeal.Read.val_main_cst_3 (F := Ideal) := by
  dsimp only [V3, hostOps0_2]
  generalize V2 m c = W
  after_results_simp
  rfl

theorem V3_v4 : V3 m c (Proc.devRef .tc main_v4) = Cert.ReferenceIdeal.Read.val_main_v4 (F := Ideal) (arg8 m c) :=
  (V3_of m c main_v4 (by decide)).trans (V2_v4 m c)

theorem V3_arg (r : Ref sig .tc) (h1 : r ∉ hostOps0_W) (h2 : r ∉ hostOps0_1_W) (h3 : r ∉ hostOps0_2_W) :
    V3 m c (Proc.devRef .tc r) = m ((c : Thread nD τ).loc r) :=
  (V3_of m c r h3).trans (V2_arg m c r h1 h2)

/-! ## Stage 4 -/

theorem V4_v8 : V4 m c (Proc.devRef .tc main_v8) = Cert.ReferenceIdeal.Read.val_main_v8 (F := Ideal) (arg9 m c) := by
  have h3 := V3_cst_3 m c
  have h7 := V3_v7 m c
  dsimp only [V4, hostOps0_3]
  generalize V3 m c = W at h3 h7 ⊢
  after_results_simp
  show maximumf (F := Ideal) (broadcastInDim S100000 ![] bcast_S_S100000 (id (W (Proc.devRef .tc main_cst_3)))) (W (Proc.devRef .tc main_v7)) = _
  rw [h3, h7]
  rfl

theorem V4_v4 : V4 m c (Proc.devRef .tc main_v4) = Cert.ReferenceIdeal.Read.val_main_v4 (F := Ideal) (arg8 m c) :=
  (V4_of m c main_v4 (by decide)).trans (V3_v4 m c)

theorem V4_arg (r : Ref sig .tc) (h1 : r ∉ hostOps0_W) (h2 : r ∉ hostOps0_1_W) (h3 : r ∉ hostOps0_2_W) (h4 : r ∉ hostOps0_3_W) :
    V4 m c (Proc.devRef .tc r) = m ((c : Thread nD τ).loc r) :=
  (V4_of m c r h4).trans (V3_arg m c r h1 h2 h3)

/-! ## The two clipped degree arrays and the arguments, entering the last stretch -/

/-- The clipped out-degrees (as the reference computes them from the source indices). -/
theorem deg4 : (V4 m c (Proc.devRef .tc main_v4) : FVec Ideal S100000 .f32)
    = Cert.ReferenceIdeal.Read.val_main_v4 (F := Ideal) (m ((c.tc : Thread nD τ).loc main_arg8)) :=
  V4_v4 m c

/-- The clipped in-degrees (as the reference computes them from the destination indices). -/
theorem deg8 : (V4 m c (Proc.devRef .tc main_v8) : FVec Ideal S100000 .f32)
    = Cert.ReferenceIdeal.Read.val_main_v8 (F := Ideal) (m ((c.tc : Thread nD τ).loc main_arg9)) :=
  V4_v8 m c

/-- Argument 0 is as launched when the last stretch before the first kernel is entered. -/
theorem args4_0 : V4 m c (Proc.devRef .tc main_arg0) = m ((c.tc : Thread nD τ).loc main_arg0) :=
  V4_arg m c main_arg0 (by decide) (by decide) (by decide) (by decide)
/-- Argument 1 is as launched when the last stretch before the first kernel is entered. -/
theorem args4_1 : V4 m c (Proc.devRef .tc main_arg1) = m ((c.tc : Thread nD τ).loc main_arg1) :=
  V4_arg m c main_arg1 (by decide) (by decide) (by decide) (by decide)
/-- Argument 2 is as launched when the last stretch before the first kernel is entered. -/
theorem args4_2 : V4 m c (Proc.devRef .tc main_arg2) = m ((c.tc : Thread nD τ).loc main_arg2) :=
  V4_arg m c main_arg2 (by decide) (by decide) (by decide) (by decide)
/-- Argument 3 is as launched when the last stretch before the first kernel is entered. -/
theorem args4_3 : V4 m c (Proc.devRef .tc main_arg3) = m ((c.tc : Thread nD τ).loc main_arg3) :=
  V4_arg m c main_arg3 (by decide) (by decide) (by decide) (by decide)
/-- Argument 4 is as launched when the last stretch before the first kernel is entered. -/
theorem args4_4 : V4 m c (Proc.devRef .tc main_arg4) = m ((c.tc : Thread nD τ).loc main_arg4) :=
  V4_arg m c main_arg4 (by decide) (by decide) (by decide) (by decide)
/-- Argument 5 is as launched when the last stretch before the first kernel is entered. -/
theorem args4_5 : V4 m c (Proc.devRef .tc main_arg5) = m ((c.tc : Thread nD τ).loc main_arg5) :=
  V4_arg m c main_arg5 (by decide) (by decide) (by decide) (by decide)
/-- Argument 6 is as launched when the last stretch before the first kernel is entered. -/
theorem args4_6 : V4 m c (Proc.devRef .tc main_arg6) = m ((c.tc : Thread nD τ).loc main_arg6) :=
  V4_arg m c main_arg6 (by decide) (by decide) (by decide) (by decide)
/-- Argument 7 is as launched when the last stretch before the first kernel is entered. -/
theorem args4_7 : V4 m c (Proc.devRef .tc main_arg7) = m ((c.tc : Thread nD τ).loc main_arg7) :=
  V4_arg m c main_arg7 (by decide) (by decide) (by decide) (by decide)
/-- Argument 8 is as launched when the last stretch before the first kernel is entered. -/
theorem args4_8 : V4 m c (Proc.devRef .tc main_arg8) = m ((c.tc : Thread nD τ).loc main_arg8) :=
  V4_arg m c main_arg8 (by decide) (by decide) (by decide) (by decide)
/-- Argument 9 is as launched when the last stretch before the first kernel is entered. -/
theorem args4_9 : V4 m c (Proc.devRef .tc main_arg9) = m ((c.tc : Thread nD τ).loc main_arg9) :=
  V4_arg m c main_arg9 (by decide) (by decide) (by decide) (by decide)

end Cert.KernelIdeal.Glue

end
-- ==== Proof.Glue4.lean ====
/- The aggregated messages the host computes before the first kernel, against the reference's: the same scatter-add of
   the same gathered rows of the same scaled features, given that the clipped out-degree is the same. -/
import proofs.«149881_j80161269613387_2_alg».proof.Proof.Gen.KernelIdeal.Regions
import proofs.«149881_j80161269613387_2_alg».proof.Proof.Gen.ReferenceIdeal.Read
import Idealize.ShloMosaic.Lib.Pipeline.Value
import Idealize.ShloMosaic.Lib.ValueIdx
import Idealize.ShloMosaic.PureOps.Ideal.Laws
import Idealize.ShloMosaic.Lib.StableHlo.Run

noncomputable section

namespace Cert.KernelIdeal.Glue4

open Cert.KernelIdeal Cert.KernelIdeal.Gen Idealize.ShloMosaic Idealize.SL.Sem Idealize.ShloMosaic.ValueIdx
open Idealize.ShloMosaic.StableHlo Idealize.ShloMosaic.TcCoe

variable (W : Valuation τ sig (Elt Ideal))

/-- The arguments as the stretch finds them. -/
abbrev a0 : FVec Ideal S100000x128 .f32 := W (Proc.devRef .tc main_arg0)
abbrev a8 : (⟨S1600000, .i32⟩ : BufTy).Contents (Elt Ideal) := W (Proc.devRef .tc main_arg8)
abbrev a9 : (⟨S1600000, .i32⟩ : BufTy).Contents (Elt Ideal) := W (Proc.devRef .tc main_arg9)

/-- The clipped out-degree as the stretch finds it. -/
abbrev v4 : FVec Ideal S100000 .f32 := W (Proc.devRef .tc main_v4)

/-- The aggregated messages the stretch leaves, as the operations' composed term of what it finds. -/
theorem v22_eq : (StableHlo.after (hostOps0_4 (F := Ideal)) W (Proc.devRef .tc main_v22) : FVec Ideal S100000x128 .f32)
    = Host.scatterAdd scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 (a9 W))
        (Host.gather gather_S100000x128_S1600000x1_S1600000x128_1_0_n_n_0_1_1128
          (mulf (a0 W) (broadcastInDim S100000x128 ![0, 1] bcast_S100000x1_S100000x128_0_1
            (broadcastInDim S100000x1 ![0] bcast_S100000_S100000x1_0 (Host.rsqrt (v4 W)))))
          (broadcastInDim S1600000x1 ![0] bcast_S1600000_S1600000x1_0
            (select (cmpi .slt (a8 W) (broadcastInDim S1600000 ![] bcast_S_S1600000 (constantI S_ 32 0#32)))
              (addi (a8 W) (broadcastInDim S1600000 ![] bcast_S_S1600000 (constantI S_ 32 100000#32))) (a8 W)))) := by
  dsimp only [hostOps0_4]
  after_results_simp

/-- The aggregated messages after the stretch are the reference's, given that the clipped out-degree it finds is. -/
theorem glue22 (h4 : v4 W = Cert.ReferenceIdeal.Read.val_main_v4 (F := Ideal) (a8 W)) :
    (StableHlo.after (hostOps0_4 (F := Ideal)) W (Proc.devRef .tc main_v22) : FVec Ideal S100000x128 .f32)
      = Cert.ReferenceIdeal.Read.val_main_v22 (F := Ideal) (a0 W) (a8 W) (a9 W) := by
  rw [v22_eq, h4]
  unfold Cert.ReferenceIdeal.Read.val_main_v22 Cert.ReferenceIdeal.Read.val_main_v19 Cert.ReferenceIdeal.Read.val_main_v12 Cert.ReferenceIdeal.Read.val_main_v11
    Cert.ReferenceIdeal.Read.val_main_v10 Cert.ReferenceIdeal.Read.val_main_v9 Cert.ReferenceIdeal.Read.val_main_v18 Cert.ReferenceIdeal.Read.val_main_v17 Cert.ReferenceIdeal.Read.val_main_v14
    Cert.ReferenceIdeal.Read.val_main_v16 Cert.ReferenceIdeal.Read.val_main_v13 Cert.ReferenceIdeal.Read.val_main_v15 Cert.ReferenceIdeal.Read.val_main_c Cert.ReferenceIdeal.Read.val_main_c_4
    Cert.ReferenceIdeal.Read.val_main_v20 Cert.ReferenceIdeal.Read.val_main_cst_5 Cert.ReferenceIdeal.Read.val_main_v21
  rfl

end Cert.KernelIdeal.Glue4
end
-- ==== Proof.Glue4b.lean ====
/- The reshapes of the last host stretch before the first kernel, read at an index: the column of
   reciprocal square roots of the in-degrees, and the four [1,128] rows of biases, scale and shift. -/
import proofs.«149881_j80161269613387_2_alg».proof.Proof.Gen.KernelIdeal.Regions
import proofs.«149881_j80161269613387_2_alg».proof.Proof.Gen.ReferenceIdeal.Read
import Idealize.ShloMosaic.Lib.Pipeline.Value
import Idealize.ShloMosaic.Lib.ValueIdx
import Idealize.ShloMosaic.PureOps.Ideal.Laws
import Idealize.ShloMosaic.Lib.StableHlo.Run

noncomputable section

namespace Cert.KernelIdeal.Glue4b

open Cert.KernelIdeal Cert.KernelIdeal.Gen Idealize.ShloMosaic Idealize.SL.Sem Idealize.ShloMosaic.ValueIdx
open Idealize.ShloMosaic.StableHlo Idealize.ShloMosaic.TcCoe

/-- A [128] vector reshaped to [1,128] reads the same lane. -/
theorem cast_row {α : Type} (v : S128.Idx → α) (q : Fin 128) :
    shapeCast S1x128 v shapeCasts_S128_S1x128 (ix2 0 q) = v (ix1 q) :=
  shapeCast_apply v shapeCasts_S128_S1x128 (ix2 0 q) (ix1 q) (by
    rw [Shape.rowMajor_val_one, Shape.rowMajor_val_two]
    show q.val = 0 * 128 + q.val
    omega)

/-- A [100000] vector reshaped to [100000,1] reads the same row. -/
theorem cast_col {α : Type} (v : S100000.Idx → α) (p : Fin 100000) :
    shapeCast S100000x1 v shapeCasts_S100000_S100000x1 (ix2 p 0) = v (ix1 p) :=
  shapeCast_apply v shapeCasts_S100000_S100000x1 (ix2 p 0) (ix1 p) (by
    rw [Shape.rowMajor_val_one, Shape.rowMajor_val_two]
    show p.val = p.val * 1 + 0
    omega)

variable (W : Valuation τ sig (Elt Ideal))

/-- The buffers the stretch leaves, as arrays. -/
abbrev out24 : FVec Ideal S100000x1 .f32 := StableHlo.after (hostOps0_4 (F := Ideal)) W (Proc.devRef .tc main_v24)
abbrev out25 : FVec Ideal S1x128 .f32 := StableHlo.after (hostOps0_4 (F := Ideal)) W (Proc.devRef .tc main_v25)
abbrev out26 : FVec Ideal S1x128 .f32 := StableHlo.after (hostOps0_4 (F := Ideal)) W (Proc.devRef .tc main_v26)
abbrev out27 : FVec Ideal S1x128 .f32 := StableHlo.after (hostOps0_4 (F := Ideal)) W (Proc.devRef .tc main_v27)
abbrev out28 : FVec Ideal S1x128 .f32 := StableHlo.after (hostOps0_4 (F := Ideal)) W (Proc.devRef .tc main_v28)
/-- The entry contents the stretch reads, as arrays. -/
abbrev in8 : FVec Ideal S100000 .f32 := W (Proc.devRef .tc main_v8)
abbrev inArg2 : FVec Ideal S128 .f32 := W (Proc.devRef .tc main_arg2)
abbrev inArg4 : FVec Ideal S128 .f32 := W (Proc.devRef .tc main_arg4)
abbrev inArg5 : FVec Ideal S128 .f32 := W (Proc.devRef .tc main_arg5)
abbrev inArg6 : FVec Ideal S128 .f32 := W (Proc.devRef .tc main_arg6)
abbrev inArg9 : (⟨S1600000, .i32⟩ : BufTy).Contents (Elt Ideal) := W (Proc.devRef .tc main_arg9)

theorem v24_eq : out24 W = shapeCast S100000x1 (Host.rsqrt (F := Ideal) (in8 W)) shapeCasts_S100000_S100000x1 := by
  dsimp only [out24, hostOps0_4]
  after_results_simp
  rfl

theorem v25_eq : out25 W = shapeCast S1x128 (inArg2 W) shapeCasts_S128_S1x128 := by
  dsimp only [out25, hostOps0_4]
  after_results_simp
  rfl

theorem v26_eq : out26 W = shapeCast S1x128 (inArg4 W) shapeCasts_S128_S1x128 := by
  dsimp only [out26, hostOps0_4]
  after_results_simp
  rfl

theorem v27_eq : out27 W = shapeCast S1x128 (inArg5 W) shapeCasts_S128_S1x128 := by
  dsimp only [out27, hostOps0_4]
  after_results_simp
  rfl

theorem v28_eq : out28 W = shapeCast S1x128 (inArg6 W) shapeCasts_S128_S1x128 := by
  dsimp only [out28, hostOps0_4]
  after_results_simp
  rfl

/-- The column of reciprocal square roots of the clipped in-degrees, row p: the reference's entry p. -/
theorem glue24 (h8 : in8 W = Cert.ReferenceIdeal.Read.val_main_v8 (F := Ideal) (inArg9 W)) (p : Fin 100000) :
    out24 W (ix2 p 0) = Cert.ReferenceIdeal.Read.val_main_v23 (F := Ideal) (inArg9 W) (ix1 p) := by
  rw [v24_eq, cast_col, h8]
  rfl

/-- The first bias row, lane q. -/
theorem glue25 (q : Fin 128) : out25 W (ix2 0 q) = inArg2 W (ix1 q) := by
  rw [v25_eq, cast_row]
/-- The second bias row, lane q. -/
theorem glue26 (q : Fin 128) : out26 W (ix2 0 q) = inArg4 W (ix1 q) := by
  rw [v26_eq, cast_row]
/-- The scale row, lane q. -/
theorem glue27 (q : Fin 128) : out27 W (ix2 0 q) = inArg5 W (ix1 q) := by
  rw [v27_eq, cast_row]
/-- The shift row, lane q. -/
theorem glue28 (q : Fin 128) : out28 W (ix2 0 q) = inArg6 W (ix1 q) := by
  rw [v28_eq, cast_row]

/-- A reference the stretch does not write keeps its contents. -/
theorem keep4 (r : Ref sig .tc) (h : r ∉ hostOps0_4_W) :
    StableHlo.after (hostOps0_4 (F := Ideal)) W (Proc.devRef .tc r) = W (Proc.devRef .tc r) :=
  StableHlo.after_of_writes_sub hostOps0_4 W hostOps0_4_writes h

end Cert.KernelIdeal.Glue4b

end
-- ==== Proof.RefRead.lean ====
import proofs.«149881_j80161269613387_2_alg».proof.Proof.Spec
import proofs.«149881_j80161269613387_2_alg».proof.Proof.Gen.ReferenceIdeal.Read

/-!
# The reference's output, read at an index

The aggregated messages `aggR` and the inverse square root of the in-degree `rinR` are kept as
opaque arrays; the activations are `xval` of them and the arguments, and the output is the
two-pass normalisation `outR` of the activations.
-/

noncomputable section

namespace Cert.RefValue

open Cert.ReferenceIdeal Cert.ReferenceIdeal.Read Idealize.ShloMosaic Idealize.ShloMosaic.ValueIdx

/-- The aggregated messages, by coordinates. -/
def aggR (x0 : (⟨S100000x128, .f32⟩ : BufTy).Contents (Elt Ideal)) (x8 : (⟨S1600000, .i32⟩ : BufTy).Contents (Elt Ideal)) (x9 : (⟨S1600000, .i32⟩ : BufTy).Contents (Elt Ideal)) : Fin 100000 → Fin 128 → EReal :=
  fun p k => val_main_v22 (F := Ideal) x0 x8 x9 (ix2 p k)

/-- The inverse square root of the clipped in-degree, by coordinate. -/
def rinR (x9 : (⟨S1600000, .i32⟩ : BufTy).Contents (Elt Ideal)) : Fin 100000 → EReal :=
  fun p => val_main_v23 (F := Ideal) x9 (ix1 p)

/-- The activations, by coordinates. -/
def xR (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x7 : (⟨S100000x128, .f32⟩ : BufTy).Contents (Elt Ideal)) (x8 : (⟨S1600000, .i32⟩ : BufTy).Contents (Elt Ideal)) (x9 : (⟨S1600000, .i32⟩ : BufTy).Contents (Elt Ideal)) : Fin 100000 → Fin 128 → EReal :=
  Cert.Spec.xval (aggR x0 x8 x9) (rinR x9) (fun p k => x0 (ix2 p k)) (fun k q => x1 (ix2 k q))
    (fun q => x2 (ix1 q)) (fun k q => x3 (ix2 k q)) (fun q => x4 (ix1 q)) (fun p q => x7 (ix2 p q))

/-! ### Index equations -/

theorem lidx27 (p : Fin 100000) (q k : Fin 128) : lidx_main_v27 (ix2 p q) k = ix2 p k := by
  funext a; match a with | ⟨0, _⟩ => rfl | ⟨1, _⟩ => rfl
theorem ridx27 (p : Fin 100000) (q k : Fin 128) : ridx_main_v27 (ix2 p q) k = ix2 k q := by
  funext a; match a with | ⟨0, _⟩ => rfl | ⟨1, _⟩ => rfl
theorem lidx31 (p : Fin 100000) (q k : Fin 128) : lidx_main_v31 (ix2 p q) k = ix2 p k := by
  funext a; match a with | ⟨0, _⟩ => rfl | ⟨1, _⟩ => rfl
theorem ridx31 (p : Fin 100000) (q k : Fin 128) : ridx_main_v31 (ix2 p q) k = ix2 k q := by
  funext a; match a with | ⟨0, _⟩ => rfl | ⟨1, _⟩ => rfl
theorem idx2829 (p : Fin 100000) (q : Fin 128) : idx_main_v28 (idx_main_v29 (ix2 p q)) = ix1 q := by
  funext a; match a with | ⟨0, _⟩ => rfl
theorem idx3233 (p : Fin 100000) (q : Fin 128) : idx_main_v32 (idx_main_v33 (ix2 p q)) = ix1 q := by
  funext a; match a with | ⟨0, _⟩ => rfl
theorem idx2425 (p : Fin 100000) (k : Fin 128) : idx_main_v24 (idx_main_v25 (ix2 p k)) = ix1 p := by
  funext a; match a with | ⟨0, _⟩ => rfl

/-- The scaled aggregate at an index. -/
theorem v26_apply (x0 : (⟨S100000x128, .f32⟩ : BufTy).Contents (Elt Ideal)) (x8 : (⟨S1600000, .i32⟩ : BufTy).Contents (Elt Ideal)) (x9 : (⟨S1600000, .i32⟩ : BufTy).Contents (Elt Ideal)) (p : Fin 100000) (k : Fin 128) :
    val_main_v26 (F := Ideal) x0 x8 x9 (ix2 p k) = aggR x0 x8 x9 p k * rinR x9 p := by
  rw [val_main_v26_apply, val_main_v25_apply, val_main_v24_apply, idx2425]
  rfl

/-- The activations at an index. -/
theorem v36_apply (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x7 : (⟨S100000x128, .f32⟩ : BufTy).Contents (Elt Ideal)) (x8 : (⟨S1600000, .i32⟩ : BufTy).Contents (Elt Ideal)) (x9 : (⟨S1600000, .i32⟩ : BufTy).Contents (Elt Ideal)) (p : Fin 100000) (q : Fin 128) :
    val_main_v36 (F := Ideal) x0 x1 x2 x3 x4 x7 x8 x9 (ix2 p q) = xR x0 x1 x2 x3 x4 x7 x8 x9 p q := by
  rw [val_main_v36_apply, val_main_v35_apply, val_main_v30_apply, val_main_v34_apply,
    val_main_v27_apply, val_main_v31_apply, val_main_v29_apply, val_main_v28_apply,
    val_main_v33_apply, val_main_v32_apply, idx2829, idx3233]
  simp only [lidx27, ridx27, lidx31, ridx31, v26_apply]
  rfl

/-! ### The statistics and the output -/

theorem zero_word : Ideal.ofBits .f32 0x00000000#32 = (0 : EReal) := by simp [Ideal.ofBits, Ideal.ieee]

theorem idx37 (q : Fin 128) (k : Fin 100000) : idx_main_v37 (ix1 q) k = ix2 k q := by
  funext a; match a with | ⟨0, _⟩ => rfl | ⟨1, _⟩ => rfl
theorem idx44 (q : Fin 128) (k : Fin 100000) : idx_main_v44 (ix1 q) k = ix2 k q := by
  funext a; match a with | ⟨0, _⟩ => rfl | ⟨1, _⟩ => rfl
theorem idx4041 (p : Fin 100000) (q : Fin 128) : idx_main_v40 (idx_main_v41 (ix2 p q)) = ix1 q := by
  funext a; match a with | ⟨0, _⟩ => rfl
theorem idx4748 (p : Fin 100000) (q : Fin 128) : idx_main_v47 (idx_main_v48 (ix2 p q)) = ix1 q := by
  funext a; match a with | ⟨0, _⟩ => rfl
theorem idx5051 (p : Fin 100000) (q : Fin 128) : idx_main_v50 (idx_main_v51 (ix2 p q)) = ix1 q := by
  funext a; match a with | ⟨0, _⟩ => rfl
theorem idx5657 (p : Fin 100000) (q : Fin 128) : idx_main_v56 (idx_main_v57 (ix2 p q)) = ix1 q := by
  funext a; match a with | ⟨0, _⟩ => rfl
theorem idx5960 (p : Fin 100000) (q : Fin 128) : idx_main_v59 (idx_main_v60 (ix2 p q)) = ix1 q := by
  funext a; match a with | ⟨0, _⟩ => rfl

/-- The column mean at an index. -/
theorem v39_apply (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x7 : (⟨S100000x128, .f32⟩ : BufTy).Contents (Elt Ideal)) (x8 : (⟨S1600000, .i32⟩ : BufTy).Contents (Elt Ideal)) (x9 : (⟨S1600000, .i32⟩ : BufTy).Contents (Elt Ideal)) (q : Fin 128) :
    val_main_v39 (F := Ideal) x0 x1 x2 x3 x4 x7 x8 x9 (ix1 q)
      = Cert.Spec.meanR (xR x0 x1 x2 x3 x4 x7 x8 x9) q := by
  have h : ∀ k : Fin 100000, val_main_v36 (F := Ideal) x0 x1 x2 x3 x4 x7 x8 x9 (idx_main_v37 (ix1 q) k)
      = xR x0 x1 x2 x3 x4 x7 x8 x9 k q := fun k => by rw [idx37, v36_apply]
  rw [val_main_v39_apply, val_main_v37_apply, val_main_v38_apply, val_main_cst_6_apply,
    val_main_cst_7_apply, Finset.sum_congr rfl fun k _ => h k, Ideal.ofBits_def, Ideal.ofBits_def,
    Ideal.hostDivf_def, zero_word]
  unfold Cert.Spec.meanR
  rfl

/-- The squared deviation at an index. -/
theorem v43_apply (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x7 : (⟨S100000x128, .f32⟩ : BufTy).Contents (Elt Ideal)) (x8 : (⟨S1600000, .i32⟩ : BufTy).Contents (Elt Ideal)) (x9 : (⟨S1600000, .i32⟩ : BufTy).Contents (Elt Ideal)) (p : Fin 100000) (q : Fin 128) :
    val_main_v43 (F := Ideal) x0 x1 x2 x3 x4 x7 x8 x9 (ix2 p q)
      = (xR x0 x1 x2 x3 x4 x7 x8 x9 p q - Cert.Spec.meanR (xR x0 x1 x2 x3 x4 x7 x8 x9) q)
        * (xR x0 x1 x2 x3 x4 x7 x8 x9 p q - Cert.Spec.meanR (xR x0 x1 x2 x3 x4 x7 x8 x9) q) := by
  rw [val_main_v43_apply, val_main_v42_apply, val_main_v41_apply, val_main_v40_apply, idx4041,
    v36_apply, v39_apply]
  rfl

/-- The column variance at an index. -/
theorem v46_apply (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x7 : (⟨S100000x128, .f32⟩ : BufTy).Contents (Elt Ideal)) (x8 : (⟨S1600000, .i32⟩ : BufTy).Contents (Elt Ideal)) (x9 : (⟨S1600000, .i32⟩ : BufTy).Contents (Elt Ideal)) (q : Fin 128) :
    val_main_v46 (F := Ideal) x0 x1 x2 x3 x4 x7 x8 x9 (ix1 q)
      = Cert.Spec.varR (xR x0 x1 x2 x3 x4 x7 x8 x9) q := by
  have h : ∀ k : Fin 100000, val_main_v43 (F := Ideal) x0 x1 x2 x3 x4 x7 x8 x9 (idx_main_v44 (ix1 q) k)
      = (xR x0 x1 x2 x3 x4 x7 x8 x9 k q - Cert.Spec.meanR (xR x0 x1 x2 x3 x4 x7 x8 x9) q)
        * (xR x0 x1 x2 x3 x4 x7 x8 x9 k q - Cert.Spec.meanR (xR x0 x1 x2 x3 x4 x7 x8 x9) q) := fun k => by rw [idx44, v43_apply]
  rw [val_main_v46_apply, val_main_v44_apply, val_main_v45_apply, val_main_cst_8_apply,
    val_main_cst_9_apply, Finset.sum_congr rfl fun k _ => h k, Ideal.ofBits_def, Ideal.ofBits_def,
    Ideal.hostDivf_def, zero_word]
  unfold Cert.Spec.varR
  rfl

/-- The reference's output at an index. -/
theorem v61_apply (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S100000x128, .f32⟩ : BufTy).Contents (Elt Ideal)) (x8 : (⟨S1600000, .i32⟩ : BufTy).Contents (Elt Ideal)) (x9 : (⟨S1600000, .i32⟩ : BufTy).Contents (Elt Ideal)) (p : Fin 100000) (q : Fin 128) :
    val_main_v61 (F := Ideal) x0 x1 x2 x3 x4 x5 x6 x7 x8 x9 (ix2 p q)
      = Cert.Spec.outR (xR x0 x1 x2 x3 x4 x7 x8 x9) (fun q => x5 (ix1 q)) (fun q => x6 (ix1 q)) p q := by
  rw [val_main_v61_apply, val_main_v58_apply, val_main_v52_apply, val_main_v57_apply,
    val_main_v56_apply, val_main_v55_apply, val_main_v54_apply, val_main_v53_apply,
    val_main_cst_10_apply, val_main_v51_apply, val_main_v50_apply, val_main_v49_apply,
    val_main_v48_apply, val_main_v47_apply, val_main_v60_apply, val_main_v59_apply,
    idx4748, idx5051, idx5657, idx5960, v36_apply, v39_apply, v46_apply]
  unfold Cert.Spec.outR
  rfl

end Cert.RefValue

end
-- ==== Proof.Law.lean ====
import proofs.«149881_j80161269613387_2_alg».proof.Proof.Spec

/-!
# One-pass and two-pass statistics agree on real-valued data

The 2 × 25 blocks of 2000 rows partition the 100000 rows, so the block-ordered running sums
are the full column sums (commutativity and associativity only).  On real-valued data the
identity `(1/n) ∑ (x − m)² = (1/n) ∑ x² − m²` with `m = (1/n) ∑ x` makes the two variances equal.
-/

open Idealize.ShloMosaic

namespace Cert.Spec

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The rows `row c i r` enumerate `Fin 100000` bijectively. -/
theorem row_bijective :
    Function.Bijective (fun t : Fin 2 × Fin 25 × Fin 2000 => row t.1 t.2.1 t.2.2) := by
  rw [Fintype.bijective_iff_injective_and_card]
  refine ⟨?_, by simp⟩
  rintro ⟨c, i, r⟩ ⟨c', i', r'⟩ h
  have h' := congrArg Fin.val h
  simp only [row] at h'
  have h1 := c.isLt; have h2 := c'.isLt; have h3 := i.isLt; have h4 := i'.isLt
  have h5 := r.isLt; have h6 := r'.isLt
  obtain ⟨hc, hi, hr⟩ : c.val = c'.val ∧ i.val = i'.val ∧ r.val = r'.val := by omega
  exact Prod.ext (Fin.ext hc) (Prod.ext (Fin.ext hi) (Fin.ext hr))

/-- A sum over all rows is the iterated sum over halves, blocks and rows of a block. -/
theorem sum_rows (f : Fin 100000 → EReal) :
    ∑ p, f p = ∑ c : Fin 2, ∑ i : Fin 25, ∑ r : Fin 2000, f (row c i r) := by
  rw [← Equiv.sum_comp (Equiv.ofBijective _ row_bijective) f, Fintype.sum_prod_type]
  refine Finset.sum_congr rfl fun c _ => ?_
  rw [Fintype.sum_prod_type]
  rfl

/-- A running sum of guarded terms is the sum over the range. -/
theorem acc_eq_sum_range (g : (n : ℕ) → n < 25 → EReal) (a : ℕ → EReal) (h0 : a 0 = 0)
    (hs : ∀ n, a (n + 1) = a n + (if h : n < 25 then g n h else 0)) (n : ℕ) :
    a n = ∑ i ∈ Finset.range n, (if h : i < 25 then g i h else 0) := by
  induction n with
  | zero => simp [h0]
  | succ n ih => rw [hs, ih, Finset.sum_range_succ]

theorem acc_eq_sum_fin (g : (n : ℕ) → n < 25 → EReal) (a : ℕ → EReal) (h0 : a 0 = 0)
    (hs : ∀ n, a (n + 1) = a n + (if h : n < 25 then g n h else 0)) :
    a 25 = ∑ i : Fin 25, g i.val i.isLt := by
  rw [acc_eq_sum_range g a h0 hs 25,
    ← Fin.sum_univ_eq_sum_range (fun i => if h : i < 25 then g i h else 0) 25]
  exact Finset.sum_congr rfl fun i _ => dif_pos i.isLt

theorem accS_25 (x : Fin 100000 → Fin 128 → EReal) (c : Fin 2) (q : Fin 128) :
    accS x c 25 q = ∑ i : Fin 25, blockSum x c i q :=
  acc_eq_sum_fin (fun n h => blockSum x c ⟨n, h⟩ q) (fun n => accS x c n q) rfl (fun _ => rfl)

theorem accQ_25 (x : Fin 100000 → Fin 128 → EReal) (c : Fin 2) (q : Fin 128) :
    accQ x c 25 q = ∑ i : Fin 25, blockSq x c i q :=
  acc_eq_sum_fin (fun n h => blockSq x c ⟨n, h⟩ q) (fun n => accQ x c n q) rfl (fun _ => rfl)

/-- The two halves' running sums add up to the full column sum. -/
theorem accS_total (x : Fin 100000 → Fin 128 → EReal) (q : Fin 128) :
    accS x 0 25 q + accS x 1 25 q = ∑ p, x p q := by
  rw [sum_rows (fun p => x p q), Fin.sum_univ_two, accS_25, accS_25]
  rfl

/-- The two halves' running sums of squares add up to the full column sum of squares. -/
theorem accQ_total (x : Fin 100000 → Fin 128 → EReal) (q : Fin 128) :
    accQ x 0 25 q + accQ x 1 25 q = ∑ p, x p q * x p q := by
  rw [sum_rows (fun p => x p q * x p q), Fin.sum_univ_two, accQ_25, accQ_25]
  rfl

/-- The one-pass mean is the two-pass mean (no hypothesis needed). -/
theorem meanK_eq (x : Fin 100000 → Fin 128 → EReal) (q : Fin 128) : meanK x q = meanR x q := by
  unfold meanK meanR
  rw [accS_total, zero_add]

/-- Division of a real by the row count. -/
theorem div_c (s : ℝ) : Ideal.div (s : EReal) c100000 = ((s / 100000 : ℝ) : EReal) := by
  rw [c100000_eq, Ideal.div_coe (by norm_num), ← EReal.coe_mul, mul_one_div]

/-- The real identity `(∑ y²)/n − m² = (∑ (y − m)²)/n` for `m = (∑ y)/n`, `n = 100000`. -/
theorem real_var (y : Fin 100000 → ℝ) :
    (∑ p, y p * y p) / 100000 - (∑ p, y p) / 100000 * ((∑ p, y p) / 100000)
      = (∑ p, (y p - (∑ p, y p) / 100000) * (y p - (∑ p, y p) / 100000)) / 100000 := by
  obtain ⟨S, hS⟩ : ∃ S, S = ∑ p, y p := ⟨_, rfl⟩
  obtain ⟨Q, hQ⟩ : ∃ Q, Q = ∑ p, y p * y p := ⟨_, rfl⟩
  rw [← hS, ← hQ]
  have h : ∑ p, (y p - S / 100000) * (y p - S / 100000)
      = Q - 2 * (S / 100000) * S + 100000 * (S / 100000 * (S / 100000)) := by
    have e : ∀ p, (y p - S / 100000) * (y p - S / 100000)
        = y p * y p - 2 * (S / 100000) * y p + S / 100000 * (S / 100000) := fun p => by ring
    rw [Finset.sum_congr rfl fun p _ => e p, Finset.sum_add_distrib, Finset.sum_sub_distrib,
      ← Finset.mul_sum, Finset.sum_const, Finset.card_univ, Fintype.card_fin, nsmul_eq_mul, ← hS, ← hQ]
    norm_num
  rw [h]
  ring

/-- On real-valued data the one-pass variance is the two-pass variance. -/
theorem varK_eq (y : Fin 100000 → Fin 128 → ℝ) (q : Fin 128) :
    varK (fun p q => ((y p q : ℝ) : EReal)) q = varR (fun p q => ((y p q : ℝ) : EReal)) q := by
  have hm : meanR (fun p q => ((y p q : ℝ) : EReal)) q = (((∑ p, y p q) / 100000 : ℝ) : EReal) := by
    unfold meanR
    rw [zero_add, ← coe_sum, div_c]
  unfold varK varR
  rw [meanK_eq, hm, accQ_total, zero_add]
  have h1 : ∀ p, ((y p q : ℝ) : EReal) * ((y p q : ℝ) : EReal) = ((y p q * y p q : ℝ) : EReal) :=
    fun p => (EReal.coe_mul _ _).symm
  have h2 : ∀ p, (((y p q : ℝ) : EReal) - (((∑ p, y p q) / 100000 : ℝ) : EReal))
        * (((y p q : ℝ) : EReal) - (((∑ p, y p q) / 100000 : ℝ) : EReal))
      = (((y p q - (∑ p, y p q) / 100000) * (y p q - (∑ p, y p q) / 100000) : ℝ) : EReal) :=
    fun p => by rw [EReal.coe_mul, EReal.coe_sub]
  rw [Finset.sum_congr rfl fun p _ => h1 p, Finset.sum_congr rfl fun p _ => h2 p,
    ← coe_sum, ← coe_sum, div_c, div_c, ← EReal.coe_mul, ← EReal.coe_sub]
  exact congrArg _ (real_var fun p => y p q)

/-- On real-valued activations the two normalised outputs coincide. -/
theorem outK_eq_outR (x : Fin 100000 → Fin 128 → EReal) (hx : ∀ p q, ∃ r : ℝ, x p q = (r : EReal))
    (gamma beta : Fin 128 → EReal) (p : Fin 100000) (q : Fin 128) :
    outK x gamma beta p q = outR x gamma beta p q := by
  choose y hy using hx
  obtain rfl : x = fun p q => ((y p q : ℝ) : EReal) := funext fun p => funext fun q => hy p q
  unfold outK outR
  rw [meanK_eq, varK_eq]

end Cert.Spec
-- ==== Proof.Finite.lean ====
import proofs.«149881_j80161269613387_2_alg».proof.Proof.RefRead
import proofs.«149881_j80161269613387_2_alg».proof.Proof.Gen.Pre_finite_inputs
import Idealize.ShloMosaic.Lib.ReduceAll
import proofs.«149881_j80161269613387_2_alg».proof.Proof.Law

/-!
# From finite inputs to real-valued activations

Every float argument has finite absolute value, hence is a real number; the degree counts, their
clipped inverse square roots, the gathered and scattered messages and the activations are then
real numbers too, each being built from reals by sums, products, a maximum with 1 and an inverse
square root of a number that is at least 1.
-/

noncomputable section

namespace Cert.RefValue

open Cert.ReferenceIdeal Cert.ReferenceIdeal.Read Idealize.ShloMosaic Idealize.ShloMosaic.ValueIdx

/-- An extended real that is a real number. -/
def IsReal (v : EReal) : Prop := ∃ r : ℝ, v = (r : EReal)

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.zero : IsReal 0 := ⟨0, rfl⟩
theorem IsReal.one : IsReal 1 := ⟨1, rfl⟩

theorem IsReal.sum {ι : Type*} (s : Finset ι) (f : ι → EReal) (h : ∀ i ∈ s, IsReal (f i)) :
    IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- The inverse square root of the maximum of 1 and a real is a real. -/
theorem IsReal.rsqrt_max_one {v : EReal} (hv : IsReal v) : IsReal (Ideal.rsqrt (max 1 v)) := by
  obtain ⟨r, rfl⟩ := hv
  have h1 : max (1 : EReal) (r : EReal) = ((max 1 r : ℝ) : EReal) := by
    rw [EReal.coe_strictMono.monotone.map_max, EReal.coe_one]
  have hpos : (0 : ℝ) < max 1 r := lt_of_lt_of_le one_pos (le_max_left 1 r)
  rw [h1, Ideal.rsqrt_coe, if_neg (not_lt.2 hpos.le), if_neg hpos.ne']
  exact ⟨_, rfl⟩

theorem one_word : Ideal.ofBits .f32 0x3F800000#32 = (1 : EReal) := by
  simp [Ideal.ofBits, Ideal.ieee, -EReal.coe_mul]; norm_num

theorem top_word : Ideal.ofBits .f32 0x7F800000#32 = (⊤ : EReal) := by simp [Ideal.ofBits, Ideal.ieee]

/-- A value whose absolute value is below `+∞` is a real. -/
theorem isReal_of_abs_lt (v : EReal)
    (h : Ideal.cmp .olt (max v (-v)) (Ideal.ofBits .f32 0x7F800000#32) = 1#1) : IsReal v := by
  rw [top_word] at h
  induction v using EReal.rec with
  | bot => simp [Ideal.cmp] at h
  | top => simp [Ideal.cmp] at h
  | coe r => exact ⟨r, rfl⟩

instance : Subsingleton Cert.Pre_finite_inputs.S_.Idx := ⟨fun a b => funext fun d => d.elim0⟩

/-- One conjunct of the precondition: every entry of the array is a real. -/
theorem entry_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
        (cmpf .olt (Host.absf x)
          (broadcastInDim s ![] hb (constant (F := Ideal) Cert.Pre_finite_inputs.S_ .f32 0x7F800000#32)))
        init hr hu ix0 = 1#1)
    (i : s.Idx) : IsReal (x i) :=
  isReal_of_abs_lt (x i) (Host.reduce_andi_all _ init hr hu ix0 e i)

/-! ### The precondition, read back -/

/-- Under the precondition every entry of every float argument is a real. -/
theorem pre_decode [Cert.Pre_finite_inputs.Facts] (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S100000x128, .f32⟩ : BufTy).Contents (Elt Ideal)) (x8 : (⟨S1600000, .i32⟩ : BufTy).Contents (Elt Ideal)) (x9 : (⟨S1600000, .i32⟩ : BufTy).Contents (Elt Ideal))
    (hpre : Cert.Pre_finite_inputs.fn (F := Ideal) x0 x1 x2 x3 x4 x5 x6 x7 x8 x9 = fun _ => 1#1) :
    (∀ i, IsReal (x0 i)) ∧ (∀ i, IsReal (x1 i)) ∧ (∀ i, IsReal (x2 i)) ∧ (∀ i, IsReal (x3 i))
      ∧ (∀ i, IsReal (x4 i)) ∧ (∀ i, IsReal (x5 i)) ∧ (∀ i, IsReal (x6 i)) ∧ (∀ i, IsReal (x7 i)) := by
  have h := congrFun hpre ix0
  dsimp only [Cert.Pre_finite_inputs.fn, Cert.Pre_finite_inputs.fn_part1,
    Cert.Pre_finite_inputs.fn_part2] at h
  obtain ⟨h33, h37⟩ := IntOp.andi_eq_one.1 h
  obtain ⟨h28, h32⟩ := IntOp.andi_eq_one.1 h33
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨entry_real _ _ _ _ _ h3, entry_real _ _ _ _ _ h7, entry_real _ _ _ _ _ h12,
    entry_real _ _ _ _ _ h17, entry_real _ _ _ _ _ h22, entry_real _ _ _ _ _ h27,
    entry_real _ _ _ _ _ h32, entry_real _ _ _ _ _ h37⟩

/-! ### Reals through the degree counts and the messages -/

/-- A scatter-add of reals into reals is real: an entry plus a finite sum of updates. -/
theorem isReal_scatterAdd {s si u : Shape} {w : Nat} (d : ScatterDims s si u) (x : FVec Ideal s .f32)
    (idx : IVec si w) (upd : FVec Ideal u .f32) (hx : ∀ i, IsReal (x i)) (hu : ∀ j, IsReal (upd j))
    (i : s.Idx) : IsReal (Host.scatterAdd d x idx upd i) := by
  simp only [Host.scatterAdd, Ideal.hostScatterAdd_def, Ideal.hostScatterAdd]
  exact (hx i).add (IsReal.sum _ _ fun j _ => hu j)

theorem real_v0 (j : S1600000.Idx) : IsReal (val_main_v0 (F := Ideal) j) := by
  rw [val_main_v0_apply, val_main_cst_apply, Ideal.ofBits_def, one_word]; exact IsReal.one

/-- The out-degree counts are real. -/
theorem real_v3 (x8 : (⟨S1600000, .i32⟩ : BufTy).Contents (Elt Ideal)) (i : S100000.Idx) : IsReal (val_main_v3 (F := Ideal) x8 i) := by
  unfold val_main_v3
  refine isReal_scatterAdd _ _ _ _ (fun i => ?_) real_v0 i
  rw [val_main_v1_apply, val_main_cst_0_apply, Ideal.ofBits_def, zero_word]; exact IsReal.zero

/-- The in-degree counts are real. -/
theorem real_v7 (x9 : (⟨S1600000, .i32⟩ : BufTy).Contents (Elt Ideal)) (i : S100000.Idx) : IsReal (val_main_v7 (F := Ideal) x9 i) := by
  unfold val_main_v7
  refine isReal_scatterAdd _ _ _ _ (fun i => ?_) real_v0 i
  rw [val_main_v5_apply, val_main_cst_2_apply, Ideal.ofBits_def, zero_word]; exact IsReal.zero

/-- The inverse square root of the clipped out-degree is real. -/
theorem real_v9 (x8 : (⟨S1600000, .i32⟩ : BufTy).Contents (Elt Ideal)) (i : S100000.Idx) : IsReal (val_main_v9 (F := Ideal) x8 i) := by
  rw [val_main_v9_apply, val_main_v4_apply, val_main_call0_v1_apply, val_main_call0_v0_apply,
    val_main_cst_1_apply, Ideal.ofBits_def, one_word, Ideal.hostUnary_rsqrt_def, Ideal.maximumf_def]
  exact (real_v3 x8 i).rsqrt_max_one

/-- The inverse square root of the clipped in-degree is real. -/
theorem real_v23 (x9 : (⟨S1600000, .i32⟩ : BufTy).Contents (Elt Ideal)) (i : S100000.Idx) : IsReal (val_main_v23 (F := Ideal) x9 i) := by
  rw [val_main_v23_apply, val_main_v8_apply, val_main_call1_v1_apply, val_main_call1_v0_apply,
    val_main_cst_3_apply, Ideal.ofBits_def, one_word, Ideal.hostUnary_rsqrt_def, Ideal.maximumf_def]
  exact (real_v7 x9 i).rsqrt_max_one

theorem real_v11 (x8 : (⟨S1600000, .i32⟩ : BufTy).Contents (Elt Ideal)) (i : S100000x128.Idx) : IsReal (val_main_v11 (F := Ideal) x8 i) := by
  rw [val_main_v11_apply, val_main_v10_apply]; exact real_v9 x8 _

/-- The scaled features are real. -/
theorem real_v12 (x0 : (⟨S100000x128, .f32⟩ : BufTy).Contents (Elt Ideal)) (x8 : (⟨S1600000, .i32⟩ : BufTy).Contents (Elt Ideal)) (h0 : ∀ i, IsReal (x0 i)) (i : S100000x128.Idx) :
    IsReal (val_main_v12 (F := Ideal) x0 x8 i) := by
  rw [val_main_v12_apply, Ideal.mulf_def]; exact (h0 i).mul (real_v11 x8 i)

/-- The gathered messages are real. -/
theorem real_v19 (x0 : (⟨S100000x128, .f32⟩ : BufTy).Contents (Elt Ideal)) (x8 : (⟨S1600000, .i32⟩ : BufTy).Contents (Elt Ideal)) (h0 : ∀ i, IsReal (x0 i)) (j : S1600000x128.Idx) :
    IsReal (val_main_v19 (F := Ideal) x0 x8 j) := by
  unfold val_main_v19 Host.gather; exact real_v12 x0 x8 h0 _

/-- The aggregated messages are real. -/
theorem real_v22 (x0 : (⟨S100000x128, .f32⟩ : BufTy).Contents (Elt Ideal)) (x8 : (⟨S1600000, .i32⟩ : BufTy).Contents (Elt Ideal)) (x9 : (⟨S1600000, .i32⟩ : BufTy).Contents (Elt Ideal)) (h0 : ∀ i, IsReal (x0 i)) (i : S100000x128.Idx) :
    IsReal (val_main_v22 (F := Ideal) x0 x8 x9 i) := by
  unfold val_main_v22
  refine isReal_scatterAdd _ _ _ _ (fun i => ?_) (real_v19 x0 x8 h0) i
  rw [val_main_v20_apply, val_main_cst_5_apply, Ideal.ofBits_def, zero_word]; exact IsReal.zero

/-! ### The activations are real -/

/-- Under the precondition every activation is a real number. -/
theorem xR_real [Cert.Pre_finite_inputs.Facts] (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S100000x128, .f32⟩ : BufTy).Contents (Elt Ideal)) (x8 : (⟨S1600000, .i32⟩ : BufTy).Contents (Elt Ideal)) (x9 : (⟨S1600000, .i32⟩ : BufTy).Contents (Elt Ideal))
    (hpre : Cert.Pre_finite_inputs.fn (F := Ideal) x0 x1 x2 x3 x4 x5 x6 x7 x8 x9 = fun _ => 1#1) :
    ∀ p q, ∃ r : ℝ, xR x0 x1 x2 x3 x4 x7 x8 x9 p q = (r : EReal) := by
  obtain ⟨h0, h1, h2, h3, h4, _, _, h7⟩ := pre_decode x0 x1 x2 x3 x4 x5 x6 x7 x8 x9 hpre
  intro p q
  unfold xR Cert.Spec.xval aggR rinR
  exact (((IsReal.sum _ _ fun k _ =>
      ((real_v22 x0 x8 x9 h0 _).mul (real_v23 x9 _)).mul (h1 _)).add (h2 _)).add
    ((IsReal.sum _ _ fun k _ => (h0 _).mul (h3 _)).add (h4 _))).mul (h7 _)

/-- Under the precondition the reference's output is the one-pass normalisation of the activations. -/
theorem v61_eq_outK [Cert.Pre_finite_inputs.Facts] (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S100000x128, .f32⟩ : BufTy).Contents (Elt Ideal)) (x8 : (⟨S1600000, .i32⟩ : BufTy).Contents (Elt Ideal)) (x9 : (⟨S1600000, .i32⟩ : BufTy).Contents (Elt Ideal))
    (hpre : Cert.Pre_finite_inputs.fn (F := Ideal) x0 x1 x2 x3 x4 x5 x6 x7 x8 x9 = fun _ => 1#1)
    (p : Fin 100000) (q : Fin 128) :
    val_main_v61 (F := Ideal) x0 x1 x2 x3 x4 x5 x6 x7 x8 x9 (ix2 p q)
      = Cert.Spec.outK (xR x0 x1 x2 x3 x4 x7 x8 x9) (fun q => x5 (ix1 q)) (fun q => x6 (ix1 q)) p q := by
  rw [v61_apply, Cert.Spec.outK_eq_outR _ (xR_real x0 x1 x2 x3 x4 x5 x6 x7 x8 x9 hpre)]

end Cert.RefValue

end
-- ==== Proof.KI.Final.lean ====
/-
  The kernel's result is the reference's. Before the first pallas_call the kernel's program has applied the very host
  operations the reference starts with, so the aggregated messages and the inverse square roots of the clipped in-degrees
  it hands the call are the reference's, and the other six arrays are arguments (reshaped rows read at the same
  entries): the kernel's `x` is the reference's `x`. The second pallas_call's result is then the specification's
  normalisation with the one-pass statistics of that `x`, which — every entry of `x` being a real number when the inputs
  are finite — is the reference's result.
-/
import proofs.«149881_j80161269613387_2_alg».proof.Proof.Gen.KernelIdeal.Launch
import proofs.«149881_j80161269613387_2_alg».proof.Proof.Gen.KernelIdeal.Skeleton
import proofs.«149881_j80161269613387_2_alg».proof.Proof.Gen.KernelIdeal.Points
import proofs.«149881_j80161269613387_2_alg».proof.Proof.KI.Mid
import proofs.«149881_j80161269613387_2_alg».proof.Proof.KI.ValB
import proofs.«149881_j80161269613387_2_alg».proof.Proof.Glue
import proofs.«149881_j80161269613387_2_alg».proof.Proof.Glue4
import proofs.«149881_j80161269613387_2_alg».proof.Proof.Glue4b
import proofs.«149881_j80161269613387_2_alg».proof.Proof.Finite
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Idealize.ShloMosaic.StableHlo Cert.RefValue

section

variable (m : (ℓ : Loc nD τ sig) → Buf (Elt Ideal) ℓ) (c : Dev nD)

/-- The argument arrays, typed as the reference's stages take them. -/
abbrev M0 : (⟨S100000x128, .f32⟩ : BufTy).Contents (Elt Ideal) := m ((c.tc : Thread nD τ).loc main_arg0)
abbrev M1 : (⟨S128x128, .f32⟩ : BufTy).Contents (Elt Ideal) := m ((c.tc : Thread nD τ).loc main_arg1)
abbrev M2 : (⟨S128, .f32⟩ : BufTy).Contents (Elt Ideal) := m ((c.tc : Thread nD τ).loc main_arg2)
abbrev M3 : (⟨S128x128, .f32⟩ : BufTy).Contents (Elt Ideal) := m ((c.tc : Thread nD τ).loc main_arg3)
abbrev M4 : (⟨S128, .f32⟩ : BufTy).Contents (Elt Ideal) := m ((c.tc : Thread nD τ).loc main_arg4)
abbrev M5 : (⟨S128, .f32⟩ : BufTy).Contents (Elt Ideal) := m ((c.tc : Thread nD τ).loc main_arg5)
abbrev M6 : (⟨S128, .f32⟩ : BufTy).Contents (Elt Ideal) := m ((c.tc : Thread nD τ).loc main_arg6)
abbrev M7 : (⟨S100000x128, .f32⟩ : BufTy).Contents (Elt Ideal) := m ((c.tc : Thread nD τ).loc main_arg7)
abbrev M8 : (⟨S1600000, .i32⟩ : BufTy).Contents (Elt Ideal) := m ((c.tc : Thread nD τ).loc main_arg8)
abbrev M9 : (⟨S1600000, .i32⟩ : BufTy).Contents (Elt Ideal) := m ((c.tc : Thread nD τ).loc main_arg9)

/-- An argument array is untouched by the five stretches before the first pallas_call. -/
theorem arg_at (r : Ref sig .tc) (h1 : r ∉ hostOps0_W) (h2 : r ∉ hostOps0_1_W) (h3 : r ∉ hostOps0_2_W) (h4 : r ∉ hostOps0_3_W) (h5 : r ∉ hostOps0_4_W) :
    V5 m c r = m ((c : Thread nD τ).loc r) :=
  (Cert.KernelIdeal.Glue4b.keep4 (Gen.V4 m c) r h5).trans (Cert.KernelIdeal.Glue.V4_arg m c r h1 h2 h3 h4)

theorem agg_at (p : Fin 100000) (k : Fin 128) : aAgg (V5 m) c (ix2 p k) = aggR (M0 m c) (M8 m c) (M9 m c) p k := by
  have e0 : Cert.KernelIdeal.Glue4.a0 (Gen.V4 m c) = M0 m c := Cert.KernelIdeal.Glue.args4_0 m c
  have e8 : Cert.KernelIdeal.Glue4.a8 (Gen.V4 m c) = M8 m c := Cert.KernelIdeal.Glue.args4_8 m c
  have e9 : Cert.KernelIdeal.Glue4.a9 (Gen.V4 m c) = M9 m c := Cert.KernelIdeal.Glue.args4_9 m c
  have h := Cert.KernelIdeal.Glue4.glue22 (Gen.V4 m c) (by rw [e8]; exact Cert.KernelIdeal.Glue.deg4 m c)
  rw [e0, e8, e9] at h
  exact congrFun h (ix2 p k)

theorem rin_at (p : Fin 100000) : aRin (V5 m) c (ix2 p 0) = rinR (M9 m c) p := by
  have e9 : Cert.KernelIdeal.Glue4b.inArg9 (Gen.V4 m c) = M9 m c := Cert.KernelIdeal.Glue.args4_9 m c
  have h := Cert.KernelIdeal.Glue4b.glue24 (Gen.V4 m c) (by rw [e9]; exact Cert.KernelIdeal.Glue.deg8 m c) p
  rw [e9] at h
  exact h

theorem b_at (q : Fin 128) : aB (V5 m) c (ix2 0 q) = M2 m c (ix1 q) := by
  have e : Cert.KernelIdeal.Glue4b.inArg2 (Gen.V4 m c) = M2 m c := Cert.KernelIdeal.Glue.args4_2 m c
  have h := Cert.KernelIdeal.Glue4b.glue25 (Gen.V4 m c) q
  rw [e] at h
  exact h
theorem bres_at (q : Fin 128) : aBres (V5 m) c (ix2 0 q) = M4 m c (ix1 q) := by
  have e : Cert.KernelIdeal.Glue4b.inArg4 (Gen.V4 m c) = M4 m c := Cert.KernelIdeal.Glue.args4_4 m c
  have h := Cert.KernelIdeal.Glue4b.glue26 (Gen.V4 m c) q
  rw [e] at h
  exact h
theorem gamma_in (q : Fin 128) : (V5 m c main_v27 : FVec Ideal S1x128 .f32) (ix2 0 q) = M5 m c (ix1 q) := by
  have e : Cert.KernelIdeal.Glue4b.inArg5 (Gen.V4 m c) = M5 m c := Cert.KernelIdeal.Glue.args4_5 m c
  have h := Cert.KernelIdeal.Glue4b.glue27 (Gen.V4 m c) q
  rw [e] at h
  exact h
theorem beta_in (q : Fin 128) : (V5 m c main_v28 : FVec Ideal S1x128 .f32) (ix2 0 q) = M6 m c (ix1 q) := by
  have e : Cert.KernelIdeal.Glue4b.inArg6 (Gen.V4 m c) = M6 m c := Cert.KernelIdeal.Glue.args4_6 m c
  have h := Cert.KernelIdeal.Glue4b.glue28 (Gen.V4 m c) q
  rw [e] at h
  exact h

theorem feats_at : aFeats (V5 m) c = M0 m c := arg_at m c main_arg0 (by decide) (by decide) (by decide) (by decide) (by decide)
theorem w_at : aW (V5 m) c = M1 m c := arg_at m c main_arg1 (by decide) (by decide) (by decide) (by decide) (by decide)
theorem wres_at : aWres (V5 m) c = M3 m c := arg_at m c main_arg3 (by decide) (by decide) (by decide) (by decide) (by decide)
theorem mask_at : aMask (V5 m) c = M7 m c := arg_at m c main_arg7 (by decide) (by decide) (by decide) (by decide) (by decide)

/-- The kernel's `x` is the reference's. -/
theorem XK_eq_xR : XK (V5 m) c = xR (M0 m c) (M1 m c) (M2 m c) (M3 m c) (M4 m c) (M7 m c) (M8 m c) (M9 m c) := by
  funext p q
  unfold XK xR
  rw [show (fun p k => aAgg (V5 m) c (ix2 p k)) = aggR (M0 m c) (M8 m c) (M9 m c) from funext fun p => funext fun k => agg_at m c p k,
    show (fun p => aRin (V5 m) c (ix2 p 0)) = rinR (M9 m c) from funext fun p => rin_at m c p,
    show (fun q => aB (V5 m) c (ix2 0 q)) = (fun q => M2 m c (ix1 q)) from funext fun q => b_at m c q,
    show (fun q => aBres (V5 m) c (ix2 0 q)) = (fun q => M4 m c (ix1 q)) from funext fun q => bres_at m c q,
    feats_at, w_at, wres_at, mask_at]

/-- THE RESULT: under the precondition the kernel's result array is the reference's result of the same arguments. -/
theorem result_eq [Cert.Pre_finite_inputs.Facts]
    (hpre : Cert.Pre_finite_inputs.fn (F := Ideal) (M0 m c) (M1 m c) (M2 m c) (M3 m c) (M4 m c) (M5 m c) (M6 m c) (M7 m c) (M8 m c) (M9 m c) = fun _ => 1#1) :
    ((dat1 (F := Ideal) (V7 m) c).arrAt 5 cfg1.N : FVec Ideal S100000x128 .f32)
      = Cert.ReferenceIdeal.Read.val_main_v61 (F := Ideal) (M0 m c) (M1 m c) (M2 m c) (M3 m c) (M4 m c) (M5 m c) (M6 m c) (M7 m c) (M8 m c) (M9 m c) := by
  funext i
  obtain ⟨p, q, rfl⟩ : ∃ (p : Fin 100000) (q : Fin 128), i = ix2 p q := ⟨i 0, i 1, eq_ix2 i⟩
  rw [resultB (V7 m) c p q, v61_eq_outK _ _ _ _ _ _ _ _ _ _ hpre p q]
  unfold Cert.Spec.outK
  rw [show xB (V7 m) c (ix2 p q) = XK (V5 m) c p q from x_at m c p q,
    show meanB (V7 m) c (ix2 0 q) = Cert.Spec.meanK (XK (V5 m) c) q from mean_at m c q,
    show varB (V7 m) c (ix2 0 q) = Cert.Spec.varK (XK (V5 m) c) q from var_at m c q,
    show gammaB (V7 m) c = V5 m c main_v27 from gamma_at m c,
    show betaB (V7 m) c = V5 m c main_v28 from beta_at m c,
    gamma_in m c q, beta_in m c q, XK_eq_xR m c]

end

end Cert.KernelIdeal.Frm

end
-- ==== Proof.lean ====
/-
  The claim: the word-level program, its idealization and the idealized reference each run to the end without a fault
  and leave their argument arrays unchanged; the idealization rewrote nothing; and at the ideal instance, from memories
  that agree on the arguments and hold finite numbers, the kernel's program and the reference end with the same result.

  The kernel's program is five stretches of host operations (the degree counts, the message aggregation by a gather and
  a scatter-add, reshapes), a first pallas_call over 2 × 25 blocks of 2000 rows that computes
  `x = ((agg · rin) W + b + feats W_res + b_res) · mask` block by block while two scratch rows accumulate the column
  sums of `x` and of `x²`, a stretch that turns the two cores' partial sums into the column means and the variances
  `E[x²] − mean²`, and a second pallas_call that normalises `x`. The reference computes the same `x` on the host and the
  variance as the mean of `(x − mean)²`. The two variances agree because every entry of `x` is a real number when the
  inputs are finite: the degrees are counts, clipped below by 1, so their inverse square roots are real, and sums and
  products of reals are real.
-/
import proofs.«149881_j80161269613387_2_alg».proof.Defs
import proofs.«149881_j80161269613387_2_alg».proof.Proof.Gen.Kernel
import proofs.«149881_j80161269613387_2_alg».proof.Proof.Gen.KernelIdeal
import proofs.«149881_j80161269613387_2_alg».proof.Proof.Gen.ReferenceIdeal
import proofs.«149881_j80161269613387_2_alg».proof.Proof.Gen.ReferenceIdeal.Run
import proofs.«149881_j80161269613387_2_alg».proof.Proof.Gen.ReferenceIdeal.Read
import proofs.«149881_j80161269613387_2_alg».proof.Proof.Gen.Pre_finite_inputs
import proofs.«149881_j80161269613387_2_alg».proof.Proof.K.Run
import proofs.«149881_j80161269613387_2_alg».proof.Proof.KI.Run
import proofs.«149881_j80161269613387_2_alg».proof.Proof.KI.Final
import Idealize.ShloMosaic.Adequacy
import Idealize.ShloMosaic.Init

noncomputable section

namespace Cert.Proof

open Idealize.ShloMosaic Idealize.SL.Sem

/-- The word-level program runs and keeps its arguments. -/
theorem frame_k : Cert.frame_Kernel (hKernel := Cert.Kernel.Gen.facts) (hPre_finite_inputs := Cert.Pre_finite_inputs.Gen.facts) :=
  fun m ρ _ => Cert.Kernel.Frm.frame (F := Bits) m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Frm.frame (F := Ideal) m ρ

/-- The reference is host operations only: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- At the ideal instance, from memories that agree on the arguments, the two programs end with the same result: the
    kernel's program ends with its result array at what the second pallas_call's write-backs leave, which under the
    precondition is the reference's result term of the arguments; the reference's run ends at that term of its own
    arguments, which are the same arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => (Cert.KernelIdeal.Frm.dat1 (F := Ideal) (Cert.KernelIdeal.Frm.V7 m) c).arrAt 5 Cert.KernelIdeal.cfg1.N,
    Cert.KernelIdeal.Frm.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [Cert.ReferenceIdeal.Read.val_main_v61_eq, e0, e1, e2, e3, e4, e5, e6, e7, e8, e9]
  exact (Cert.KernelIdeal.Frm.result_eq m c (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
